-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S1120x10000 : Shape := ⟨2, ![1120, 10000]⟩
abbrev S1120x128 : Shape := ⟨2, ![1120, 128]⟩
abbrev S10080x128 : Shape := ⟨2, ![10080, 128]⟩

abbrev nBuf : Space → Nat
  | .hbm => 21
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S10000x10000, .bf16⟩
  | .hbm, ⟨18, _⟩ => ⟨S10000x128, .bf16⟩
  | .hbm, ⟨19, _⟩ => ⟨S10000x128, .f32⟩
  | .hbm, ⟨20, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x10000, .bf16⟩
  | .local _ .vmem, ⟨8, _⟩ => ⟨S400x10000, .bf16⟩
  | .local _ .vmem, ⟨9, _⟩ => ⟨S400x128, .bf16⟩
  | .local _ .vmem, ⟨10, _⟩ => ⟨S400x128, .bf16⟩
  | .local _ .vmem, ⟨11, _⟩ => ⟨S10000x128, .bf16⟩
  | .local _ .vmem, ⟨12, _⟩ => ⟨S1120x10000, .bf16⟩
  | .local _ .vmem, ⟨13, _⟩ => ⟨S1120x10000, .bf16⟩
  | .local _ .vmem, ⟨14, _⟩ => ⟨S10000x128, .bf16⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1120x128, .f32⟩
  | .local _ .vmem, ⟨22, _⟩ => ⟨S1120x128, .f32⟩
  | .local _ .vmem, ⟨23, _⟩ => ⟨S1120x128, .f32⟩
  | .local _ .vmem, ⟨24, _⟩ => ⟨S1120x128, .f32⟩
  | .local _ .vmem, ⟨25, _⟩ => ⟨S10080x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 9], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1120_i32 : BitVec 32 := 1120#32
  let v22 : BitVec 32 := Scalar.muli arg1 c1120_i32
  let v23 : Index := Scalar.indexCast v22
  let c0_11 : Index := 0#32
  ![v23.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S1120x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1120x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1120x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1120x10000_S1120x10000_0_0 : ∀ a, (![0, 0] : Fin 2 → Nat) a + S1120x10000.size a ≤ S1120x10000.size a
  h_S1120x10000 : 0 < S1120x10000.numel
  shapeCasts_S1120x10000_S1120x10000 : S1120x10000.ShapeCasts S1120x10000
  broadcasts_S1x128_S1120x128 : S1x128.Broadcasts S1120x128
  h_S1120x128 : 0 < S1120x128.numel
  shapeCasts_S1120x128_S1120x128 : S1120x128.ShapeCasts S1120x128
  inb_S10080x128_S10000x128_0_0 : ∀ a, (![0, 0] : Fin 2 → Nat) a + S10000x128.size a ≤ S10080x128.size a
  inb_S1120x128_S1120x128_0_0 : ∀ a, (![0, 0] : Fin 2 → Nat) a + S1120x128.size a ≤ S1120x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1120x10000_S10000x128_S1120x128_1_0_0_1_n_n_wf : DotDims.WF S1120x10000 S10000x128 S1120x128 [1] [0] [0] [1] [] []
  dot_S1120x128_S128x128_S1120x128_1_0_0_1_n_n_wf : DotDims.WF S1120x128 S128x128 S1120x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .bf16 = 32 ∨ (Rect.block (s := S10000x128) S400x128.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S1120x128.size a ≤ S10080x128.size a
  k1_off1_packedbf16 : ∀ i : grid1.Coords, ∀ (k1_h1 : k1_cond1 i = 1#1), (Rect.unit (s := S10080x128) (k1_off1 i) S1120x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1120x10000.size a < S10000x10000.size a
  hwx1_0 : ∀ i : grid1.Coords, EltTy.bits .bf16 = 32 ∨ (Rect.unit (s := S10000x10000) (fun a => cc1_transform_0 i a * S1120x10000.size a) (fun a => (Pipeline.Clip.of (cc1_transform_0 i a) (S1120x10000.size a) (S10000x10000.size a)).extent (S1120x10000.size a)) fun a => Pipeline.Clip.inb (Pipeline.Clip.ok_of (hstart1_0 i a))).WholeWords (EltTy.packing .bf16)
  hwxs1_0 : ∀ i : grid1.Coords, EltTy.bits .bf16 = 32 ∨ (Rect.unit (s := S1120x10000) (fun _ => 0) (fun a => (Pipeline.Clip.of (cc1_transform_0 i a) (S1120x10000.size a) (S10000x10000.size a)).extent (S1120x10000.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hstart1_8 : ∀ (i : grid1.Coords) a, cc1_transform_8 i a * S1120x128.size a < S10000x128.size a
  hwx1_8 : ∀ i : grid1.Coords, EltTy.bits .f32 = 32 ∨ (Rect.unit (s := S10000x128) (fun a => cc1_transform_8 i a * S1120x128.size a) (fun a => (Pipeline.Clip.of (cc1_transform_8 i a) (S1120x128.size a) (S10000x128.size a)).extent (S1120x128.size a)) fun a => Pipeline.Clip.inb (Pipeline.Clip.ok_of (hstart1_8 i a))).WholeWords (EltTy.packing .f32)
  hwxs1_8 : ∀ i : grid1.Coords, EltTy.bits .f32 = 32 ∨ (Rect.unit (s := S1120x128) (fun _ => 0) (fun a => (Pipeline.Clip.of (cc1_transform_8 i a) (S1120x128.size a) (S10000x128.size a)).extent (S1120x128.size a)) fun a => (Nat.zero_add _).trans_le (Pipeline.Clip.extent_le (Pipeline.Clip.ok_of (hstart1_8 i a)))).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hstart1_9 : ∀ (i : grid1.Coords) a, cc1_transform_9 i a * S1120x128.size a < S10000x128.size a
  hwx1_9 : ∀ i : grid1.Coords, EltTy.bits .f32 = 32 ∨ (Rect.unit (s := S10000x128) (fun a => cc1_transform_9 i a * S1120x128.size a) (fun a => (Pipeline.Clip.of (cc1_transform_9 i a) (S1120x128.size a) (S10000x128.size a)).extent (S1120x128.size a)) fun a => Pipeline.Clip.inb (Pipeline.Clip.ok_of (hstart1_9 i a))).WholeWords (EltTy.packing .f32)
  hwxs1_9 : ∀ i : grid1.Coords, EltTy.bits .f32 = 32 ∨ (Rect.unit (s := S1120x128) (fun _ => 0) (fun a => (Pipeline.Clip.of (cc1_transform_9 i a) (S1120x128.size a) (S10000x128.size a)).extent (S1120x128.size a)) fun a => (Nat.zero_add _).trans_le (Pipeline.Clip.extent_le (Pipeline.Clip.ok_of (hstart1_9 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1120x10000_S10000x128_S1120x128_1_0_0_1_n_n : DotDims S1120x10000 S10000x128 S1120x128 where
  lhsContracting := [1]
  rhsContracting := [0]
  lhsNonContracting := [0]
  rhsNonContracting := [1]
  lhsBatch := []
  rhsBatch := []
  wf := dot_S1120x10000_S10000x128_S1120x128_1_0_0_1_n_n_wf
def dot_S1120x128_S128x128_S1120x128_1_0_0_1_n_n : DotDims S1120x128 S128x128 S1120x128 where
  lhsContracting := [1]
  rhsContracting := [0]
  lhsNonContracting := [0]
  rhsNonContracting := [1]
  lhsBatch := []
  rhsBatch := []
  wf := dot_S1120x128_S128x128_S1120x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S400x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpecClip (Memref.whole main_v5_0) S1120x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v5_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpecClip (Memref.whole main_v6_0) S1120x128.size cc1_transform_8 reads1_8 true false 2 stage1_8 sem1_8
    hrank1 hreads1_8 hstart1_8 nbuf1_8 (Memref.isWhole_whole _) hwx1_8 hwxs1_8 hstage1_8

abbrev win1_9 : Pipeline.Window sig grid1 :=
  Pipeline.Window.ofSpecClip (Memref.whole main_v6_1) S1120x128.size cc1_transform_9 reads1_9 true false 2 stage1_9 sem1_9
    hrank1 hreads1_9 hstart1_9 nbuf1_9 (Memref.isWhole_whole _) hwx1_9 hwxs1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call2_cst : Ref sig .tc := ⟨.hbm, 37, rfl⟩
abbrev main_call2_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Body0K.lean ====
/- The body of region 0 (the first graph-convolution layer), run on whole staging buffers.

   At a grid point the body reads the 400-row block of the adjacency matrix, and the weights and biases; at the
   FIRST point only it also computes the dense map G1 = x·W1 + b1 of all 10000 rows into a scratch buffer that every
   later point reads back. Every store of the body writes a whole buffer through the rectangle of all its indices
   at offsets zero, so what a buffer holds afterwards is the store's payload itself, and every load is of a whole
   buffer, so it reads the buffer's contents. The two theorems below say what the nine buffers hold after the body
   — one for the first point, where the branch is taken, one for the others, where the scratch is only read. -/
import proofs.«176009_g27539330302398_cont_9to1_2132_15_alg».proof.Proof.Gen.Kernel.Launch
import proofs.«176009_g27539330302398_cont_9to1_2132_15_alg».proof.Proof.Gen.Kernel.Skeleton
import proofs.«176009_g27539330302398_cont_9to1_2132_15_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
theorem hz2 : (![0, 0] : Fin 2 → Nat) = fun _ => 0 := funext fun a => by fin_cases a <;> rfl

section WholeBuffer
variable {sg : RefSig} {κ : Kind} {sp : Space} {S : Shape} {e : EltTy}

/-- One store through the whole-shape rectangle at zero offsets leaves exactly its payload: the rectangle holds every
    index, so the single piece covers, and its canonical contents are the payload. -/
theorem read_writes_unit_zero (v : View sg κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_unit_zero (v : View sg κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

end WholeBuffer

/-- The condition of the body's one branch, from the grid coordinate: "this is point 0". -/
abbrev cond0 (i : grid0.Coords) : Prop := (Scalar.cmpi .ne (Scalar.extui (Scalar.cmpi .eq (BitVec.ofNat 32 (i 0).val) 0#32)) 0#32) = 1#1

/-- It holds at the first of the 25 grid points and at no other (decided over the grid). -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- Away from the first point the branch is skipped: the scratch (`arg9`, holding `s`) is only read. The adjacency
    block's rounded copy (`arg7`) ends at `k0_pay2 x1`, the layer's output block (`arg8`) at
    `k0_pay3 x1 s x5 x6` = round(relu(A·s)·W2 + b2); the six inputs and the scratch are handed back as they were.
    What `arg7` and `arg8` held before is read by dead loads and never used, hence the existentials. -/
theorem sound_kernel0_rest (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S10000x128 .bf16) (harg9 : arg9.IsWhole)
    (x1 : Vec F S400x10000 .f32) (x2 : Vec F S10000x128 .f32) (x3 : Vec F S128x128 .f32) (x4 : Vec F S1x128 .f32) (x5 : Vec F S128x128 .f32) (x6 : Vec F S1x128 .f32) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay2 x1) ∗ owns (c : Thread nD τ) arg8 fullShare (k0_pay3 x1 s x5 x6) ∗ owns (c : Thread nD τ) arg9 fullShare s) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1 hf2 hf3 hf4 hf5 hf6 hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero _ _ hz2, readAt_unit_zero _ _ hz2]
  isplitl [H8]
  · iexists _; isplitr
    swap; · iexact H8
    ipureintro
    rw [read_writes_unit_zero _ _ hz2, readAt_unit_zero _ _ hz2, readAt_unit_zero _ _ hz2, readAt_unit_zero _ _ hz2, readAt_unit_zero _ _ hz2]
  iexists f9; isplitr; · ipureintro; rfl
  iexact H9

set_option maxHeartbeats 1000000 in
/-- At the first point the branch is taken: the dense map G1 = round(round(x)·round(W1) + b1) of all 10000 rows,
    `k0_pay1 x2 x3 x4`, is stored over the whole scratch (`arg9`) and read back by the layer, so the output block
    (`arg8`) ends at `k0_pay3 x1 (k0_pay1 x2 x3 x4) x5 x6` and the scratch at `k0_pay1 x2 x3 x4`. What the three
    written buffers held before is read by dead loads and never used, hence the existentials. -/
theorem sound_kernel0_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S10000x128 .bf16) (harg9 : arg9.IsWhole)
    (x1 : Vec F S400x10000 .f32) (x2 : Vec F S10000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay2 x1) ∗ owns (c : Thread nD τ) arg8 fullShare (k0_pay3 x1 (k0_pay1 x2 x3 x4) x5 x6) ∗ owns (c : Thread nD τ) arg9 fullShare (k0_pay1 x2 x3 x4)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec (disch := first | exact hc)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero _ _ hz2, readAt_unit_zero _ _ hz2]
  isplitl [H8]
  · iexists _; isplitr
    swap; · iexact H8
    ipureintro
    rw [read_writes_unit_zero _ _ hz2, View.readCov_unit_zero _ hz2]
    repeat rw [readAt_unit_zero _ _ hz2]
  iexists _; isplitr
  swap; · iexact H9
  ipureintro
  rw [read_writes_unit_zero _ _ hz2]
  repeat rw [readAt_unit_zero _ _ hz2]

end Cert.Kernel.Hand

end
-- ==== Proof.Region0K.lean ====
/- Region 0 (the first graph-convolution layer) as a pipeline of 25 grid points: its proof data and body obligation.

   Point `t` stages the 400-row block `t` of the adjacency matrix (window 0) and, once, at the first point, the node
   features, the two weight matrices and the two bias rows (windows 1–5, whose block index is constant). The body
   writes back two blocks per point: the rounded copy of the adjacency block (window 6) and the block of the layer's
   output (window 7). It also keeps a scratch buffer between points: at the first point it fills it with the dense
   map G1 = x·W1 + b1 of all 10000 rows, and every point (the first included) reads it back to form
   relu(A_t·G1)·W2 + b2. So the invariant carried from point to point says: before the first point the scratch
   holds anything; afterwards it holds G1. Everything is stated at a parameter `V`, the buffer contents when the
   region is entered, and for any float instance `F`. -/
import proofs.«176009_g27539330302398_cont_9to1_2132_15_alg».proof.Proof.Body0K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the 25 grid points. -/
abbrev t₀ : Fin cfg0.N := ⟨0, by have h : grid0.N = 25 := N_0; show 0 < grid0.N; omega⟩

/-- What the scratch holds after the first point: G1 = x·W1 + b1 for all 10000 rows, from the node features (window 1),
    the first weight matrix (window 2) and the first bias row (window 3), whose one block is the whole array. -/
def G1 (c : Dev nD) : Vec F S10000x128 .bf16 := k0_pay1 (iblk0 V c 1 t₀) (iblk0 V c 2 t₀) (iblk0 V c 3 t₀)

/-- Input window 0's current staging buffer holds that window's block at every point, whether or not the block was
    fetched there (an unfetched block has the index it had at the point before), for any proof data over the arrays `V`
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds that window's block at every point, whether or not the block was
    fetched there (an unfetched block has the index it had at the point before), for any proof data over the arrays `V`
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds that window's block at every point, whether or not the block was
    fetched there (an unfetched block has the index it had at the point before), for any proof data over the arrays `V`
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds that window's block at every point, whether or not the block was
    fetched there (an unfetched block has the index it had at the point before), for any proof data over the arrays `V`
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds that window's block at every point, whether or not the block was
    fetched there (an unfetched block has the index it had at the point before), for any proof data over the arrays `V`
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds that window's block at every point, whether or not the block was
    fetched there (an unfetched block has the index it had at the point before), for any proof data over the arrays `V`
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The invariant between points -/

/-- The scratch the body keeps between points, as a whole memref. -/
abbrev scM0 : Memref sig .tc .vmem S10000x128 .bf16 := Memref.whole cc0_scratch0

/-- The core's scoped buffers that region 0 neither stages through nor uses as scratch — the other region's fourteen —
    each whole at some contents. -/
def Rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg8_1), ((c : Thread nD τ).loc cc1_stg8_1) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f)
      ∗ (∃ f : Buf (Elt F) ((c : Thread nD τ).loc cc1_scratch0), ((c : Thread nD τ).loc cc1_scratch0) ↦{fullShare} f))

/-- What the launch hands the region: the scratch at some contents, the other scoped buffers, the generator register. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; rfl

/-- The invariant before position `n`: before the first point what the launch hands over (the scratch at anything);
    after any point the scratch holds G1, beside the other scoped buffers and the generator register. -/
def PhiS0 (c : Dev nD) : ℕ → sProp 𝕄
  | 0 => Pipeline.ΦA spec0 c
  | _ + 1 => iprop(owns (c : Thread nD τ) scM0 fullShare (G1 V c) ∗ Rest0 c ∗ (∃ r, prngReg c r))

theorem PhiS0_zero (c : Dev nD) : PhiS0 V c 0 = Pipeline.ΦA spec0 c := rfl

theorem PhiS0_succ (c : Dev nD) (n : ℕ) :
    PhiS0 V c (n + 1) = iprop(owns (c : Thread nD τ) scM0 fullShare (G1 V c) ∗ Rest0 c ∗ (∃ r, prngReg c r)) := rfl

theorem PhiS0_pos (c : Dev nD) (n : ℕ) (hz : n ≠ 0) :
    PhiS0 V c n = iprop(owns (c : Thread nD τ) scM0 fullShare (G1 V c) ∗ Rest0 c ∗ (∃ r, prngReg c r)) := by
  cases n with
  | zero => exact absurd rfl hz
  | succ n => rfl

/-! ## The pipeline's proof data -/

/-- The proof data of region 0 on core `c`: the arrays as the region finds them; after the body at point `t` each
    input's buffer still at its block, the rounded adjacency block in window 6, and in window 7 the layer's output
    block relu(A_t·G1)·W2 + b2; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 0 t)
    | ⟨7, _⟩ => k0_pay3 (iblk0 V c 0 t) (G1 V c) (iblk0 V c 4 t) (iblk0 V c 5 t)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (iblk0 V c 0 t) := by dsimp only [dat0]
theorem after0_7 (c : Dev nD) (t : Fin cfg0.N) : (dat0 V c).after 7 t = k0_pay3 (iblk0 V c 0 t) (G1 V c) (iblk0 V c 4 t) (iblk0 V c 5 t) := by dsimp only [dat0]

/-- The invariant at a point's start, restated at the point's number. -/
theorem PhiS0_castSucc (c : Dev nD) (t : Fin cfg0.N) : (dat0 V c).Φ t.castSucc = PhiS0 V c t.val := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1600000 in
/-- The body at any point. The inputs' memrefs hold their blocks. At the first point the invariant hands the scratch at
    anything and the body leaves it at G1 (the first point's blocks of windows 1–3 ARE those G1 is stated over);
    at a later point the invariant hands the scratch at G1 and the body hands it back unchanged. The other scoped
    buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS0 V c (t.val + 1) from rfl, PhiS0_succ, PhiS0_castSucc]
  by_cases hz : t.val = 0
  · obtain rfl : t = t₀ := Fin.ext hz
    rw [PhiS0_zero, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords t₀) ((hcond0 t₀).mpr rfl) _ _ _ _ _ _ _ _ _ _ _ _ _ _ _ _ _ _
      (iblk0 V c 0 t₀) (iblk0 V c 1 t₀) (iblk0 V c 2 t₀) (iblk0 V c 3 t₀) (iblk0 V c 4 t₀) (iblk0 V c 5 t₀) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS0_pos V c _ hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_rest c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (iblk0 V c 5 t) (G1 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 from rfl, PhiS0_zero]
  try exact Idealize.SL.BI.Entails.refl _

/-- After any point but the first position the invariant gives the launch's back: that the scratch holds G1 is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val from rfl, PhiS0_pos V c _ ht, PhiA0_eq]
  iintro ⟨HS, HR, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region0

end Cert.Kernel.Hand

end
-- ==== Proof.Region1K.lean ====
import proofs.«176009_g27539330302398_cont_9to1_2132_15_alg».proof.Proof.Gen.Kernel.Launch
import proofs.«176009_g27539330302398_cont_9to1_2132_15_alg».proof.Proof.Gen.Kernel.Skeleton
import proofs.«176009_g27539330302398_cont_9to1_2132_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The second region (layers 2 and 3 and the projection head): proof data

The grid is (l, i), 2 × 9 points in row-major order, i the row block of 1120 rows (the ninth overhangs the 10000
rows by 80). At l = 0 point i stores rows 1120·i … 1120·i + 1119 of the scratch (the third layer's input
`G3 = relu(A·G2)·W3 + b3`); at l = 1 point i reads the scratch's first 10000 rows and stores the block's rows of
`emb = A·G3` and of `z`. -/

variable (V : (c : Dev nD) → (b : Ref sig .tc) → Buf (Elt F) ((c : Thread nD τ).loc b))

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `A` at point `t` as a full 1120-row buffer: the rows inside the array, a word nobody reads
    elsewhere. -/
def xA (c : Dev nD) (t : Fin cfg1.N) : Vec F S1120x10000 .bf16 :=
  win1_0.fill (grid1.coords t) (fun _ => Classical.choice (Elt.nonempty F _)) (iblk1 V c 0 t)

/-- The first point: where the whole-array windows are read. -/
abbrev t1₀ : Fin cfg1.N := ⟨0, by decide⟩

/-- What point `t` of the first phase computes for its 1120 rows of the scratch. -/
def rowsG3 (c : Dev nD) (t : Fin cfg1.N) : Vec F S1120x128 .bf16 :=
  k1_pay1 (xA V c t) (iblk1 V c 1 t1₀) (iblk1 V c 2 t1₀) (iblk1 V c 3 t1₀)

/-- The scratch's first 10000 rows once the first phase is over, as one array: row `r` is row `r % 1120` of what
    point `r / 1120` computed. -/
def G3 (c : Dev nD) : Vec F S10000x128 .bf16 := fun y =>
  rowsG3 V c ⟨(y 0).val / 1120, by have := (y 0).isLt; show _ < 18; have h : (y 0).val < 10000 := this; omega⟩
    (ValueIdx.ix2 (⟨(y 0).val % 1120, Nat.mod_lt _ (by decide)⟩ : Fin 1120) (⟨(y 1).val, (y 1).isLt⟩ : Fin 128))

/-- The scratch operand. -/
abbrev scM1 : Memref sig .tc .vmem S10080x128 .bf16 := Memref.whole cc1_scratch0

/-- The region's invariant once the first point has run: the scoped buffers no window of this region stages at
    anything, except the scratch, held at contents `s` of which `Q s` is known; and the generator register. -/
def PhiQ (c : Dev nD) (Q : Vec F S10080x128 .bf16 → Prop) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ s, owns (c : Thread nD τ) scM1 fullShare s ∗ ⌜Q s⌝)) ∗ ∃ r, prngReg c r)

/-- What the region is entered with gives the invariant with nothing known of the scratch, -/
theorem PhiA1_in (c : Dev nD) : (Pipeline.ΦA spec1 c : sProp 𝕄) ⊢ PhiQ c (fun _ => True) := by
  unfold Pipeline.ΦA PhiQ; rw [scopedRest1_eq]
  iintro ⟨⟨H1, H2, H3, H4, H5, H6, H7, H8, H9, H10, H11, H12, ⟨%f, HS⟩⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists f; isplitl [HS]
  · rw [owns_whole]; iexact HS
  · ipureintro; trivial

/-- and the invariant gives it back, whatever was known. -/
theorem PhiQ_out (c : Dev nD) (Q : Vec F S10080x128 .bf16 → Prop) : PhiQ c Q ⊢ (Pipeline.ΦA spec1 c : sProp 𝕄) := by
  unfold Pipeline.ΦA PhiQ; rw [scopedRest1_eq]
  iintro ⟨⟨H1, H2, H3, H4, H5, H6, H7, H8, H9, H10, H11, H12, ⟨%s, HS, -⟩⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists s; iapply (Entails.of_eq (owns_whole (c : Thread nD τ) cc1_scratch0 fullShare s)); iexact HS

/-- The invariant before position `n`: what the region is entered with, then the scratch at contents satisfying
    `P c n` — a parameter: what the points before `n` are known to have left in it. -/
def Phi1 (P : Dev nD → ℕ → Vec F S10080x128 .bf16 → Prop) (c : Dev nD) : ℕ → sProp 𝕄
  | 0 => Pipeline.ΦA spec1 c
  | n + 1 => PhiQ c (P c (n + 1))

/-- The proof data of the second pipeline on core `c`, at the scratch knowledge `P`: the arrays as the region finds
    them; after the body each input's buffer at its block (the row block of `A` filled out past the array's end),
    the results' at the block's rows of `emb` and `z` computed from the whole `G3`; nothing owed; full shares. -/
def dat1 (P : Dev nD → ℕ → Vec F S10080x128 .bf16 → Prop) (c : Dev nD) : Dat τ (Elt F) Unit ℕ (UR sig nD τ) ℕ cfg1 c where
  A w := V c (Pipeline.arrRef spec1 w)
  after w t := match w with
    | ⟨0, _⟩ => xA V c t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (xA V c t) (G3 V c)
    | ⟨9, _⟩ => k1_pay3 (xA V c t) (G3 V c) (iblk1 V c 4 t1₀) (iblk1 V c 5 t1₀) (iblk1 V c 6 t1₀) (iblk1 V c 7 t1₀)
  Φ t := Phi1 P c t.val
  q _ := fullShare
  owed _ := 0

theorem A_eq1 (P : Dev nD → ℕ → Vec F S10080x128 .bf16 → Prop) (c : Dev nD) (w : Fin cfg1.W) :
    (dat1 V P c).A w = V c (Pipeline.arrRef spec1 w) := by
  dsimp only [dat1]

theorem hin1 (P : Dev nD → ℕ → Vec F S10080x128 .bf16 → Prop) (c : Dev nD) :
    (Pipeline.ΦA spec1 c : sProp 𝕄) ⊢ (dat1 V P c).Φ 0 := .rfl

theorem hout1 (P : Dev nD → ℕ → Vec F S10080x128 .bf16 → Prop) (c : Dev nD) :
    (dat1 V P c).Φ (Fin.last cfg1.N) ⊢ (Pipeline.ΦA spec1 c : sProp 𝕄) :=
  PhiQ_out c _

end Cert.Kernel.Hand

end
-- ==== Proof.RunK.lean ====
import proofs.«176009_g27539330302398_cont_9to1_2132_15_alg».proof.Proof.Gen.Kernel.Launch
import proofs.«176009_g27539330302398_cont_9to1_2132_15_alg».proof.Proof.Gen.Kernel.Skeleton
import proofs.«176009_g27539330302398_cont_9to1_2132_15_alg».proof.Proof.Gen.Kernel.Points
import proofs.«176009_g27539330302398_cont_9to1_2132_15_alg».proof.Proof.Region0K
import proofs.«176009_g27539330302398_cont_9to1_2132_15_alg».proof.Proof.Region1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run: @main's three items (the host reshapes, the first region, the second region)

The buffer contents at each boundary are a fold from the launch memory: after the host stretch
`StableHlo.after hostOps0`; after the first region its arrays at what its write-backs leave (`Dat.arrAt`), every
other buffer as entered; after the second region its arrays at SOME contents its write-backs may leave (the
relation `RDat.ArrAt` of its proof data, possibly with windows forgotten), every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ### Each argument reaches the first region's exit as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## The second region's exit -/

/-- The buffers at the second region's exit, given what its arrays hold. -/
def W3of (c : Dev nD) (G : (w : Fin cfg1.W) → Buf (Elt F) ((spec1 w).arr.view.loc (c : Thread nD τ))) : Valuation τ sig (Elt F) :=
  Pipeline.withArrays spec1 c (W2 m ρ c) G
theorem W3of_arr (c : Dev nD) (G) (w : Fin cfg1.W) : W3of m ρ c G (Proc.devRef .tc (Pipeline.arrRef spec1 w)) = G w := by
  unfold W3of; exact Pipeline.withArrays_arr spec1 launch1.win.arr_inj c _ _ w
theorem W3of_of_ne (c : Dev nD) (G) (b : Ref sig .tc) (hb : ∀ w, Pipeline.arrRef spec1 w ≠ b) :
    W3of m ρ c G (Proc.devRef .tc b) = W2 m ρ c (Proc.devRef .tc b) := by
  unfold W3of; exact Pipeline.withArrays_of_ne spec1 c _ _ b hb
abbrev V3of (c : Dev nD) (G : (w : Fin cfg1.W) → Buf (Elt F) ((spec1 w).arr.view.loc (c : Thread nD τ))) :
    (b : Ref sig .tc) → Buf (Elt F) ((c : Thread nD τ).loc b) := fun b => W3of m ρ c G b

/-! ## The proof data family and the thread state -/

variable (P : Dev nD → ℕ → Vec F S10080x128 .bf16 → Prop) (fgt1 : Fin cfg1.W → Bool)

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) P c
/-- The same read relationally, the second region's windows `fgt1` forgotten. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => (dat1 (V2 m ρ) P c).toRForget fgt1
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: the second region's arrays at some contents its write-backs may leave, every other
    unscoped buffer as the first region left it; the generator register at some state. -/
abbrev Tₙ (c : Dev nD) : sProp 𝕄 :=
  iprop((∃ G, ⌜∀ w, (rdats m ρ P fgt1 1 c).ArrAt w cfg1.N (G w)⌝ ∗ StableHlo.held (c : Thread nD τ) (Pipeline.ucRefs τ sig) (W3of m ρ c G)) ∗ ∃ r, prngReg c r)

/-! ## The regions as segments -/

set_option backward.isDefEq.respectTransparency.types false in
/-- The first region: entered from every unscoped buffer at `W1`, left at `W2`. -/
def reg0 : Pipeline.RDat.RegionSeg (pcfgs (F := F)) adm (rdats m ρ P fgt1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ P fgt1) launch0.win launch0.arr_whole c
      ((rdats m ρ P fgt1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ P fgt1 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (rdats m ρ P fgt1 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ P) ((pdats m ρ P 0 c).share_full fun _ => rfl)
      (V1 m ρ c) (V2 m ρ c) ((pdats m ρ P 0 c).arrAt · cfg0.N) (hF0 m ρ c) (hrest0 m ρ c)
    rw [Pipeline.unscopedBufs_held] at hjoin
    have hjoin' : iprop((dat0 (V1 m ρ) c).arrays ((dat0 (V1 m ρ) c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := hjoin
    rw [show (rdats m ρ P fgt1 0 c).arraysAt (Pipeline.pin (pcfgs (F := F)) adm 0).N = (dat0 (V1 m ρ) c).toR.arraysAt cfg0.N from rfl,
      (dat0 (V1 m ρ) c).toR_arraysAt_eq]
    iintro ⟨Ha, HO, HY, Hrest⟩
    imodintro
    isplitl [Ha Hrest]
    · iapply hjoin'; isplitl [Ha] <;> iassumption
    isplitl [HY]; · iexact HY
    unfold Pipeline.RDat.owesAt Pipeline.owesWithin
    icases HO with ⟨%W, -, HO⟩; iexists W; iexact HO

variable (hbody1 : ∀ c : Dev nD, BodyObligationLoose (dat1 (F := F) (V2 m ρ) P c) (defs₀ (F := F)) Variants.none () Set.univ fgt1)

set_option backward.isDefEq.respectTransparency.types false in
/-- The second region: entered from every unscoped buffer at `W2`, left with its arrays at some contents their
    write-backs may leave. -/
def reg1 : Pipeline.RDat.RegionSeg (pcfgs (F := F)) adm (rdats m ρ P fgt1) () defs₀ 𝒱₀ L lv 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ P fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ P fgt1) launch1.win launch1.arr_whole c
      ((rdats m ρ P fgt1 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ P fgt1 1 c).Φ 0 = (dat1 (V2 m ρ) P c).Φ 0 from rfl]
    refine .trans ?_ (hin1 (V2 m ρ) P c)
    unfold Pipeline.ΦA
    iintro ⟨Hp, -, Hr⟩
    isplitl [Hr]; · iexact Hr
    iexact Hp
  hout c := by
    rw [Pipeline.ownSems0_none, show (rdats m ρ P fgt1 1 c).Φ (Fin.last _) = (dat1 (V2 m ρ) P c).Φ (Fin.last cfg1.N) from rfl]
    refine (hout1 (V2 m ρ) P c).trans ?_
    unfold Pipeline.ΦA
    iintro ⟨Hr, Hp⟩
    isplitl [Hp]; · iexact Hp
    isplitr; · iempintro
    iexact Hr
  hexit c := by
    -- the arrays at SOME contents their write-backs may leave, opened
    have harrAt : ((rdats m ρ P fgt1 1 c).arraysAt cfg1.N : sProp 𝕄)
        ⊢ iprop(∃ A, ⌜∀ w, (rdats m ρ P fgt1 1 c).ArrAt w cfg1.N (A w)⌝ ∗ (pdats m ρ P 1 c).arrays A) := by
      unfold Pipeline.RDat.arraysAt
      iintro Ha
      ihave Ha' := (BI.bigSep_exists_pi Finset.univ (fun w F => iprop(⌜(rdats m ρ P fgt1 1 c).ArrAt w cfg1.N F⌝
          ∗ (cfg1.win w).arr.view.loc (c : Thread nD τ) ↦[(cfg1.win w).arr.view.set]{(rdats m ρ P fgt1 1 c).share w} F))) $$ Ha
      icases Ha' with ⟨%A, Ha⟩
      ihave Ha2 := (BI.bigSep_pure_sep Finset.univ (fun w => (rdats m ρ P fgt1 1 c).ArrAt w cfg1.N (A w))
          (fun w => (cfg1.win w).arr.view.loc (c : Thread nD τ) ↦[(cfg1.win w).arr.view.set]{(rdats m ρ P fgt1 1 c).share w} A w)) $$ Ha
      icases Ha2 with ⟨%hA', Ha⟩
      iexists A; isplitr; · ipureintro; exact fun w => hA' w (Finset.mem_univ w)
      iapply (show (bigSep Finset.univ fun w : Fin cfg1.W => ((cfg1.win w).arr.view.loc (c : Thread nD τ) ↦[(cfg1.win w).arr.view.set]{(rdats m ρ P fgt1 1 c).share w} A w : sProp 𝕄))
          ⊢ (pdats m ρ P 1 c).arrays A from .rfl)
      iexact Ha
    iintro ⟨Ha, HO, HY, Hrest⟩
    ihave Ha' := harrAt $$ Ha
    icases Ha' with ⟨%A, %hA, Ha⟩
    have hjoin := Pipeline.unscopedBufs_of_arrays (p := 1) (pcfgs (F := F)) adm (Ix := Unit) (Name := ℕ) (U := UR sig nD τ) (Lvl := ℕ)
      launch1.win launch1.arr_whole c (pdats m ρ P) ((pdats m ρ P 1 c).share_full fun _ => rfl)
      (V2 m ρ c) (V3of m ρ c A) A (fun w => (W3of_arr m ρ c A w).symm)
      (fun b hb => W3of_of_ne m ρ c A b fun w e => hb (Finset.mem_image.mpr ⟨w, Finset.mem_univ _, e⟩))
    rw [Pipeline.unscopedBufs_held] at hjoin
    imodintro
    isplitl [Ha Hrest HY]
    · isplitl [Ha Hrest]
      · iexists A; isplitr; · ipureintro; exact hA
        iapply hjoin; isplitl [Ha] <;> iassumption
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ P fgt1) () defs₀ 𝒱₀ L lv) :=
  [ .host (hseg hostOps0 hostOps0_sub hostOps0_fresh' (W0 m ρ)),
    .region (reg0 m ρ P fgt1),
    .region (reg1 m ρ P fgt1 hbody1) ]
theorem main_run (c : Dev nD) : main (F := F) c = Pipeline.RDat.Seg.run (segs m ρ P fgt1 hbody1) := (main_chain c).trans (by chain_rfl)

include hbody1 in
set_option backward.isDefEq.respectTransparency.types false in
/-- THE RUN. From any memory with zero counters every weakly fair execution of @main terminates, nothing faulting,
    and in every final state the second region's arrays hold contents their write-backs may leave (`G`) and every
    other unscoped buffer what the first region's exit left (`W3of`). -/
theorem run_main : θ_run defs (onTc (τ := τ) (main (F := F))) ⟨m, fun _ => 0, ρ⟩ (fun r => ∀ c : Dev nD,
      ∃ G, (∀ w, (rdats m ρ P fgt1 1 c).ArrAt w cfg1.N (G w))
        ∧ ∀ b ∈ Pipeline.ucRefs τ sig, r.2.mem (((c : Thread nD τ)).1, b) = W3of m ρ c G b) :=
  Pipeline.RDat.θ_run_regions_kit (pcfgs (F := F)) adm (rdats m ρ P fgt1) () cellOf_inj emb₁ defs₀ 𝒱₀ L lv m ρ main (segs m ρ P fgt1 hbody1)
    (fun c Q => by rw [main_run m ρ P fgt1 hbody1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ P fgt1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ G, (∀ w, (rdats m ρ P fgt1 1 c).ArrAt w cfg1.N (G w))
        ∧ ∀ b ∈ Pipeline.ucRefs τ sig, s.mem (((c : Thread nD τ)).1, b) = W3of m ρ c G b)
    (hfin := fun c s' => by
      iintro ⟨⟨⟨%G, %hG, Hh⟩, -⟩, HSI⟩
      unfold StableHlo.held
      ihave Hr := (pointsTo_read_all (Pipeline.ucRefs τ sig) (fun b => (((c : Thread nD τ)).1, b)) (W3of m ρ c G) s') $$ [Hh HSI]
      · isplitl [Hh] <;> iassumption
      icases Hr with ⟨%h, HSI⟩
      imodintro
      isplitr
      · ipureintro; exact ⟨G, hG, h⟩
      · iexact HSI)
    (hQ := fun s h c => h c)

end Cert.Kernel.Hand

end
-- ==== Proof.FramesK.lean ====
import proofs.«176009_g27539330302398_cont_9to1_2132_15_alg».proof.Proof.Gen.Kernel.Launch
import proofs.«176009_g27539330302398_cont_9to1_2132_15_alg».proof.Proof.Gen.Kernel.Skeleton
import proofs.«176009_g27539330302398_cont_9to1_2132_15_alg».proof.Proof.Gen.Kernel.Points
import proofs.«176009_g27539330302398_cont_9to1_2132_15_alg».proof.Proof.RunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The frame and the results, read off the run -/

variable (m : (ℓ : Loc nD τ sig) → Buf (Elt F) ℓ) (ρ : Dev nD → PrngReg)
variable (P : Dev nD → ℕ → Vec F S10080x128 .bf16 → Prop) (fgt1 : Fin cfg1.W → Bool)
variable (hbody1 : ∀ c : Dev nD, BodyObligationLoose (dat1 (F := F) (V2 m ρ) P c) (defs₀ (F := F)) Variants.none () Set.univ fgt1)

include hbody1 in
set_option backward.isDefEq.respectTransparency.types false in
/-- Every argument array ends as launched: an input window's array is never written (its contents after the
    write-backs are its entry contents), and no other item of @main writes an argument. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨G, hG, hb⟩ := h c
    have hin : ∀ (w : Fin cfg1.W), (cfg1.win w).isOut = false → G w = V2 m ρ c (Pipeline.arrRef spec1 w) := fun w hw => by
      have h1 := hG w
      rw [(rdats m ρ P fgt1 1 c).ArrAt_in w hw] at h1
      exact h1.trans (A_eq1 (V2 m ρ) P c w)
    exact ⟨(hb (Proc.devRef .tc main_arg0) (mem_uc main_arg0 (by decide))).trans ((W3of_of_ne m ρ c G main_arg0 (by decide)).trans (W2_main_arg0 m ρ c)),
      (hb (Proc.devRef .tc main_arg1) (mem_uc main_arg1 (by decide))).trans ((W3of_of_ne m ρ c G main_arg1 (by decide)).trans (W2_main_arg1 m ρ c)),
      (hb (Proc.devRef .tc main_arg2) (mem_uc main_arg2 (by decide))).trans ((W3of_of_ne m ρ c G main_arg2 (by decide)).trans (W2_main_arg2 m ρ c)),
      (hb (Proc.devRef .tc main_arg3) (mem_uc main_arg3 (by decide))).trans ((W3of_of_ne m ρ c G main_arg3 (by decide)).trans (W2_main_arg3 m ρ c)),
      (hb (Proc.devRef .tc main_arg4) (mem_uc main_arg4 (by decide))).trans ((W3of_of_ne m ρ c G main_arg4 (by decide)).trans (W2_main_arg4 m ρ c)),
      (hb (Proc.devRef .tc main_arg5) (mem_uc main_arg5 (by decide))).trans ((W3of_of_ne m ρ c G main_arg5 (by decide)).trans (W2_main_arg5 m ρ c)),
      (hb (Proc.devRef .tc main_arg6) (mem_uc main_arg6 (by decide))).trans ((W3of_arr m ρ c G 2).trans ((hin 2 rfl).trans (W2_main_arg6 m ρ c))),
      (hb (Proc.devRef .tc main_arg7) (mem_uc main_arg7 (by decide))).trans ((W3of_of_ne m ρ c G main_arg7 (by decide)).trans (W2_main_arg7 m ρ c)),
      (hb (Proc.devRef .tc main_arg8) (mem_uc main_arg8 (by decide))).trans ((W3of_arr m ρ c G 4).trans ((hin 4 rfl).trans (W2_main_arg8 m ρ c))),
      (hb (Proc.devRef .tc main_arg9) (mem_uc main_arg9 (by decide))).trans ((W3of_of_ne m ρ c G main_arg9 (by decide)).trans (W2_main_arg9 m ρ c)),
      (hb (Proc.devRef .tc main_arg10) (mem_uc main_arg10 (by decide))).trans ((W3of_arr m ρ c G 6).trans ((hin 6 rfl).trans (W2_main_arg10 m ρ c))),
      (hb (Proc.devRef .tc main_arg11) (mem_uc main_arg11 (by decide))).trans ((W3of_of_ne m ρ c G main_arg11 (by decide)).trans (W2_main_arg11 m ρ c))⟩) (run_main m ρ P fgt1 hbody1)

include hbody1 in
set_option backward.isDefEq.respectTransparency.types false in
/-- With the two result windows not forgotten, the result arrays end at what the proof data's write-backs compute,
    and the arguments as launched. -/
theorem values_of_run (h8 : fgt1 8 = false) (h9 : fgt1 9 = false) :
    θ_run defs (onTc (τ := τ) (main (F := F))) ⟨m, fun _ => 0, ρ⟩ (fun r => ∀ c : Dev nD,
      r.2.mem ((c.tc : Thread nD τ).loc main_v6_1) = (dat1 (V2 m ρ) P c).arrAt 9 cfg1.N
      ∧ r.2.mem ((c.tc : Thread nD τ).loc main_v6_0) = (dat1 (V2 m ρ) P c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨G, hG, hb⟩ := h c
    have hin : ∀ (w : Fin cfg1.W), (cfg1.win w).isOut = false → G w = V2 m ρ c (Pipeline.arrRef spec1 w) := fun w hw => by
      have h1 := hG w
      rw [(rdats m ρ P fgt1 1 c).ArrAt_in w hw] at h1
      exact h1.trans (A_eq1 (V2 m ρ) P c w)
    have hout : ∀ (w : Fin cfg1.W), fgt1 w = false → G w = (dat1 (V2 m ρ) P c).arrAt w cfg1.N := fun w hw =>
      ((dat1 (V2 m ρ) P c).toRForget_arrAt_iff hw cfg1.N (G w)).mp (hG w)
    exact ⟨(hb (Proc.devRef .tc main_v6_1) (mem_uc main_v6_1 (by decide))).trans ((W3of_arr m ρ c G 9).trans (hout 9 h9)),
      (hb (Proc.devRef .tc main_v6_0) (mem_uc main_v6_0 (by decide))).trans ((W3of_arr m ρ c G 8).trans (hout 8 h8)),
      (hb (Proc.devRef .tc main_arg0) (mem_uc main_arg0 (by decide))).trans ((W3of_of_ne m ρ c G main_arg0 (by decide)).trans (W2_main_arg0 m ρ c)),
      (hb (Proc.devRef .tc main_arg1) (mem_uc main_arg1 (by decide))).trans ((W3of_of_ne m ρ c G main_arg1 (by decide)).trans (W2_main_arg1 m ρ c)),
      (hb (Proc.devRef .tc main_arg2) (mem_uc main_arg2 (by decide))).trans ((W3of_of_ne m ρ c G main_arg2 (by decide)).trans (W2_main_arg2 m ρ c)),
      (hb (Proc.devRef .tc main_arg3) (mem_uc main_arg3 (by decide))).trans ((W3of_of_ne m ρ c G main_arg3 (by decide)).trans (W2_main_arg3 m ρ c)),
      (hb (Proc.devRef .tc main_arg4) (mem_uc main_arg4 (by decide))).trans ((W3of_of_ne m ρ c G main_arg4 (by decide)).trans (W2_main_arg4 m ρ c)),
      (hb (Proc.devRef .tc main_arg5) (mem_uc main_arg5 (by decide))).trans ((W3of_of_ne m ρ c G main_arg5 (by decide)).trans (W2_main_arg5 m ρ c)),
      (hb (Proc.devRef .tc main_arg6) (mem_uc main_arg6 (by decide))).trans ((W3of_arr m ρ c G 2).trans ((hin 2 rfl).trans (W2_main_arg6 m ρ c))),
      (hb (Proc.devRef .tc main_arg7) (mem_uc main_arg7 (by decide))).trans ((W3of_of_ne m ρ c G main_arg7 (by decide)).trans (W2_main_arg7 m ρ c)),
      (hb (Proc.devRef .tc main_arg8) (mem_uc main_arg8 (by decide))).trans ((W3of_arr m ρ c G 4).trans ((hin 4 rfl).trans (W2_main_arg8 m ρ c))),
      (hb (Proc.devRef .tc main_arg9) (mem_uc main_arg9 (by decide))).trans ((W3of_of_ne m ρ c G main_arg9 (by decide)).trans (W2_main_arg9 m ρ c)),
      (hb (Proc.devRef .tc main_arg10) (mem_uc main_arg10 (by decide))).trans ((W3of_arr m ρ c G 6).trans ((hin 6 rfl).trans (W2_main_arg10 m ρ c))),
      (hb (Proc.devRef .tc main_arg11) (mem_uc main_arg11 (by decide))).trans ((W3of_of_ne m ρ c G main_arg11 (by decide)).trans (W2_main_arg11 m ρ c))⟩) (run_main m ρ P fgt1 hbody1)

end Cert.Kernel.Hand

end
-- ==== Proof.Body1K.lean ====
/- The body of region 1 (graph-convolution layers 2 and 3 and the projection head), run on whole staging buffers,
   over the grid (l, i) of two sweeps of nine row blocks of 1120 rows.

   On the first sweep (l = 0) the body computes, for its block of 1120 rows of the adjacency matrix A, the rows
   relu(A·G2)·W3 + b3 of G3 (rounded between the steps) — the payload `k1_pay1` — and stores them into rows
   1120·i … 1120·i + 1119 of a 10080-row scratch; nothing else changes. On the second sweep (l = 1) it loads rows 0 … 9999 of that scratch and stores the embedding block
   `k1_pay2` and the head's output block `k1_pay3` over the whole of its two output buffers. The scratch after a
   first-sweep point is stated as ONE function (`scratchAfter`: the payload on the stored rows, the old contents
   elsewhere) with its two reading lemmas; what the second sweep loads is `View.ld s R10000` with its reading lemma. -/
import proofs.«176009_g27539330302398_cont_9to1_2132_15_alg».proof.Proof.Gen.Kernel.Launch
import proofs.«176009_g27539330302398_cont_9to1_2132_15_alg».proof.Proof.Gen.Kernel.Skeleton
import proofs.«176009_g27539330302398_cont_9to1_2132_15_alg».proof.Proof.Gen.Kernel.Points
import Idealize.ShloMosaic.Lib.ValueIdx
import Idealize.ShloMosaic.Lib.WritesUnit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2)

/-- The offsets `![0, 0]` are the zero offsets. -/
theorem hz2' : (![0, 0] : Fin 2 → Nat) = fun _ => 0 := funext fun a => by fin_cases a <;> rfl

/-! ## The two branch conditions over the grid (l, i) -/

/-- The first branch is taken exactly on the first sweep (l = 0: points 0 … 8), the second exactly on the second
    (l = 1: points 9 … 17) — decided over the 18 grid points. -/
theorem hcond1_l0 : ∀ t : Fin cfg1.N, (k1_cond1 (grid1.coords t) = 1#1 ↔ t.val < 9) ∧ (k1_cond2 (grid1.coords t) = 1#1 ↔ 9 ≤ t.val) :=
  (by decide +kernel : ∀ t : Fin grid1.N, (k1_cond1 (grid1.coords t) = 1#1 ↔ t.val < 9) ∧ (k1_cond2 (grid1.coords t) = 1#1 ↔ 9 ≤ t.val))

/-- The row offset the first sweep stores at is 1120 times the second grid coordinate, the column offset zero
    (decided over the grid's coordinates). -/
theorem k1_off1_eq : ∀ i : grid1.Coords, k1_off1 i = ![1120 * (i 1).val, 0] := by decide +kernel

/-! ## What one store of the first sweep leaves in the 10080-row scratch -/

/-- Rows `1120·(i 1) … 1120·(i 1) + 1119`, all 128 columns, of the 10080-row scratch: where the first sweep stores. -/
abbrev R1 (i : grid1.Coords) (h1 : k1_cond1 i = 1#1) : Rect S10080x128 :=
  Rect.unit (s := S10080x128) (k1_off1 i) S1120x128.size (k1_off1_inb i h1)

/-- The scratch after the store: the payload `p` on the rows of `R1 i`, the old contents `s` elsewhere. -/
def scratchAfter (i : grid1.Coords) (h1 : k1_cond1 i = 1#1) (s : Vec F S10080x128 .bf16) (p : Vec F S1120x128 .bf16) :
    Vec F S10080x128 .bf16 :=
  (R1 i h1).overlay s p

/-- On the stored rows it is the payload, at the row counted from the block's first. -/
theorem scratchAfter_inside (i : grid1.Coords) (h1 : k1_cond1 i = 1#1) (s : Vec F S10080x128 .bf16) (p : Vec F S1120x128 .bf16)
    (r : Fin 10080) (j : Fin 128) (hlo : 1120 * (i 1).val ≤ r.val) (hhi : r.val < 1120 * (i 1).val + 1120) :
    scratchAfter i h1 s p (ix2 r j) = p (ix2 (⟨r.val - 1120 * (i 1).val, by omega⟩ : Fin 1120) j) := by
  have he : (R1 i h1).emb (ix2 (⟨r.val - 1120 * (i 1).val, by omega⟩ : Fin 1120) j) = ix2 r j := by
    funext a; apply Fin.ext
    rw [Rect.emb_apply]
    show (k1_off1 i) a + 1 * _ = _
    rw [k1_off1_eq i]
    match a with
    | ⟨0, _⟩ => show 1120 * (i 1).val + 1 * (r.val - 1120 * (i 1).val) = r.val; omega
    | ⟨1, _⟩ => show 0 + 1 * j.val = j.val; omega
  unfold scratchAfter
  rw [← he]; exact Rect.overlay_emb _ _ _ _

/-- Off them it is what the scratch held. -/
theorem scratchAfter_outside (i : grid1.Coords) (h1 : k1_cond1 i = 1#1) (s : Vec F S10080x128 .bf16) (p : Vec F S1120x128 .bf16)
    (r : Fin 10080) (j : Fin 128) (h : r.val < 1120 * (i 1).val ∨ 1120 * (i 1).val + 1120 ≤ r.val) :
    scratchAfter i h1 s p (ix2 r j) = s (ix2 r j) := by
  unfold scratchAfter
  refine Rect.overlay_of_not_mem _ _ _ ?_
  rw [Rect.mem_set_unit]
  intro hall
  have h0 := hall (0 : Fin 2)
  rw [k1_off1_eq i] at h0
  have h0' : 1120 * (i 1).val ≤ r.val ∧ r.val < 1120 * (i 1).val + 1120 := h0
  omega

/-! ## What the second sweep reads of the scratch -/

/-- Rows 0 … 9999 (all 128 columns) of the 10080-row scratch: what the second sweep loads. -/
abbrev R10000 : Rect S10080x128 := Rect.unit (s := S10080x128) ![0, 0] S10000x128.size inb_S10080x128_S10000x128_0_0

/-- That load, at row `k` and column `j`, is the scratch at the same row and column. -/
theorem ld_R10000_apply (s : Vec F S10080x128 .bf16) (k : Fin 10000) (j : Fin 128) :
    (View.ld s R10000) (ix2 k j) = s (ix2 (⟨k.val, by omega⟩ : Fin 10080) j) := by
  show s (R10000.idx (ix2 k j)) = _
  congr 1
  funext a; apply Fin.ext
  match a with
  | ⟨0, _⟩ => show 0 + 1 * k.val = k.val; omega
  | ⟨1, _⟩ => show 0 + 1 * j.val = j.val; omega

section OneStore
variable {sg : RefSig} {κ : Kind} {sp : Space} {S : Shape} {e : EltTy}

/-- One store through a rectangle leaves the payload on the rectangle and the old contents off it. -/
theorem read_writes_one_overlay (v : View sg κ sp S e) (f : v.ty.Contents (Elt F)) (r : Rect S) (w : r.shape.Idx → Elt F e) :
    v.read (Elt F) (v.writes (Elt F) f [(⟨r, w⟩ : View.Piece (Elt F) S e)]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-- One store through the whole-shape rectangle at zero offsets leaves exactly its payload. -/
theorem read_writes_unit_zero' (v : View sg κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_unit_zero' (v : View sg κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

end OneStore

/-! ## The body's two triples -/

set_option maxHeartbeats 1000000 in
/-- First sweep (the first branch taken, the second not): every buffer is handed back as it was, except the scratch
    (`arg12`), which holds `scratchAfter i h1 s (k1_pay1 x2 x3 x4 x5)`: the block's 1120 new rows over the old
    contents `s`. The two output buffers are not touched on this sweep. -/
theorem sound_kernel1_l0 (c : Dev nD) (E : Set ℕ) (i : grid1.Coords) (h1 : k1_cond1 i = 1#1) (h2 : ¬k1_cond2 i = 1#1) (arg2 : Memref sig .tc .vmem S1120x10000 .bf16) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1120x128 .f32) (harg10 : arg10.IsWhole) (arg11 : Memref sig .tc .vmem S1120x128 .f32) (harg11 : arg11.IsWhole) (arg12 : Memref sig .tc .vmem S10080x128 .bf16) (harg12 : arg12.IsWhole)
    (x2 : Vec F S1120x10000 .bf16) (x3 : Vec F S10000x128 .bf16) (x4 : Vec F S128x128 .f32) (x5 : Vec F S1x128 .f32) (x6 : Vec F S128x128 .f32) (x7 : Vec F S1x128 .f32) (x8 : Vec F S128x128 .f32) (x9 : Vec F S1x128 .f32) (y10 y11 : Vec F S1120x128 .f32) (s : Vec F S10080x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare (scratchAfter i h1 s (k1_pay1 x2 x3 x4 x5))) -∗ K ⟨⟩))
      ⊢ wp frame (wpE (defs₀ (F := F)) Variants.none c none) E (cc1__l23_body i arg2 harg2 arg3 harg3 arg4 harg4 arg5 harg5 arg6 harg6 arg7 harg7 arg8 harg8 arg9 harg9 arg10 harg10 arg11 harg11 arg12 harg12) K := by
  simp only [cc1__l23_body_eq_skeleton]; unfold cc1__l23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  unfold scratchAfter
  rw [read_writes_one_overlay]
  repeat rw [readAt_unit_zero' _ _ hz2']

set_option maxHeartbeats 1000000 in
/-- Second sweep (the first branch not taken, the second taken): the scratch is only read — its rows 0 … 9999,
    `View.ld s R10000` —; the embedding block (`arg10`) ends at `k1_pay2 x2 (View.ld s R10000)` and the head's block
    (`arg11`) at `k1_pay3 x2 (View.ld s R10000) x6 x7 x8 x9`, each by one whole-buffer store. What the two
    outputs held before is read by dead loads and never used, hence the existentials. -/
theorem sound_kernel1_l1 (c : Dev nD) (E : Set ℕ) (i : grid1.Coords) (h1 : ¬k1_cond1 i = 1#1) (h2 : k1_cond2 i = 1#1) (arg2 : Memref sig .tc .vmem S1120x10000 .bf16) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1120x128 .f32) (harg10 : arg10.IsWhole) (arg11 : Memref sig .tc .vmem S1120x128 .f32) (harg11 : arg11.IsWhole) (arg12 : Memref sig .tc .vmem S10080x128 .bf16) (harg12 : arg12.IsWhole)
    (x2 : Vec F S1120x10000 .bf16) (x3 : Vec F S10000x128 .bf16) (x4 : Vec F S128x128 .f32) (x5 : Vec F S1x128 .f32) (x6 : Vec F S128x128 .f32) (x7 : Vec F S1x128 .f32) (x8 : Vec F S128x128 .f32) (x9 : Vec F S1x128 .f32) (s : Vec F S10080x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k1_pay2 x2 (View.ld s R10000)) ∗ owns (c : Thread nD τ) arg11 fullShare (k1_pay3 x2 (View.ld s R10000) x6 x7 x8 x9) ∗ owns (c : Thread nD τ) arg12 fullShare s) -∗ K ⟨⟩))
      ⊢ wp frame (wpE (defs₀ (F := F)) Variants.none c none) E (cc1__l23_body i arg2 harg2 arg3 harg3 arg4 harg4 arg5 harg5 arg6 harg6 arg7 harg7 arg8 harg8 arg9 harg9 arg10 harg10 arg11 harg11 arg12 harg12) K := by
  simp only [cc1__l23_body_eq_skeleton]; unfold cc1__l23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2 hf3 hf4 hf5 hf6 hf7 hf8 hf9 hf12
  sl_exec (disch := first | exact h1 | exact h2)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_unit_zero' _ _ hz2']
    repeat rw [readAt_unit_zero' _ _ hz2']
    try rfl
  isplitl [H11]
  · iexists _; isplitr
    swap; · iexact H11
    ipureintro
    rw [read_writes_unit_zero' _ _ hz2']
    repeat rw [readAt_unit_zero' _ _ hz2']
    try rfl
  iexists f12; isplitr; · ipureintro; rfl
  iexact H12

end Cert.Kernel.Hand

end
-- ==== Proof.Region1ObK.lean ====
/- The second region's body obligation over the body's two triples.

   What the body finds in each window's staging buffer at a grid point (the adjacency matrix's row block: the rows
   inside the array, anything past its end; the seven whole-array windows: their arrays, at every point), where
   the two result windows are idle and where they are written back, and the obligation itself at every point with
   the two result windows forgotten and nothing claimed of the scratch's contents. -/
import proofs.«176009_g27539330302398_cont_9to1_2132_15_alg».proof.Proof.Region1K
import proofs.«176009_g27539330302398_cont_9to1_2132_15_alg».proof.Proof.Body1K
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' staging buffers -/

/-- What the body leaves, window by window (the proof data's `match` reduced). -/
theorem after1_0 (P : Dev nD → ℕ → Vec F S10080x128 .bf16 → Prop) (c : Dev nD) (t : Fin cfg1.N) : (dat1 V P c).after 0 t = xA V c t := by dsimp only [dat1]
theorem after1_1 (P : Dev nD → ℕ → Vec F S10080x128 .bf16 → Prop) (c : Dev nD) (t : Fin cfg1.N) : (dat1 V P c).after 1 t = iblk1 V c 1 t := by dsimp only [dat1]
theorem after1_2 (P : Dev nD → ℕ → Vec F S10080x128 .bf16 → Prop) (c : Dev nD) (t : Fin cfg1.N) : (dat1 V P c).after 2 t = iblk1 V c 2 t := by dsimp only [dat1]
theorem after1_3 (P : Dev nD → ℕ → Vec F S10080x128 .bf16 → Prop) (c : Dev nD) (t : Fin cfg1.N) : (dat1 V P c).after 3 t = iblk1 V c 3 t := by dsimp only [dat1]
theorem after1_4 (P : Dev nD → ℕ → Vec F S10080x128 .bf16 → Prop) (c : Dev nD) (t : Fin cfg1.N) : (dat1 V P c).after 4 t = iblk1 V c 4 t := by dsimp only [dat1]
theorem after1_5 (P : Dev nD → ℕ → Vec F S10080x128 .bf16 → Prop) (c : Dev nD) (t : Fin cfg1.N) : (dat1 V P c).after 5 t = iblk1 V c 5 t := by dsimp only [dat1]
theorem after1_6 (P : Dev nD → ℕ → Vec F S10080x128 .bf16 → Prop) (c : Dev nD) (t : Fin cfg1.N) : (dat1 V P c).after 6 t = iblk1 V c 6 t := by dsimp only [dat1]
theorem after1_7 (P : Dev nD → ℕ → Vec F S10080x128 .bf16 → Prop) (c : Dev nD) (t : Fin cfg1.N) : (dat1 V P c).after 7 t = iblk1 V c 7 t := by dsimp only [dat1]
theorem after1_8 (P : Dev nD → ℕ → Vec F S10080x128 .bf16 → Prop) (c : Dev nD) (t : Fin cfg1.N) : (dat1 V P c).after 8 t = k1_pay2 (xA V c t) (G3 V c) := by dsimp only [dat1]
theorem after1_9 (P : Dev nD → ℕ → Vec F S10080x128 .bf16 → Prop) (c : Dev nD) (t : Fin cfg1.N) :
    (dat1 V P c).after 9 t = k1_pay3 (xA V c t) (G3 V c) (iblk1 V c 4 t1₀) (iblk1 V c 5 t1₀) (iblk1 V c 6 t1₀) (iblk1 V c 7 t1₀) := by
  dsimp only [dat1]

/-- The row block of the adjacency matrix is fetched at every point: its buffer holds the block's rows inside the
    array, and past the array's end whatever it held (`d`). -/
theorem before1_0 (P : Dev nD → ℕ → Vec F S10080x128 .bf16 → Prop) (c : Dev nD) (t : Fin cfg1.N) (d) :
    (dat1 V P c).before 0 t d = win1_0.fill (grid1.coords t) d (iblk1 V c 0 t) :=
  ((dat1 V P c).before_fetched 0 t (fetch1_0 t) d).trans
    (by unfold Dat.fetched Dat.blockOf iblk1; rw [A_eq1]; try rfl)

/-- Window 1 stages a whole array, fetched once: its buffer holds that array at every point. -/
theorem fetched1_1 (P : Dev nD → ℕ → Vec F S10080x128 .bf16 → Prop) (c : Dev nD) (t : Fin cfg1.N) (d) : (dat1 V P c).fetched 1 t d = iblk1 V c 1 t := by
  unfold Dat.fetched Dat.blockOf iblk1; rw [A_eq1]; try rfl
theorem before1_1 (P : Dev nD → ℕ → Vec F S10080x128 .bf16 → Prop) (c : Dev nD) (t : Fin cfg1.N) (d) : (dat1 V P c).before 1 t d = iblk1 V c 1 t :=
  ((dat1 V P c).before_in_eq_fetched 1 rfl (fun _ => rfl) (fun _ _ _ => rfl)
    (fun t => by rw [after1_1]; unfold Dat.blockOf iblk1; rw [A_eq1]; try rfl) t d).trans (fetched1_1 V P c t d)
/-- Its block index is the same at every point, -/
theorem hidx1_1 : ∀ t : Fin cfg1.N, (cfg1.win 1).index t = (cfg1.win 1).index t1₀ :=
  (by decide +kernel : ∀ t : Fin grid1.N, win1_1.index t = win1_1.index t1₀)
/-- so its block is the first point's. -/
theorem iblk1_1_const (c : Dev nD) (t : Fin cfg1.N) : iblk1 V c 1 t = iblk1 V c 1 t1₀ :=
  (fetched1_1 V (fun _ _ _ => True) c t (iblk1 V c 1 t)).symm.trans
    (((dat1 V (fun _ _ _ => True) c).fetched_congr 1 (hidx1_1 t) rfl (iblk1 V c 1 t)).trans
      (fetched1_1 V (fun _ _ _ => True) c t1₀ (iblk1 V c 1 t)))

/-- Window 2 stages a whole array, fetched once: its buffer holds that array at every point. -/
theorem fetched1_2 (P : Dev nD → ℕ → Vec F S10080x128 .bf16 → Prop) (c : Dev nD) (t : Fin cfg1.N) (d) : (dat1 V P c).fetched 2 t d = iblk1 V c 2 t := by
  unfold Dat.fetched Dat.blockOf iblk1; rw [A_eq1]; try rfl
theorem before1_2 (P : Dev nD → ℕ → Vec F S10080x128 .bf16 → Prop) (c : Dev nD) (t : Fin cfg1.N) (d) : (dat1 V P c).before 2 t d = iblk1 V c 2 t :=
  ((dat1 V P c).before_in_eq_fetched 2 rfl (fun _ => rfl) (fun _ _ _ => rfl)
    (fun t => by rw [after1_2]; unfold Dat.blockOf iblk1; rw [A_eq1]; try rfl) t d).trans (fetched1_2 V P c t d)
/-- Its block index is the same at every point, -/
theorem hidx1_2 : ∀ t : Fin cfg1.N, (cfg1.win 2).index t = (cfg1.win 2).index t1₀ :=
  (by decide +kernel : ∀ t : Fin grid1.N, win1_2.index t = win1_2.index t1₀)
/-- so its block is the first point's. -/
theorem iblk1_2_const (c : Dev nD) (t : Fin cfg1.N) : iblk1 V c 2 t = iblk1 V c 2 t1₀ :=
  (fetched1_2 V (fun _ _ _ => True) c t (iblk1 V c 2 t)).symm.trans
    (((dat1 V (fun _ _ _ => True) c).fetched_congr 2 (hidx1_2 t) rfl (iblk1 V c 2 t)).trans
      (fetched1_2 V (fun _ _ _ => True) c t1₀ (iblk1 V c 2 t)))

/-- Window 3 stages a whole array, fetched once: its buffer holds that array at every point. -/
theorem fetched1_3 (P : Dev nD → ℕ → Vec F S10080x128 .bf16 → Prop) (c : Dev nD) (t : Fin cfg1.N) (d) : (dat1 V P c).fetched 3 t d = iblk1 V c 3 t := by
  unfold Dat.fetched Dat.blockOf iblk1; rw [A_eq1]; try rfl
theorem before1_3 (P : Dev nD → ℕ → Vec F S10080x128 .bf16 → Prop) (c : Dev nD) (t : Fin cfg1.N) (d) : (dat1 V P c).before 3 t d = iblk1 V c 3 t :=
  ((dat1 V P c).before_in_eq_fetched 3 rfl (fun _ => rfl) (fun _ _ _ => rfl)
    (fun t => by rw [after1_3]; unfold Dat.blockOf iblk1; rw [A_eq1]; try rfl) t d).trans (fetched1_3 V P c t d)
/-- Its block index is the same at every point, -/
theorem hidx1_3 : ∀ t : Fin cfg1.N, (cfg1.win 3).index t = (cfg1.win 3).index t1₀ :=
  (by decide +kernel : ∀ t : Fin grid1.N, win1_3.index t = win1_3.index t1₀)
/-- so its block is the first point's. -/
theorem iblk1_3_const (c : Dev nD) (t : Fin cfg1.N) : iblk1 V c 3 t = iblk1 V c 3 t1₀ :=
  (fetched1_3 V (fun _ _ _ => True) c t (iblk1 V c 3 t)).symm.trans
    (((dat1 V (fun _ _ _ => True) c).fetched_congr 3 (hidx1_3 t) rfl (iblk1 V c 3 t)).trans
      (fetched1_3 V (fun _ _ _ => True) c t1₀ (iblk1 V c 3 t)))

/-- Window 4 stages a whole array, fetched once: its buffer holds that array at every point. -/
theorem fetched1_4 (P : Dev nD → ℕ → Vec F S10080x128 .bf16 → Prop) (c : Dev nD) (t : Fin cfg1.N) (d) : (dat1 V P c).fetched 4 t d = iblk1 V c 4 t := by
  unfold Dat.fetched Dat.blockOf iblk1; rw [A_eq1]; try rfl
theorem before1_4 (P : Dev nD → ℕ → Vec F S10080x128 .bf16 → Prop) (c : Dev nD) (t : Fin cfg1.N) (d) : (dat1 V P c).before 4 t d = iblk1 V c 4 t :=
  ((dat1 V P c).before_in_eq_fetched 4 rfl (fun _ => rfl) (fun _ _ _ => rfl)
    (fun t => by rw [after1_4]; unfold Dat.blockOf iblk1; rw [A_eq1]; try rfl) t d).trans (fetched1_4 V P c t d)
/-- Its block index is the same at every point, -/
theorem hidx1_4 : ∀ t : Fin cfg1.N, (cfg1.win 4).index t = (cfg1.win 4).index t1₀ :=
  (by decide +kernel : ∀ t : Fin grid1.N, win1_4.index t = win1_4.index t1₀)
/-- so its block is the first point's. -/
theorem iblk1_4_const (c : Dev nD) (t : Fin cfg1.N) : iblk1 V c 4 t = iblk1 V c 4 t1₀ :=
  (fetched1_4 V (fun _ _ _ => True) c t (iblk1 V c 4 t)).symm.trans
    (((dat1 V (fun _ _ _ => True) c).fetched_congr 4 (hidx1_4 t) rfl (iblk1 V c 4 t)).trans
      (fetched1_4 V (fun _ _ _ => True) c t1₀ (iblk1 V c 4 t)))

/-- Window 5 stages a whole array, fetched once: its buffer holds that array at every point. -/
theorem fetched1_5 (P : Dev nD → ℕ → Vec F S10080x128 .bf16 → Prop) (c : Dev nD) (t : Fin cfg1.N) (d) : (dat1 V P c).fetched 5 t d = iblk1 V c 5 t := by
  unfold Dat.fetched Dat.blockOf iblk1; rw [A_eq1]; try rfl
theorem before1_5 (P : Dev nD → ℕ → Vec F S10080x128 .bf16 → Prop) (c : Dev nD) (t : Fin cfg1.N) (d) : (dat1 V P c).before 5 t d = iblk1 V c 5 t :=
  ((dat1 V P c).before_in_eq_fetched 5 rfl (fun _ => rfl) (fun _ _ _ => rfl)
    (fun t => by rw [after1_5]; unfold Dat.blockOf iblk1; rw [A_eq1]; try rfl) t d).trans (fetched1_5 V P c t d)
/-- Its block index is the same at every point, -/
theorem hidx1_5 : ∀ t : Fin cfg1.N, (cfg1.win 5).index t = (cfg1.win 5).index t1₀ :=
  (by decide +kernel : ∀ t : Fin grid1.N, win1_5.index t = win1_5.index t1₀)
/-- so its block is the first point's. -/
theorem iblk1_5_const (c : Dev nD) (t : Fin cfg1.N) : iblk1 V c 5 t = iblk1 V c 5 t1₀ :=
  (fetched1_5 V (fun _ _ _ => True) c t (iblk1 V c 5 t)).symm.trans
    (((dat1 V (fun _ _ _ => True) c).fetched_congr 5 (hidx1_5 t) rfl (iblk1 V c 5 t)).trans
      (fetched1_5 V (fun _ _ _ => True) c t1₀ (iblk1 V c 5 t)))

/-- Window 6 stages a whole array, fetched once: its buffer holds that array at every point. -/
theorem fetched1_6 (P : Dev nD → ℕ → Vec F S10080x128 .bf16 → Prop) (c : Dev nD) (t : Fin cfg1.N) (d) : (dat1 V P c).fetched 6 t d = iblk1 V c 6 t := by
  unfold Dat.fetched Dat.blockOf iblk1; rw [A_eq1]; try rfl
theorem before1_6 (P : Dev nD → ℕ → Vec F S10080x128 .bf16 → Prop) (c : Dev nD) (t : Fin cfg1.N) (d) : (dat1 V P c).before 6 t d = iblk1 V c 6 t :=
  ((dat1 V P c).before_in_eq_fetched 6 rfl (fun _ => rfl) (fun _ _ _ => rfl)
    (fun t => by rw [after1_6]; unfold Dat.blockOf iblk1; rw [A_eq1]; try rfl) t d).trans (fetched1_6 V P c t d)
/-- Its block index is the same at every point, -/
theorem hidx1_6 : ∀ t : Fin cfg1.N, (cfg1.win 6).index t = (cfg1.win 6).index t1₀ :=
  (by decide +kernel : ∀ t : Fin grid1.N, win1_6.index t = win1_6.index t1₀)
/-- so its block is the first point's. -/
theorem iblk1_6_const (c : Dev nD) (t : Fin cfg1.N) : iblk1 V c 6 t = iblk1 V c 6 t1₀ :=
  (fetched1_6 V (fun _ _ _ => True) c t (iblk1 V c 6 t)).symm.trans
    (((dat1 V (fun _ _ _ => True) c).fetched_congr 6 (hidx1_6 t) rfl (iblk1 V c 6 t)).trans
      (fetched1_6 V (fun _ _ _ => True) c t1₀ (iblk1 V c 6 t)))

/-- Window 7 stages a whole array, fetched once: its buffer holds that array at every point. -/
theorem fetched1_7 (P : Dev nD → ℕ → Vec F S10080x128 .bf16 → Prop) (c : Dev nD) (t : Fin cfg1.N) (d) : (dat1 V P c).fetched 7 t d = iblk1 V c 7 t := by
  unfold Dat.fetched Dat.blockOf iblk1; rw [A_eq1]; try rfl
theorem before1_7 (P : Dev nD → ℕ → Vec F S10080x128 .bf16 → Prop) (c : Dev nD) (t : Fin cfg1.N) (d) : (dat1 V P c).before 7 t d = iblk1 V c 7 t :=
  ((dat1 V P c).before_in_eq_fetched 7 rfl (fun _ => rfl) (fun _ _ _ => rfl)
    (fun t => by rw [after1_7]; unfold Dat.blockOf iblk1; rw [A_eq1]; try rfl) t d).trans (fetched1_7 V P c t d)
/-- Its block index is the same at every point, -/
theorem hidx1_7 : ∀ t : Fin cfg1.N, (cfg1.win 7).index t = (cfg1.win 7).index t1₀ :=
  (by decide +kernel : ∀ t : Fin grid1.N, win1_7.index t = win1_7.index t1₀)
/-- so its block is the first point's. -/
theorem iblk1_7_const (c : Dev nD) (t : Fin cfg1.N) : iblk1 V c 7 t = iblk1 V c 7 t1₀ :=
  (fetched1_7 V (fun _ _ _ => True) c t (iblk1 V c 7 t)).symm.trans
    (((dat1 V (fun _ _ _ => True) c).fetched_congr 7 (hidx1_7 t) rfl (iblk1 V c 7 t)).trans
      (fetched1_7 V (fun _ _ _ => True) c t1₀ (iblk1 V c 7 t)))

/-! ## The schedule of the two result windows -/

/-- On the first sweep (points 0 … 8) the body stores nothing into the result windows: they are idle and not
    written back; on the second (points 9 … 17) they are live and written back. Decided over the 18 points. -/
theorem sched1_8 : ∀ t : Fin cfg1.N,
    (k1_cond2 (grid1.coords t) = 1#1 → cfg1.idle 8 (grid1.coords t) = false ∧ (cfg1.win 8).flush t = true)
    ∧ (¬k1_cond2 (grid1.coords t) = 1#1 → cfg1.idle 8 (grid1.coords t) = true ∧ (cfg1.win 8).flush t = false) :=
  (by decide +kernel : ∀ t : Fin grid1.N,
    (k1_cond2 (grid1.coords t) = 1#1 → idle1 8 (grid1.coords t) = false ∧ win1_8.flush t = true)
    ∧ (¬k1_cond2 (grid1.coords t) = 1#1 → idle1 8 (grid1.coords t) = true ∧ win1_8.flush t = false))
theorem sched1_9 : ∀ t : Fin cfg1.N,
    (k1_cond2 (grid1.coords t) = 1#1 → cfg1.idle 9 (grid1.coords t) = false ∧ (cfg1.win 9).flush t = true)
    ∧ (¬k1_cond2 (grid1.coords t) = 1#1 → cfg1.idle 9 (grid1.coords t) = true ∧ (cfg1.win 9).flush t = false) :=
  (by decide +kernel : ∀ t : Fin grid1.N,
    (k1_cond2 (grid1.coords t) = 1#1 → idle1 9 (grid1.coords t) = false ∧ win1_9.flush t = true)
    ∧ (¬k1_cond2 (grid1.coords t) = 1#1 → idle1 9 (grid1.coords t) = true ∧ win1_9.flush t = false))

/-- Exactly one of the two branches is taken at every point. -/
theorem cond1_xor : ∀ t : Fin cfg1.N,
    (k1_cond1 (grid1.coords t) = 1#1 ∧ ¬k1_cond2 (grid1.coords t) = 1#1) ∨ (¬k1_cond1 (grid1.coords t) = 1#1 ∧ k1_cond2 (grid1.coords t) = 1#1) :=
  (by decide +kernel : ∀ t : Fin grid1.N,
    (k1_cond1 (grid1.coords t) = 1#1 ∧ ¬k1_cond2 (grid1.coords t) = 1#1) ∨ (¬k1_cond1 (grid1.coords t) = 1#1 ∧ k1_cond2 (grid1.coords t) = 1#1))

/-! ## The invariant, opened at the scratch -/

/-- The invariant without the scratch: the scoped buffers no window of this region stages (other than the scratch),
    each at anything, and the generator register. -/
def PhiRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ ∃ r, prngReg c r)

/-- The invariant is the rest beside the scratch held at contents of which `Q` is known. -/
theorem PhiQ_open (c : Dev nD) (Q : Vec F S10080x128 .bf16 → Prop) :
    PhiQ c Q ⊢ iprop(PhiRest1 c ∗ ∃ s, owns (c : Thread nD τ) scM1 fullShare s ∗ ⌜Q s⌝) := by
  unfold PhiQ PhiRest1
  iintro ⟨⟨H1, H2, H3, H4, H5, H6, H7, H8, H9, H10, H11, H12, HS⟩, Hg⟩
  isplitr [HS]
  swap; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

theorem PhiQ_close (c : Dev nD) (Q : Vec F S10080x128 .bf16 → Prop) :
    iprop(PhiRest1 c ∗ ∃ s, owns (c : Thread nD τ) scM1 fullShare s ∗ ⌜Q s⌝) ⊢ PhiQ c Q := by
  unfold PhiQ PhiRest1
  iintro ⟨⟨H1, H2, H3, H4, H5, H6, H7, H8, H9, H10, H11, H12, Hg⟩, HS⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

/-- With nothing claimed of the scratch, the invariant before any position gives the opened form. -/
theorem Phi1_triv (c : Dev nD) : ∀ n : ℕ, Phi1 (F := F) (fun _ _ _ => True) c n ⊢ PhiQ c (fun _ => True)
  | 0 => PhiA1_in c
  | _ + 1 => .rfl

/-! ## The body obligation with the two result windows forgotten -/

/-- The result windows (8: the embedding, 9: the head's output) are forgotten: handed to the body at anything and
    taken back at anything. -/
def forgets1 : Fin cfg1.W → Bool := fun w => w.val == 8 || w.val == 9

/-- Nothing is claimed of the scratch. -/
abbrev Ptriv : Dev nD → ℕ → Vec F S10080x128 .bf16 → Prop := fun _ _ _ => True

/-- What the body is called with at point `t`, the windows one by one, -/
def bodyPre1f (c : Dev nD) (t : Fin cfg1.N) : sProp 𝕄 :=
  iprop((dat1 V Ptriv c).Φ t.castSucc ∗ (dat1 V Ptriv c).owesAt () t.castSucc
    ∗ (∃ d, owns (c : Thread nD τ) (st1_0 t) fullShare ((dat1 V Ptriv c).before 0 t d))
    ∗ (∃ d, owns (c : Thread nD τ) (st1_1 t) fullShare ((dat1 V Ptriv c).before 1 t d))
    ∗ (∃ d, owns (c : Thread nD τ) (st1_2 t) fullShare ((dat1 V Ptriv c).before 2 t d))
    ∗ (∃ d, owns (c : Thread nD τ) (st1_3 t) fullShare ((dat1 V Ptriv c).before 3 t d))
    ∗ (∃ d, owns (c : Thread nD τ) (st1_4 t) fullShare ((dat1 V Ptriv c).before 4 t d))
    ∗ (∃ d, owns (c : Thread nD τ) (st1_5 t) fullShare ((dat1 V Ptriv c).before 5 t d))
    ∗ (∃ d, owns (c : Thread nD τ) (st1_6 t) fullShare ((dat1 V Ptriv c).before 6 t d))
    ∗ (∃ d, owns (c : Thread nD τ) (st1_7 t) fullShare ((dat1 V Ptriv c).before 7 t d))
    ∗ (∃ X, owns (c : Thread nD τ) (st1_8 t) fullShare X)
    ∗ (∃ X, owns (c : Thread nD τ) (st1_9 t) fullShare X))

/-- and what it returns: the adjacency block's buffer stated on the rows inside the array only. -/
def bodyPost1f (c : Dev nD) (t : Fin cfg1.N) : sProp 𝕄 :=
  iprop((dat1 V Ptriv c).Φ t.succ ∗ (dat1 V Ptriv c).owesAt () t.succ
    ∗ (∃ d, owns (c : Thread nD τ) (st1_0 t) fullShare ((cfg1.win 0).fill (cfg1.grid.coords t) d ((cfg1.win 0).cut (cfg1.grid.coords t) ((dat1 V Ptriv c).after 0 t))))
    ∗ owns (c : Thread nD τ) (st1_1 t) fullShare ((dat1 V Ptriv c).after 1 t)
    ∗ owns (c : Thread nD τ) (st1_2 t) fullShare ((dat1 V Ptriv c).after 2 t)
    ∗ owns (c : Thread nD τ) (st1_3 t) fullShare ((dat1 V Ptriv c).after 3 t)
    ∗ owns (c : Thread nD τ) (st1_4 t) fullShare ((dat1 V Ptriv c).after 4 t)
    ∗ owns (c : Thread nD τ) (st1_5 t) fullShare ((dat1 V Ptriv c).after 5 t)
    ∗ owns (c : Thread nD τ) (st1_6 t) fullShare ((dat1 V Ptriv c).after 6 t)
    ∗ owns (c : Thread nD τ) (st1_7 t) fullShare ((dat1 V Ptriv c).after 7 t)
    ∗ (∃ X, owns (c : Thread nD τ) (st1_8 t) fullShare X)
    ∗ (∃ X, owns (c : Thread nD τ) (st1_9 t) fullShare X))

set_option maxHeartbeats 1000000 in
/-- The body at any point. On the first sweep the scratch, at whatever it holds, takes the block's new rows; on
    the second the two result buffers take their stores; the inputs come back as they were — the adjacency
    block's buffer with the same rows past the array's end it came with. -/
theorem sound_body1f (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  simp only [before1_0, before1_1, before1_2, before1_3, before1_4, before1_5, before1_6, before1_7]
  rw [show (dat1 V Ptriv c).Φ t.castSucc = Phi1 (F := F) (fun _ _ _ => True) c t.val from rfl,
    show (dat1 V Ptriv c).Φ t.succ = PhiQ c (fun _ => True) from rfl,
    show (dat1 V Ptriv c).owesAt () t.succ = (dat1 V Ptriv c).owesAt () t.castSucc from rfl,
    after1_0, after1_1, after1_2, after1_3, after1_4, after1_5, after1_6, after1_7]
  have hx : (cfg1.win 0).cut (cfg1.grid.coords t) (xA V c t) = iblk1 V c 0 t := win1_0.cut_fill _ _ _
  rw [hx]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩, ⟨%X9, H9⟩⟩
  ihave HQ := (Phi1_triv (F := F) c t.val) $$ HΦ
  ihave HQ' := (PhiQ_open c _) $$ HQ
  icases HQ' with ⟨HR, ⟨%s, HS, -⟩⟩
  rcases cond1_xor t with ⟨h1, h2⟩ | ⟨h1, h2⟩
  · iapply (sound_kernel1_l0 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) X8 X9 s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HR HS]
    · iapply (PhiQ_close c _)
      isplitl [HR]; · iexact HR
      iexists _; isplitl [HS]; · iexact HS
      ipureintro; trivial
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · iapply (sound_kernel1_l1 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HR HS]
    · iapply (PhiQ_close c _)
      isplitl [HR]; · iexact HR
      iexists _; isplitl [HS]; · iexact HS
      ipureintro; trivial
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The library's body obligation at every point, the two result windows forgotten and nothing claimed of the
    scratch: what the frame of the program needs. -/
theorem body_obligation1_forget (c : Dev nD) :
    BodyObligationLoose (dat1 (F := F) V (fun _ _ _ => True) c) (defs₀ (F := F)) Variants.none () Set.univ forgets1 := fun t => by
  rw [bigSep_W1, bigSep_W1]
  exact sound_body1f V c t

end Cert.Kernel.Hand

end
-- ==== Proof.Body0.lean ====
/- The body of region 0 (the first graph-convolution layer), run on whole staging buffers.

   At a grid point the body reads the 400-row block of the adjacency matrix, and the weights and biases; at the
   FIRST point only it also computes the dense map G1 = x·W1 + b1 of all 10000 rows into a scratch buffer that every
   later point reads back. Every store of the body writes a whole buffer through the rectangle of all its indices
   at offsets zero, so what a buffer holds afterwards is the store's payload itself, and every load is of a whole
   buffer, so it reads the buffer's contents. The two theorems below say what the nine buffers hold after the body
   — one for the first point, where the branch is taken, one for the others, where the scratch is only read. -/
import proofs.«176009_g27539330302398_cont_9to1_2132_15_alg».proof.Proof.Gen.KernelIdeal.Launch
import proofs.«176009_g27539330302398_cont_9to1_2132_15_alg».proof.Proof.Gen.KernelIdeal.Skeleton
import proofs.«176009_g27539330302398_cont_9to1_2132_15_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
theorem hz2 : (![0, 0] : Fin 2 → Nat) = fun _ => 0 := funext fun a => by fin_cases a <;> rfl

section WholeBuffer
variable {sg : RefSig} {κ : Kind} {sp : Space} {S : Shape} {e : EltTy}

/-- One store through the whole-shape rectangle at zero offsets leaves exactly its payload: the rectangle holds every
    index, so the single piece covers, and its canonical contents are the payload. -/
theorem read_writes_unit_zero (v : View sg κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_unit_zero (v : View sg κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

end WholeBuffer

/-- The condition of the body's one branch, from the grid coordinate: "this is point 0". -/
abbrev cond0 (i : grid0.Coords) : Prop := (Scalar.cmpi .ne (Scalar.extui (Scalar.cmpi .eq (BitVec.ofNat 32 (i 0).val) 0#32)) 0#32) = 1#1

/-- It holds at the first of the 25 grid points and at no other (decided over the grid). -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- Away from the first point the branch is skipped: the scratch (`arg9`, holding `s`) is only read. The adjacency
    block's rounded copy (`arg7`) ends at `k0_pay2 x1`, the layer's output block (`arg8`) at
    `k0_pay3 x1 s x5 x6` = round(relu(A·s)·W2 + b2); the six inputs and the scratch are handed back as they were.
    What `arg7` and `arg8` held before is read by dead loads and never used, hence the existentials. -/
theorem sound_kernel0_rest (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S10000x128 .bf16) (harg9 : arg9.IsWhole)
    (x1 : Vec F S400x10000 .f32) (x2 : Vec F S10000x128 .f32) (x3 : Vec F S128x128 .f32) (x4 : Vec F S1x128 .f32) (x5 : Vec F S128x128 .f32) (x6 : Vec F S1x128 .f32) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay2 x1) ∗ owns (c : Thread nD τ) arg8 fullShare (k0_pay3 x1 s x5 x6) ∗ owns (c : Thread nD τ) arg9 fullShare s) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1 hf2 hf3 hf4 hf5 hf6 hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero _ _ hz2, readAt_unit_zero _ _ hz2]
  isplitl [H8]
  · iexists _; isplitr
    swap; · iexact H8
    ipureintro
    rw [read_writes_unit_zero _ _ hz2, readAt_unit_zero _ _ hz2, readAt_unit_zero _ _ hz2, readAt_unit_zero _ _ hz2, readAt_unit_zero _ _ hz2]
  iexists f9; isplitr; · ipureintro; rfl
  iexact H9

set_option maxHeartbeats 1000000 in
/-- At the first point the branch is taken: the dense map G1 = round(round(x)·round(W1) + b1) of all 10000 rows,
    `k0_pay1 x2 x3 x4`, is stored over the whole scratch (`arg9`) and read back by the layer, so the output block
    (`arg8`) ends at `k0_pay3 x1 (k0_pay1 x2 x3 x4) x5 x6` and the scratch at `k0_pay1 x2 x3 x4`. What the three
    written buffers held before is read by dead loads and never used, hence the existentials. -/
theorem sound_kernel0_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .bf16) (harg7 : arg7.IsWhole) (arg8 : Memref sig .tc .vmem S400x128 .bf16) (harg8 : arg8.IsWhole) (arg9 : Memref sig .tc .vmem S10000x128 .bf16) (harg9 : arg9.IsWhole)
    (x1 : Vec F S400x10000 .f32) (x2 : Vec F S10000x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay2 x1) ∗ owns (c : Thread nD τ) arg8 fullShare (k0_pay3 x1 (k0_pay1 x2 x3 x4) x5 x6) ∗ owns (c : Thread nD τ) arg9 fullShare (k0_pay1 x2 x3 x4)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec (disch := first | exact hc)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero _ _ hz2, readAt_unit_zero _ _ hz2]
  isplitl [H8]
  · iexists _; isplitr
    swap; · iexact H8
    ipureintro
    rw [read_writes_unit_zero _ _ hz2, View.readCov_unit_zero _ hz2]
    repeat rw [readAt_unit_zero _ _ hz2]
  iexists _; isplitr
  swap; · iexact H9
  ipureintro
  rw [read_writes_unit_zero _ _ hz2]
  repeat rw [readAt_unit_zero _ _ hz2]

end Cert.KernelIdeal.Hand

end
-- ==== Proof.Region0.lean ====
/- Region 0 (the first graph-convolution layer) as a pipeline of 25 grid points: its proof data and body obligation.

   Point `t` stages the 400-row block `t` of the adjacency matrix (window 0) and, once, at the first point, the node
   features, the two weight matrices and the two bias rows (windows 1–5, whose block index is constant). The body
   writes back two blocks per point: the rounded copy of the adjacency block (window 6) and the block of the layer's
   output (window 7). It also keeps a scratch buffer between points: at the first point it fills it with the dense
   map G1 = x·W1 + b1 of all 10000 rows, and every point (the first included) reads it back to form
   relu(A_t·G1)·W2 + b2. So the invariant carried from point to point says: before the first point the scratch
   holds anything; afterwards it holds G1. Everything is stated at a parameter `V`, the buffer contents when the
   region is entered, and for any float instance `F`. -/
import proofs.«176009_g27539330302398_cont_9to1_2132_15_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the 25 grid points. -/
abbrev t₀ : Fin cfg0.N := ⟨0, by have h : grid0.N = 25 := N_0; show 0 < grid0.N; omega⟩

/-- What the scratch holds after the first point: G1 = x·W1 + b1 for all 10000 rows, from the node features (window 1),
    the first weight matrix (window 2) and the first bias row (window 3), whose one block is the whole array. -/
def G1 (c : Dev nD) : Vec F S10000x128 .bf16 := k0_pay1 (iblk0 V c 1 t₀) (iblk0 V c 2 t₀) (iblk0 V c 3 t₀)

/-- Input window 0's current staging buffer holds that window's block at every point, whether or not the block was
    fetched there (an unfetched block has the index it had at the point before), for any proof data over the arrays `V`
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds that window's block at every point, whether or not the block was
    fetched there (an unfetched block has the index it had at the point before), for any proof data over the arrays `V`
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds that window's block at every point, whether or not the block was
    fetched there (an unfetched block has the index it had at the point before), for any proof data over the arrays `V`
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds that window's block at every point, whether or not the block was
    fetched there (an unfetched block has the index it had at the point before), for any proof data over the arrays `V`
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds that window's block at every point, whether or not the block was
    fetched there (an unfetched block has the index it had at the point before), for any proof data over the arrays `V`
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds that window's block at every point, whether or not the block was
    fetched there (an unfetched block has the index it had at the point before), for any proof data over the arrays `V`
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The invariant between points -/

/-- The scratch the body keeps between points, as a whole memref. -/
abbrev scM0 : Memref sig .tc .vmem S10000x128 .bf16 := Memref.whole cc0_scratch0

/-- The core's scoped buffers that region 0 neither stages through nor uses as scratch — the other region's fourteen —
    each whole at some contents. -/
def Rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg8_1), ((c : Thread nD τ).loc cc1_stg8_1) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f)
      ∗ (∃ f : Buf (Elt F) ((c : Thread nD τ).loc cc1_scratch0), ((c : Thread nD τ).loc cc1_scratch0) ↦{fullShare} f))

/-- What the launch hands the region: the scratch at some contents, the other scoped buffers, the generator register. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; rfl

/-- The invariant before position `n`: before the first point what the launch hands over (the scratch at anything);
    after any point the scratch holds G1, beside the other scoped buffers and the generator register. -/
def PhiS0 (c : Dev nD) : ℕ → sProp 𝕄
  | 0 => Pipeline.ΦA spec0 c
  | _ + 1 => iprop(owns (c : Thread nD τ) scM0 fullShare (G1 V c) ∗ Rest0 c ∗ (∃ r, prngReg c r))

theorem PhiS0_zero (c : Dev nD) : PhiS0 V c 0 = Pipeline.ΦA spec0 c := rfl

theorem PhiS0_succ (c : Dev nD) (n : ℕ) :
    PhiS0 V c (n + 1) = iprop(owns (c : Thread nD τ) scM0 fullShare (G1 V c) ∗ Rest0 c ∗ (∃ r, prngReg c r)) := rfl

theorem PhiS0_pos (c : Dev nD) (n : ℕ) (hz : n ≠ 0) :
    PhiS0 V c n = iprop(owns (c : Thread nD τ) scM0 fullShare (G1 V c) ∗ Rest0 c ∗ (∃ r, prngReg c r)) := by
  cases n with
  | zero => exact absurd rfl hz
  | succ n => rfl

/-! ## The pipeline's proof data -/

/-- The proof data of region 0 on core `c`: the arrays as the region finds them; after the body at point `t` each
    input's buffer still at its block, the rounded adjacency block in window 6, and in window 7 the layer's output
    block relu(A_t·G1)·W2 + b2; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 0 t)
    | ⟨7, _⟩ => k0_pay3 (iblk0 V c 0 t) (G1 V c) (iblk0 V c 4 t) (iblk0 V c 5 t)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (iblk0 V c 0 t) := by dsimp only [dat0]
theorem after0_7 (c : Dev nD) (t : Fin cfg0.N) : (dat0 V c).after 7 t = k0_pay3 (iblk0 V c 0 t) (G1 V c) (iblk0 V c 4 t) (iblk0 V c 5 t) := by dsimp only [dat0]

/-- The invariant at a point's start, restated at the point's number. -/
theorem PhiS0_castSucc (c : Dev nD) (t : Fin cfg0.N) : (dat0 V c).Φ t.castSucc = PhiS0 V c t.val := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1600000 in
/-- The body at any point. The inputs' memrefs hold their blocks. At the first point the invariant hands the scratch at
    anything and the body leaves it at G1 (the first point's blocks of windows 1–3 ARE those G1 is stated over);
    at a later point the invariant hands the scratch at G1 and the body hands it back unchanged. The other scoped
    buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS0 V c (t.val + 1) from rfl, PhiS0_succ, PhiS0_castSucc]
  by_cases hz : t.val = 0
  · obtain rfl : t = t₀ := Fin.ext hz
    rw [PhiS0_zero, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords t₀) ((hcond0 t₀).mpr rfl) _ _ _ _ _ _ _ _ _ _ _ _ _ _ _ _ _ _
      (iblk0 V c 0 t₀) (iblk0 V c 1 t₀) (iblk0 V c 2 t₀) (iblk0 V c 3 t₀) (iblk0 V c 4 t₀) (iblk0 V c 5 t₀) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS0_pos V c _ hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_rest c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (iblk0 V c 5 t) (G1 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 from rfl, PhiS0_zero]
  try exact Idealize.SL.BI.Entails.refl _

/-- After any point but the first position the invariant gives the launch's back: that the scratch holds G1 is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val from rfl, PhiS0_pos V c _ ht, PhiA0_eq]
  iintro ⟨HS, HR, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region0

end Cert.KernelIdeal.Hand

end
-- ==== Proof.Region1.lean ====
import proofs.«176009_g27539330302398_cont_9to1_2132_15_alg».proof.Proof.Gen.KernelIdeal.Launch
import proofs.«176009_g27539330302398_cont_9to1_2132_15_alg».proof.Proof.Gen.KernelIdeal.Skeleton
import proofs.«176009_g27539330302398_cont_9to1_2132_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The second region (layers 2 and 3 and the projection head): proof data

The grid is (l, i), 2 × 9 points in row-major order, i the row block of 1120 rows (the ninth overhangs the 10000
rows by 80). At l = 0 point i stores rows 1120·i … 1120·i + 1119 of the scratch (the third layer's input
`G3 = relu(A·G2)·W3 + b3`); at l = 1 point i reads the scratch's first 10000 rows and stores the block's rows of
`emb = A·G3` and of `z`. -/

variable (V : (c : Dev nD) → (b : Ref sig .tc) → Buf (Elt F) ((c : Thread nD τ).loc b))

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `A` at point `t` as a full 1120-row buffer: the rows inside the array, a word nobody reads
    elsewhere. -/
def xA (c : Dev nD) (t : Fin cfg1.N) : Vec F S1120x10000 .bf16 :=
  win1_0.fill (grid1.coords t) (fun _ => Classical.choice (Elt.nonempty F _)) (iblk1 V c 0 t)

/-- The first point: where the whole-array windows are read. -/
abbrev t1₀ : Fin cfg1.N := ⟨0, by decide⟩

/-- What point `t` of the first phase computes for its 1120 rows of the scratch. -/
def rowsG3 (c : Dev nD) (t : Fin cfg1.N) : Vec F S1120x128 .bf16 :=
  k1_pay1 (xA V c t) (iblk1 V c 1 t1₀) (iblk1 V c 2 t1₀) (iblk1 V c 3 t1₀)

/-- The scratch's first 10000 rows once the first phase is over, as one array: row `r` is row `r % 1120` of what
    point `r / 1120` computed. -/
def G3 (c : Dev nD) : Vec F S10000x128 .bf16 := fun y =>
  rowsG3 V c ⟨(y 0).val / 1120, by have := (y 0).isLt; show _ < 18; have h : (y 0).val < 10000 := this; omega⟩
    (ValueIdx.ix2 (⟨(y 0).val % 1120, Nat.mod_lt _ (by decide)⟩ : Fin 1120) (⟨(y 1).val, (y 1).isLt⟩ : Fin 128))

/-- The scratch operand. -/
abbrev scM1 : Memref sig .tc .vmem S10080x128 .bf16 := Memref.whole cc1_scratch0

/-- The region's invariant once the first point has run: the scoped buffers no window of this region stages at
    anything, except the scratch, held at contents `s` of which `Q s` is known; and the generator register. -/
def PhiQ (c : Dev nD) (Q : Vec F S10080x128 .bf16 → Prop) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ s, owns (c : Thread nD τ) scM1 fullShare s ∗ ⌜Q s⌝)) ∗ ∃ r, prngReg c r)

/-- What the region is entered with gives the invariant with nothing known of the scratch, -/
theorem PhiA1_in (c : Dev nD) : (Pipeline.ΦA spec1 c : sProp 𝕄) ⊢ PhiQ c (fun _ => True) := by
  unfold Pipeline.ΦA PhiQ; rw [scopedRest1_eq]
  iintro ⟨⟨H1, H2, H3, H4, H5, H6, H7, H8, H9, H10, H11, H12, ⟨%f, HS⟩⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists f; isplitl [HS]
  · rw [owns_whole]; iexact HS
  · ipureintro; trivial

/-- and the invariant gives it back, whatever was known. -/
theorem PhiQ_out (c : Dev nD) (Q : Vec F S10080x128 .bf16 → Prop) : PhiQ c Q ⊢ (Pipeline.ΦA spec1 c : sProp 𝕄) := by
  unfold Pipeline.ΦA PhiQ; rw [scopedRest1_eq]
  iintro ⟨⟨H1, H2, H3, H4, H5, H6, H7, H8, H9, H10, H11, H12, ⟨%s, HS, -⟩⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists s; iapply (Entails.of_eq (owns_whole (c : Thread nD τ) cc1_scratch0 fullShare s)); iexact HS

/-- The invariant before position `n`: what the region is entered with, then the scratch at contents satisfying
    `P c n` — a parameter: what the points before `n` are known to have left in it. -/
def Phi1 (P : Dev nD → ℕ → Vec F S10080x128 .bf16 → Prop) (c : Dev nD) : ℕ → sProp 𝕄
  | 0 => Pipeline.ΦA spec1 c
  | n + 1 => PhiQ c (P c (n + 1))

/-- The proof data of the second pipeline on core `c`, at the scratch knowledge `P`: the arrays as the region finds
    them; after the body each input's buffer at its block (the row block of `A` filled out past the array's end),
    the results' at the block's rows of `emb` and `z` computed from the whole `G3`; nothing owed; full shares. -/
def dat1 (P : Dev nD → ℕ → Vec F S10080x128 .bf16 → Prop) (c : Dev nD) : Dat τ (Elt F) Unit ℕ (UR sig nD τ) ℕ cfg1 c where
  A w := V c (Pipeline.arrRef spec1 w)
  after w t := match w with
    | ⟨0, _⟩ => xA V c t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (xA V c t) (G3 V c)
    | ⟨9, _⟩ => k1_pay3 (xA V c t) (G3 V c) (iblk1 V c 4 t1₀) (iblk1 V c 5 t1₀) (iblk1 V c 6 t1₀) (iblk1 V c 7 t1₀)
  Φ t := Phi1 P c t.val
  q _ := fullShare
  owed _ := 0

theorem A_eq1 (P : Dev nD → ℕ → Vec F S10080x128 .bf16 → Prop) (c : Dev nD) (w : Fin cfg1.W) :
    (dat1 V P c).A w = V c (Pipeline.arrRef spec1 w) := by
  dsimp only [dat1]

theorem hin1 (P : Dev nD → ℕ → Vec F S10080x128 .bf16 → Prop) (c : Dev nD) :
    (Pipeline.ΦA spec1 c : sProp 𝕄) ⊢ (dat1 V P c).Φ 0 := .rfl

theorem hout1 (P : Dev nD → ℕ → Vec F S10080x128 .bf16 → Prop) (c : Dev nD) :
    (dat1 V P c).Φ (Fin.last cfg1.N) ⊢ (Pipeline.ΦA spec1 c : sProp 𝕄) :=
  PhiQ_out c _

end Cert.KernelIdeal.Hand

end
-- ==== Proof.Run.lean ====
import proofs.«176009_g27539330302398_cont_9to1_2132_15_alg».proof.Proof.Gen.KernelIdeal.Launch
import proofs.«176009_g27539330302398_cont_9to1_2132_15_alg».proof.Proof.Gen.KernelIdeal.Skeleton
import proofs.«176009_g27539330302398_cont_9to1_2132_15_alg».proof.Proof.Gen.KernelIdeal.Points
import proofs.«176009_g27539330302398_cont_9to1_2132_15_alg».proof.Proof.Region0
import proofs.«176009_g27539330302398_cont_9to1_2132_15_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run: @main's three items (the host reshapes, the first region, the second region)

The buffer contents at each boundary are a fold from the launch memory: after the host stretch
`StableHlo.after hostOps0`; after the first region its arrays at what its write-backs leave (`Dat.arrAt`), every
other buffer as entered; after the second region its arrays at SOME contents its write-backs may leave (the
relation `RDat.ArrAt` of its proof data, possibly with windows forgotten), every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ### Each argument reaches the first region's exit as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## The second region's exit -/

/-- The buffers at the second region's exit, given what its arrays hold. -/
def W3of (c : Dev nD) (G : (w : Fin cfg1.W) → Buf (Elt F) ((spec1 w).arr.view.loc (c : Thread nD τ))) : Valuation τ sig (Elt F) :=
  Pipeline.withArrays spec1 c (W2 m ρ c) G
theorem W3of_arr (c : Dev nD) (G) (w : Fin cfg1.W) : W3of m ρ c G (Proc.devRef .tc (Pipeline.arrRef spec1 w)) = G w := by
  unfold W3of; exact Pipeline.withArrays_arr spec1 launch1.win.arr_inj c _ _ w
theorem W3of_of_ne (c : Dev nD) (G) (b : Ref sig .tc) (hb : ∀ w, Pipeline.arrRef spec1 w ≠ b) :
    W3of m ρ c G (Proc.devRef .tc b) = W2 m ρ c (Proc.devRef .tc b) := by
  unfold W3of; exact Pipeline.withArrays_of_ne spec1 c _ _ b hb
abbrev V3of (c : Dev nD) (G : (w : Fin cfg1.W) → Buf (Elt F) ((spec1 w).arr.view.loc (c : Thread nD τ))) :
    (b : Ref sig .tc) → Buf (Elt F) ((c : Thread nD τ).loc b) := fun b => W3of m ρ c G b

/-! ## The proof data family and the thread state -/

variable (P : Dev nD → ℕ → Vec F S10080x128 .bf16 → Prop) (fgt1 : Fin cfg1.W → Bool)

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) P c
/-- The same read relationally, the second region's windows `fgt1` forgotten. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => (dat1 (V2 m ρ) P c).toRForget fgt1
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: the second region's arrays at some contents its write-backs may leave, every other
    unscoped buffer as the first region left it; the generator register at some state. -/
abbrev Tₙ (c : Dev nD) : sProp 𝕄 :=
  iprop((∃ G, ⌜∀ w, (rdats m ρ P fgt1 1 c).ArrAt w cfg1.N (G w)⌝ ∗ StableHlo.held (c : Thread nD τ) (Pipeline.ucRefs τ sig) (W3of m ρ c G)) ∗ ∃ r, prngReg c r)

/-! ## The regions as segments -/

set_option backward.isDefEq.respectTransparency.types false in
/-- The first region: entered from every unscoped buffer at `W1`, left at `W2`. -/
def reg0 : Pipeline.RDat.RegionSeg (pcfgs (F := F)) adm (rdats m ρ P fgt1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ P fgt1) launch0.win launch0.arr_whole c
      ((rdats m ρ P fgt1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ P fgt1 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (rdats m ρ P fgt1 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ P) ((pdats m ρ P 0 c).share_full fun _ => rfl)
      (V1 m ρ c) (V2 m ρ c) ((pdats m ρ P 0 c).arrAt · cfg0.N) (hF0 m ρ c) (hrest0 m ρ c)
    rw [Pipeline.unscopedBufs_held] at hjoin
    have hjoin' : iprop((dat0 (V1 m ρ) c).arrays ((dat0 (V1 m ρ) c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := hjoin
    rw [show (rdats m ρ P fgt1 0 c).arraysAt (Pipeline.pin (pcfgs (F := F)) adm 0).N = (dat0 (V1 m ρ) c).toR.arraysAt cfg0.N from rfl,
      (dat0 (V1 m ρ) c).toR_arraysAt_eq]
    iintro ⟨Ha, HO, HY, Hrest⟩
    imodintro
    isplitl [Ha Hrest]
    · iapply hjoin'; isplitl [Ha] <;> iassumption
    isplitl [HY]; · iexact HY
    unfold Pipeline.RDat.owesAt Pipeline.owesWithin
    icases HO with ⟨%W, -, HO⟩; iexists W; iexact HO

variable (hbody1 : ∀ c : Dev nD, BodyObligationLoose (dat1 (F := F) (V2 m ρ) P c) (defs₀ (F := F)) Variants.none () Set.univ fgt1)

set_option backward.isDefEq.respectTransparency.types false in
/-- The second region: entered from every unscoped buffer at `W2`, left with its arrays at some contents their
    write-backs may leave. -/
def reg1 : Pipeline.RDat.RegionSeg (pcfgs (F := F)) adm (rdats m ρ P fgt1) () defs₀ 𝒱₀ L lv 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ P fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ P fgt1) launch1.win launch1.arr_whole c
      ((rdats m ρ P fgt1 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ P fgt1 1 c).Φ 0 = (dat1 (V2 m ρ) P c).Φ 0 from rfl]
    refine .trans ?_ (hin1 (V2 m ρ) P c)
    unfold Pipeline.ΦA
    iintro ⟨Hp, -, Hr⟩
    isplitl [Hr]; · iexact Hr
    iexact Hp
  hout c := by
    rw [Pipeline.ownSems0_none, show (rdats m ρ P fgt1 1 c).Φ (Fin.last _) = (dat1 (V2 m ρ) P c).Φ (Fin.last cfg1.N) from rfl]
    refine (hout1 (V2 m ρ) P c).trans ?_
    unfold Pipeline.ΦA
    iintro ⟨Hr, Hp⟩
    isplitl [Hp]; · iexact Hp
    isplitr; · iempintro
    iexact Hr
  hexit c := by
    -- the arrays at SOME contents their write-backs may leave, opened
    have harrAt : ((rdats m ρ P fgt1 1 c).arraysAt cfg1.N : sProp 𝕄)
        ⊢ iprop(∃ A, ⌜∀ w, (rdats m ρ P fgt1 1 c).ArrAt w cfg1.N (A w)⌝ ∗ (pdats m ρ P 1 c).arrays A) := by
      unfold Pipeline.RDat.arraysAt
      iintro Ha
      ihave Ha' := (BI.bigSep_exists_pi Finset.univ (fun w F => iprop(⌜(rdats m ρ P fgt1 1 c).ArrAt w cfg1.N F⌝
          ∗ (cfg1.win w).arr.view.loc (c : Thread nD τ) ↦[(cfg1.win w).arr.view.set]{(rdats m ρ P fgt1 1 c).share w} F))) $$ Ha
      icases Ha' with ⟨%A, Ha⟩
      ihave Ha2 := (BI.bigSep_pure_sep Finset.univ (fun w => (rdats m ρ P fgt1 1 c).ArrAt w cfg1.N (A w))
          (fun w => (cfg1.win w).arr.view.loc (c : Thread nD τ) ↦[(cfg1.win w).arr.view.set]{(rdats m ρ P fgt1 1 c).share w} A w)) $$ Ha
      icases Ha2 with ⟨%hA', Ha⟩
      iexists A; isplitr; · ipureintro; exact fun w => hA' w (Finset.mem_univ w)
      iapply (show (bigSep Finset.univ fun w : Fin cfg1.W => ((cfg1.win w).arr.view.loc (c : Thread nD τ) ↦[(cfg1.win w).arr.view.set]{(rdats m ρ P fgt1 1 c).share w} A w : sProp 𝕄))
          ⊢ (pdats m ρ P 1 c).arrays A from .rfl)
      iexact Ha
    iintro ⟨Ha, HO, HY, Hrest⟩
    ihave Ha' := harrAt $$ Ha
    icases Ha' with ⟨%A, %hA, Ha⟩
    have hjoin := Pipeline.unscopedBufs_of_arrays (p := 1) (pcfgs (F := F)) adm (Ix := Unit) (Name := ℕ) (U := UR sig nD τ) (Lvl := ℕ)
      launch1.win launch1.arr_whole c (pdats m ρ P) ((pdats m ρ P 1 c).share_full fun _ => rfl)
      (V2 m ρ c) (V3of m ρ c A) A (fun w => (W3of_arr m ρ c A w).symm)
      (fun b hb => W3of_of_ne m ρ c A b fun w e => hb (Finset.mem_image.mpr ⟨w, Finset.mem_univ _, e⟩))
    rw [Pipeline.unscopedBufs_held] at hjoin
    imodintro
    isplitl [Ha Hrest HY]
    · isplitl [Ha Hrest]
      · iexists A; isplitr; · ipureintro; exact hA
        iapply hjoin; isplitl [Ha] <;> iassumption
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ P fgt1) () defs₀ 𝒱₀ L lv) :=
  [ .host (hseg hostOps0 hostOps0_sub hostOps0_fresh' (W0 m ρ)),
    .region (reg0 m ρ P fgt1),
    .region (reg1 m ρ P fgt1 hbody1) ]
theorem main_run (c : Dev nD) : main (F := F) c = Pipeline.RDat.Seg.run (segs m ρ P fgt1 hbody1) := (main_chain c).trans (by chain_rfl)

include hbody1 in
set_option backward.isDefEq.respectTransparency.types false in
/-- THE RUN. From any memory with zero counters every weakly fair execution of @main terminates, nothing faulting,
    and in every final state the second region's arrays hold contents their write-backs may leave (`G`) and every
    other unscoped buffer what the first region's exit left (`W3of`). -/
theorem run_main : θ_run defs (onTc (τ := τ) (main (F := F))) ⟨m, fun _ => 0, ρ⟩ (fun r => ∀ c : Dev nD,
      ∃ G, (∀ w, (rdats m ρ P fgt1 1 c).ArrAt w cfg1.N (G w))
        ∧ ∀ b ∈ Pipeline.ucRefs τ sig, r.2.mem (((c : Thread nD τ)).1, b) = W3of m ρ c G b) :=
  Pipeline.RDat.θ_run_regions_kit (pcfgs (F := F)) adm (rdats m ρ P fgt1) () cellOf_inj emb₁ defs₀ 𝒱₀ L lv m ρ main (segs m ρ P fgt1 hbody1)
    (fun c Q => by rw [main_run m ρ P fgt1 hbody1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ P fgt1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ G, (∀ w, (rdats m ρ P fgt1 1 c).ArrAt w cfg1.N (G w))
        ∧ ∀ b ∈ Pipeline.ucRefs τ sig, s.mem (((c : Thread nD τ)).1, b) = W3of m ρ c G b)
    (hfin := fun c s' => by
      iintro ⟨⟨⟨%G, %hG, Hh⟩, -⟩, HSI⟩
      unfold StableHlo.held
      ihave Hr := (pointsTo_read_all (Pipeline.ucRefs τ sig) (fun b => (((c : Thread nD τ)).1, b)) (W3of m ρ c G) s') $$ [Hh HSI]
      · isplitl [Hh] <;> iassumption
      icases Hr with ⟨%h, HSI⟩
      imodintro
      isplitr
      · ipureintro; exact ⟨G, hG, h⟩
      · iexact HSI)
    (hQ := fun s h c => h c)

end Cert.KernelIdeal.Hand

end
-- ==== Proof.Frames.lean ====
import proofs.«176009_g27539330302398_cont_9to1_2132_15_alg».proof.Proof.Gen.KernelIdeal.Launch
import proofs.«176009_g27539330302398_cont_9to1_2132_15_alg».proof.Proof.Gen.KernelIdeal.Skeleton
import proofs.«176009_g27539330302398_cont_9to1_2132_15_alg».proof.Proof.Gen.KernelIdeal.Points
import proofs.«176009_g27539330302398_cont_9to1_2132_15_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The frame and the results, read off the run -/

variable (m : (ℓ : Loc nD τ sig) → Buf (Elt F) ℓ) (ρ : Dev nD → PrngReg)
variable (P : Dev nD → ℕ → Vec F S10080x128 .bf16 → Prop) (fgt1 : Fin cfg1.W → Bool)
variable (hbody1 : ∀ c : Dev nD, BodyObligationLoose (dat1 (F := F) (V2 m ρ) P c) (defs₀ (F := F)) Variants.none () Set.univ fgt1)

include hbody1 in
set_option backward.isDefEq.respectTransparency.types false in
/-- Every argument array ends as launched: an input window's array is never written (its contents after the
    write-backs are its entry contents), and no other item of @main writes an argument. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨G, hG, hb⟩ := h c
    have hin : ∀ (w : Fin cfg1.W), (cfg1.win w).isOut = false → G w = V2 m ρ c (Pipeline.arrRef spec1 w) := fun w hw => by
      have h1 := hG w
      rw [(rdats m ρ P fgt1 1 c).ArrAt_in w hw] at h1
      exact h1.trans (A_eq1 (V2 m ρ) P c w)
    exact ⟨(hb (Proc.devRef .tc main_arg0) (mem_uc main_arg0 (by decide))).trans ((W3of_of_ne m ρ c G main_arg0 (by decide)).trans (W2_main_arg0 m ρ c)),
      (hb (Proc.devRef .tc main_arg1) (mem_uc main_arg1 (by decide))).trans ((W3of_of_ne m ρ c G main_arg1 (by decide)).trans (W2_main_arg1 m ρ c)),
      (hb (Proc.devRef .tc main_arg2) (mem_uc main_arg2 (by decide))).trans ((W3of_of_ne m ρ c G main_arg2 (by decide)).trans (W2_main_arg2 m ρ c)),
      (hb (Proc.devRef .tc main_arg3) (mem_uc main_arg3 (by decide))).trans ((W3of_of_ne m ρ c G main_arg3 (by decide)).trans (W2_main_arg3 m ρ c)),
      (hb (Proc.devRef .tc main_arg4) (mem_uc main_arg4 (by decide))).trans ((W3of_of_ne m ρ c G main_arg4 (by decide)).trans (W2_main_arg4 m ρ c)),
      (hb (Proc.devRef .tc main_arg5) (mem_uc main_arg5 (by decide))).trans ((W3of_of_ne m ρ c G main_arg5 (by decide)).trans (W2_main_arg5 m ρ c)),
      (hb (Proc.devRef .tc main_arg6) (mem_uc main_arg6 (by decide))).trans ((W3of_arr m ρ c G 2).trans ((hin 2 rfl).trans (W2_main_arg6 m ρ c))),
      (hb (Proc.devRef .tc main_arg7) (mem_uc main_arg7 (by decide))).trans ((W3of_of_ne m ρ c G main_arg7 (by decide)).trans (W2_main_arg7 m ρ c)),
      (hb (Proc.devRef .tc main_arg8) (mem_uc main_arg8 (by decide))).trans ((W3of_arr m ρ c G 4).trans ((hin 4 rfl).trans (W2_main_arg8 m ρ c))),
      (hb (Proc.devRef .tc main_arg9) (mem_uc main_arg9 (by decide))).trans ((W3of_of_ne m ρ c G main_arg9 (by decide)).trans (W2_main_arg9 m ρ c)),
      (hb (Proc.devRef .tc main_arg10) (mem_uc main_arg10 (by decide))).trans ((W3of_arr m ρ c G 6).trans ((hin 6 rfl).trans (W2_main_arg10 m ρ c))),
      (hb (Proc.devRef .tc main_arg11) (mem_uc main_arg11 (by decide))).trans ((W3of_of_ne m ρ c G main_arg11 (by decide)).trans (W2_main_arg11 m ρ c))⟩) (run_main m ρ P fgt1 hbody1)

include hbody1 in
set_option backward.isDefEq.respectTransparency.types false in
/-- With the two result windows not forgotten, the result arrays end at what the proof data's write-backs compute,
    and the arguments as launched. -/
theorem values_of_run (h8 : fgt1 8 = false) (h9 : fgt1 9 = false) :
    θ_run defs (onTc (τ := τ) (main (F := F))) ⟨m, fun _ => 0, ρ⟩ (fun r => ∀ c : Dev nD,
      r.2.mem ((c.tc : Thread nD τ).loc main_v6_1) = (dat1 (V2 m ρ) P c).arrAt 9 cfg1.N
      ∧ r.2.mem ((c.tc : Thread nD τ).loc main_v6_0) = (dat1 (V2 m ρ) P c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨G, hG, hb⟩ := h c
    have hin : ∀ (w : Fin cfg1.W), (cfg1.win w).isOut = false → G w = V2 m ρ c (Pipeline.arrRef spec1 w) := fun w hw => by
      have h1 := hG w
      rw [(rdats m ρ P fgt1 1 c).ArrAt_in w hw] at h1
      exact h1.trans (A_eq1 (V2 m ρ) P c w)
    have hout : ∀ (w : Fin cfg1.W), fgt1 w = false → G w = (dat1 (V2 m ρ) P c).arrAt w cfg1.N := fun w hw =>
      ((dat1 (V2 m ρ) P c).toRForget_arrAt_iff hw cfg1.N (G w)).mp (hG w)
    exact ⟨(hb (Proc.devRef .tc main_v6_1) (mem_uc main_v6_1 (by decide))).trans ((W3of_arr m ρ c G 9).trans (hout 9 h9)),
      (hb (Proc.devRef .tc main_v6_0) (mem_uc main_v6_0 (by decide))).trans ((W3of_arr m ρ c G 8).trans (hout 8 h8)),
      (hb (Proc.devRef .tc main_arg0) (mem_uc main_arg0 (by decide))).trans ((W3of_of_ne m ρ c G main_arg0 (by decide)).trans (W2_main_arg0 m ρ c)),
      (hb (Proc.devRef .tc main_arg1) (mem_uc main_arg1 (by decide))).trans ((W3of_of_ne m ρ c G main_arg1 (by decide)).trans (W2_main_arg1 m ρ c)),
      (hb (Proc.devRef .tc main_arg2) (mem_uc main_arg2 (by decide))).trans ((W3of_of_ne m ρ c G main_arg2 (by decide)).trans (W2_main_arg2 m ρ c)),
      (hb (Proc.devRef .tc main_arg3) (mem_uc main_arg3 (by decide))).trans ((W3of_of_ne m ρ c G main_arg3 (by decide)).trans (W2_main_arg3 m ρ c)),
      (hb (Proc.devRef .tc main_arg4) (mem_uc main_arg4 (by decide))).trans ((W3of_of_ne m ρ c G main_arg4 (by decide)).trans (W2_main_arg4 m ρ c)),
      (hb (Proc.devRef .tc main_arg5) (mem_uc main_arg5 (by decide))).trans ((W3of_of_ne m ρ c G main_arg5 (by decide)).trans (W2_main_arg5 m ρ c)),
      (hb (Proc.devRef .tc main_arg6) (mem_uc main_arg6 (by decide))).trans ((W3of_arr m ρ c G 2).trans ((hin 2 rfl).trans (W2_main_arg6 m ρ c))),
      (hb (Proc.devRef .tc main_arg7) (mem_uc main_arg7 (by decide))).trans ((W3of_of_ne m ρ c G main_arg7 (by decide)).trans (W2_main_arg7 m ρ c)),
      (hb (Proc.devRef .tc main_arg8) (mem_uc main_arg8 (by decide))).trans ((W3of_arr m ρ c G 4).trans ((hin 4 rfl).trans (W2_main_arg8 m ρ c))),
      (hb (Proc.devRef .tc main_arg9) (mem_uc main_arg9 (by decide))).trans ((W3of_of_ne m ρ c G main_arg9 (by decide)).trans (W2_main_arg9 m ρ c)),
      (hb (Proc.devRef .tc main_arg10) (mem_uc main_arg10 (by decide))).trans ((W3of_arr m ρ c G 6).trans ((hin 6 rfl).trans (W2_main_arg10 m ρ c))),
      (hb (Proc.devRef .tc main_arg11) (mem_uc main_arg11 (by decide))).trans ((W3of_of_ne m ρ c G main_arg11 (by decide)).trans (W2_main_arg11 m ρ c))⟩) (run_main m ρ P fgt1 hbody1)

end Cert.KernelIdeal.Hand

end
-- ==== Proof.Body1.lean ====
/- The body of region 1 (graph-convolution layers 2 and 3 and the projection head), run on whole staging buffers,
   over the grid (l, i) of two sweeps of nine row blocks of 1120 rows.

   On the first sweep (l = 0) the body computes, for its block of 1120 rows of the adjacency matrix A, the rows
   relu(A·G2)·W3 + b3 of G3 (rounded between the steps) — the payload `k1_pay1` — and stores them into rows
   1120·i … 1120·i + 1119 of a 10080-row scratch; nothing else changes. On the second sweep (l = 1) it loads rows 0 … 9999 of that scratch and stores the embedding block
   `k1_pay2` and the head's output block `k1_pay3` over the whole of its two output buffers. The scratch after a
   first-sweep point is stated as ONE function (`scratchAfter`: the payload on the stored rows, the old contents
   elsewhere) with its two reading lemmas; what the second sweep loads is `View.ld s R10000` with its reading lemma. -/
import proofs.«176009_g27539330302398_cont_9to1_2132_15_alg».proof.Proof.Gen.KernelIdeal.Launch
import proofs.«176009_g27539330302398_cont_9to1_2132_15_alg».proof.Proof.Gen.KernelIdeal.Skeleton
import proofs.«176009_g27539330302398_cont_9to1_2132_15_alg».proof.Proof.Gen.KernelIdeal.Points
import Idealize.ShloMosaic.Lib.ValueIdx
import Idealize.ShloMosaic.Lib.WritesUnit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2)

/-- The offsets `![0, 0]` are the zero offsets. -/
theorem hz2' : (![0, 0] : Fin 2 → Nat) = fun _ => 0 := funext fun a => by fin_cases a <;> rfl

/-! ## The two branch conditions over the grid (l, i) -/

/-- The first branch is taken exactly on the first sweep (l = 0: points 0 … 8), the second exactly on the second
    (l = 1: points 9 … 17) — decided over the 18 grid points. -/
theorem hcond1_l0 : ∀ t : Fin cfg1.N, (k1_cond1 (grid1.coords t) = 1#1 ↔ t.val < 9) ∧ (k1_cond2 (grid1.coords t) = 1#1 ↔ 9 ≤ t.val) :=
  (by decide +kernel : ∀ t : Fin grid1.N, (k1_cond1 (grid1.coords t) = 1#1 ↔ t.val < 9) ∧ (k1_cond2 (grid1.coords t) = 1#1 ↔ 9 ≤ t.val))

/-- The row offset the first sweep stores at is 1120 times the second grid coordinate, the column offset zero
    (decided over the grid's coordinates). -/
theorem k1_off1_eq : ∀ i : grid1.Coords, k1_off1 i = ![1120 * (i 1).val, 0] := by decide +kernel

/-! ## What one store of the first sweep leaves in the 10080-row scratch -/

/-- Rows `1120·(i 1) … 1120·(i 1) + 1119`, all 128 columns, of the 10080-row scratch: where the first sweep stores. -/
abbrev R1 (i : grid1.Coords) (h1 : k1_cond1 i = 1#1) : Rect S10080x128 :=
  Rect.unit (s := S10080x128) (k1_off1 i) S1120x128.size (k1_off1_inb i h1)

/-- The scratch after the store: the payload `p` on the rows of `R1 i`, the old contents `s` elsewhere. -/
def scratchAfter (i : grid1.Coords) (h1 : k1_cond1 i = 1#1) (s : Vec F S10080x128 .bf16) (p : Vec F S1120x128 .bf16) :
    Vec F S10080x128 .bf16 :=
  (R1 i h1).overlay s p

/-- On the stored rows it is the payload, at the row counted from the block's first. -/
theorem scratchAfter_inside (i : grid1.Coords) (h1 : k1_cond1 i = 1#1) (s : Vec F S10080x128 .bf16) (p : Vec F S1120x128 .bf16)
    (r : Fin 10080) (j : Fin 128) (hlo : 1120 * (i 1).val ≤ r.val) (hhi : r.val < 1120 * (i 1).val + 1120) :
    scratchAfter i h1 s p (ix2 r j) = p (ix2 (⟨r.val - 1120 * (i 1).val, by omega⟩ : Fin 1120) j) := by
  have he : (R1 i h1).emb (ix2 (⟨r.val - 1120 * (i 1).val, by omega⟩ : Fin 1120) j) = ix2 r j := by
    funext a; apply Fin.ext
    rw [Rect.emb_apply]
    show (k1_off1 i) a + 1 * _ = _
    rw [k1_off1_eq i]
    match a with
    | ⟨0, _⟩ => show 1120 * (i 1).val + 1 * (r.val - 1120 * (i 1).val) = r.val; omega
    | ⟨1, _⟩ => show 0 + 1 * j.val = j.val; omega
  unfold scratchAfter
  rw [← he]; exact Rect.overlay_emb _ _ _ _

/-- Off them it is what the scratch held. -/
theorem scratchAfter_outside (i : grid1.Coords) (h1 : k1_cond1 i = 1#1) (s : Vec F S10080x128 .bf16) (p : Vec F S1120x128 .bf16)
    (r : Fin 10080) (j : Fin 128) (h : r.val < 1120 * (i 1).val ∨ 1120 * (i 1).val + 1120 ≤ r.val) :
    scratchAfter i h1 s p (ix2 r j) = s (ix2 r j) := by
  unfold scratchAfter
  refine Rect.overlay_of_not_mem _ _ _ ?_
  rw [Rect.mem_set_unit]
  intro hall
  have h0 := hall (0 : Fin 2)
  rw [k1_off1_eq i] at h0
  have h0' : 1120 * (i 1).val ≤ r.val ∧ r.val < 1120 * (i 1).val + 1120 := h0
  omega

/-! ## What the second sweep reads of the scratch -/

/-- Rows 0 … 9999 (all 128 columns) of the 10080-row scratch: what the second sweep loads. -/
abbrev R10000 : Rect S10080x128 := Rect.unit (s := S10080x128) ![0, 0] S10000x128.size inb_S10080x128_S10000x128_0_0

/-- That load, at row `k` and column `j`, is the scratch at the same row and column. -/
theorem ld_R10000_apply (s : Vec F S10080x128 .bf16) (k : Fin 10000) (j : Fin 128) :
    (View.ld s R10000) (ix2 k j) = s (ix2 (⟨k.val, by omega⟩ : Fin 10080) j) := by
  show s (R10000.idx (ix2 k j)) = _
  congr 1
  funext a; apply Fin.ext
  match a with
  | ⟨0, _⟩ => show 0 + 1 * k.val = k.val; omega
  | ⟨1, _⟩ => show 0 + 1 * j.val = j.val; omega

section OneStore
variable {sg : RefSig} {κ : Kind} {sp : Space} {S : Shape} {e : EltTy}

/-- One store through a rectangle leaves the payload on the rectangle and the old contents off it. -/
theorem read_writes_one_overlay (v : View sg κ sp S e) (f : v.ty.Contents (Elt F)) (r : Rect S) (w : r.shape.Idx → Elt F e) :
    v.read (Elt F) (v.writes (Elt F) f [(⟨r, w⟩ : View.Piece (Elt F) S e)]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-- One store through the whole-shape rectangle at zero offsets leaves exactly its payload. -/
theorem read_writes_unit_zero' (v : View sg κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_unit_zero' (v : View sg κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

end OneStore

/-! ## The body's two triples -/

set_option maxHeartbeats 1000000 in
/-- First sweep (the first branch taken, the second not): every buffer is handed back as it was, except the scratch
    (`arg12`), which holds `scratchAfter i h1 s (k1_pay1 x2 x3 x4 x5)`: the block's 1120 new rows over the old
    contents `s`. The two output buffers are not touched on this sweep. -/
theorem sound_kernel1_l0 (c : Dev nD) (E : Set ℕ) (i : grid1.Coords) (h1 : k1_cond1 i = 1#1) (h2 : ¬k1_cond2 i = 1#1) (arg2 : Memref sig .tc .vmem S1120x10000 .bf16) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1120x128 .f32) (harg10 : arg10.IsWhole) (arg11 : Memref sig .tc .vmem S1120x128 .f32) (harg11 : arg11.IsWhole) (arg12 : Memref sig .tc .vmem S10080x128 .bf16) (harg12 : arg12.IsWhole)
    (x2 : Vec F S1120x10000 .bf16) (x3 : Vec F S10000x128 .bf16) (x4 : Vec F S128x128 .f32) (x5 : Vec F S1x128 .f32) (x6 : Vec F S128x128 .f32) (x7 : Vec F S1x128 .f32) (x8 : Vec F S128x128 .f32) (x9 : Vec F S1x128 .f32) (y10 y11 : Vec F S1120x128 .f32) (s : Vec F S10080x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare (scratchAfter i h1 s (k1_pay1 x2 x3 x4 x5))) -∗ K ⟨⟩))
      ⊢ wp frame (wpE (defs₀ (F := F)) Variants.none c none) E (cc1__l23_body i arg2 harg2 arg3 harg3 arg4 harg4 arg5 harg5 arg6 harg6 arg7 harg7 arg8 harg8 arg9 harg9 arg10 harg10 arg11 harg11 arg12 harg12) K := by
  simp only [cc1__l23_body_eq_skeleton]; unfold cc1__l23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  sl_exec (disch := first | exact h1 | exact h2)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  unfold scratchAfter
  rw [read_writes_one_overlay]
  repeat rw [readAt_unit_zero' _ _ hz2']

set_option maxHeartbeats 1000000 in
/-- Second sweep (the first branch not taken, the second taken): the scratch is only read — its rows 0 … 9999,
    `View.ld s R10000` —; the embedding block (`arg10`) ends at `k1_pay2 x2 (View.ld s R10000)` and the head's block
    (`arg11`) at `k1_pay3 x2 (View.ld s R10000) x6 x7 x8 x9`, each by one whole-buffer store. What the two
    outputs held before is read by dead loads and never used, hence the existentials. -/
theorem sound_kernel1_l1 (c : Dev nD) (E : Set ℕ) (i : grid1.Coords) (h1 : ¬k1_cond1 i = 1#1) (h2 : k1_cond2 i = 1#1) (arg2 : Memref sig .tc .vmem S1120x10000 .bf16) (harg2 : arg2.IsWhole) (arg3 : Memref sig .tc .vmem S10000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1120x128 .f32) (harg10 : arg10.IsWhole) (arg11 : Memref sig .tc .vmem S1120x128 .f32) (harg11 : arg11.IsWhole) (arg12 : Memref sig .tc .vmem S10080x128 .bf16) (harg12 : arg12.IsWhole)
    (x2 : Vec F S1120x10000 .bf16) (x3 : Vec F S10000x128 .bf16) (x4 : Vec F S128x128 .f32) (x5 : Vec F S1x128 .f32) (x6 : Vec F S128x128 .f32) (x7 : Vec F S1x128 .f32) (x8 : Vec F S128x128 .f32) (x9 : Vec F S1x128 .f32) (s : Vec F S10080x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k1_pay2 x2 (View.ld s R10000)) ∗ owns (c : Thread nD τ) arg11 fullShare (k1_pay3 x2 (View.ld s R10000) x6 x7 x8 x9) ∗ owns (c : Thread nD τ) arg12 fullShare s) -∗ K ⟨⟩))
      ⊢ wp frame (wpE (defs₀ (F := F)) Variants.none c none) E (cc1__l23_body i arg2 harg2 arg3 harg3 arg4 harg4 arg5 harg5 arg6 harg6 arg7 harg7 arg8 harg8 arg9 harg9 arg10 harg10 arg11 harg11 arg12 harg12) K := by
  simp only [cc1__l23_body_eq_skeleton]; unfold cc1__l23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2 hf3 hf4 hf5 hf6 hf7 hf8 hf9 hf12
  sl_exec (disch := first | exact h1 | exact h2)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_unit_zero' _ _ hz2']
    repeat rw [readAt_unit_zero' _ _ hz2']
    try rfl
  isplitl [H11]
  · iexists _; isplitr
    swap; · iexact H11
    ipureintro
    rw [read_writes_unit_zero' _ _ hz2']
    repeat rw [readAt_unit_zero' _ _ hz2']
    try rfl
  iexists f12; isplitr; · ipureintro; rfl
  iexact H12

end Cert.KernelIdeal.Hand

end
-- ==== Proof.Region1Ob.lean ====
/- The second region's body obligation over the body's two triples.

   What the body finds in each window's staging buffer at a grid point (the adjacency matrix's row block: the rows
   inside the array, anything past its end; the seven whole-array windows: their arrays, at every point), where
   the two result windows are idle and where they are written back, and the obligation itself at every point with
   the two result windows forgotten and nothing claimed of the scratch's contents. -/
import proofs.«176009_g27539330302398_cont_9to1_2132_15_alg».proof.Proof.Region1
import proofs.«176009_g27539330302398_cont_9to1_2132_15_alg».proof.Proof.Body1
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' staging buffers -/

/-- What the body leaves, window by window (the proof data's `match` reduced). -/
theorem after1_0 (P : Dev nD → ℕ → Vec F S10080x128 .bf16 → Prop) (c : Dev nD) (t : Fin cfg1.N) : (dat1 V P c).after 0 t = xA V c t := by dsimp only [dat1]
theorem after1_1 (P : Dev nD → ℕ → Vec F S10080x128 .bf16 → Prop) (c : Dev nD) (t : Fin cfg1.N) : (dat1 V P c).after 1 t = iblk1 V c 1 t := by dsimp only [dat1]
theorem after1_2 (P : Dev nD → ℕ → Vec F S10080x128 .bf16 → Prop) (c : Dev nD) (t : Fin cfg1.N) : (dat1 V P c).after 2 t = iblk1 V c 2 t := by dsimp only [dat1]
theorem after1_3 (P : Dev nD → ℕ → Vec F S10080x128 .bf16 → Prop) (c : Dev nD) (t : Fin cfg1.N) : (dat1 V P c).after 3 t = iblk1 V c 3 t := by dsimp only [dat1]
theorem after1_4 (P : Dev nD → ℕ → Vec F S10080x128 .bf16 → Prop) (c : Dev nD) (t : Fin cfg1.N) : (dat1 V P c).after 4 t = iblk1 V c 4 t := by dsimp only [dat1]
theorem after1_5 (P : Dev nD → ℕ → Vec F S10080x128 .bf16 → Prop) (c : Dev nD) (t : Fin cfg1.N) : (dat1 V P c).after 5 t = iblk1 V c 5 t := by dsimp only [dat1]
theorem after1_6 (P : Dev nD → ℕ → Vec F S10080x128 .bf16 → Prop) (c : Dev nD) (t : Fin cfg1.N) : (dat1 V P c).after 6 t = iblk1 V c 6 t := by dsimp only [dat1]
theorem after1_7 (P : Dev nD → ℕ → Vec F S10080x128 .bf16 → Prop) (c : Dev nD) (t : Fin cfg1.N) : (dat1 V P c).after 7 t = iblk1 V c 7 t := by dsimp only [dat1]
theorem after1_8 (P : Dev nD → ℕ → Vec F S10080x128 .bf16 → Prop) (c : Dev nD) (t : Fin cfg1.N) : (dat1 V P c).after 8 t = k1_pay2 (xA V c t) (G3 V c) := by dsimp only [dat1]
theorem after1_9 (P : Dev nD → ℕ → Vec F S10080x128 .bf16 → Prop) (c : Dev nD) (t : Fin cfg1.N) :
    (dat1 V P c).after 9 t = k1_pay3 (xA V c t) (G3 V c) (iblk1 V c 4 t1₀) (iblk1 V c 5 t1₀) (iblk1 V c 6 t1₀) (iblk1 V c 7 t1₀) := by
  dsimp only [dat1]

/-- The row block of the adjacency matrix is fetched at every point: its buffer holds the block's rows inside the
    array, and past the array's end whatever it held (`d`). -/
theorem before1_0 (P : Dev nD → ℕ → Vec F S10080x128 .bf16 → Prop) (c : Dev nD) (t : Fin cfg1.N) (d) :
    (dat1 V P c).before 0 t d = win1_0.fill (grid1.coords t) d (iblk1 V c 0 t) :=
  ((dat1 V P c).before_fetched 0 t (fetch1_0 t) d).trans
    (by unfold Dat.fetched Dat.blockOf iblk1; rw [A_eq1]; try rfl)

/-- Window 1 stages a whole array, fetched once: its buffer holds that array at every point. -/
theorem fetched1_1 (P : Dev nD → ℕ → Vec F S10080x128 .bf16 → Prop) (c : Dev nD) (t : Fin cfg1.N) (d) : (dat1 V P c).fetched 1 t d = iblk1 V c 1 t := by
  unfold Dat.fetched Dat.blockOf iblk1; rw [A_eq1]; try rfl
theorem before1_1 (P : Dev nD → ℕ → Vec F S10080x128 .bf16 → Prop) (c : Dev nD) (t : Fin cfg1.N) (d) : (dat1 V P c).before 1 t d = iblk1 V c 1 t :=
  ((dat1 V P c).before_in_eq_fetched 1 rfl (fun _ => rfl) (fun _ _ _ => rfl)
    (fun t => by rw [after1_1]; unfold Dat.blockOf iblk1; rw [A_eq1]; try rfl) t d).trans (fetched1_1 V P c t d)
/-- Its block index is the same at every point, -/
theorem hidx1_1 : ∀ t : Fin cfg1.N, (cfg1.win 1).index t = (cfg1.win 1).index t1₀ :=
  (by decide +kernel : ∀ t : Fin grid1.N, win1_1.index t = win1_1.index t1₀)
/-- so its block is the first point's. -/
theorem iblk1_1_const (c : Dev nD) (t : Fin cfg1.N) : iblk1 V c 1 t = iblk1 V c 1 t1₀ :=
  (fetched1_1 V (fun _ _ _ => True) c t (iblk1 V c 1 t)).symm.trans
    (((dat1 V (fun _ _ _ => True) c).fetched_congr 1 (hidx1_1 t) rfl (iblk1 V c 1 t)).trans
      (fetched1_1 V (fun _ _ _ => True) c t1₀ (iblk1 V c 1 t)))

/-- Window 2 stages a whole array, fetched once: its buffer holds that array at every point. -/
theorem fetched1_2 (P : Dev nD → ℕ → Vec F S10080x128 .bf16 → Prop) (c : Dev nD) (t : Fin cfg1.N) (d) : (dat1 V P c).fetched 2 t d = iblk1 V c 2 t := by
  unfold Dat.fetched Dat.blockOf iblk1; rw [A_eq1]; try rfl
theorem before1_2 (P : Dev nD → ℕ → Vec F S10080x128 .bf16 → Prop) (c : Dev nD) (t : Fin cfg1.N) (d) : (dat1 V P c).before 2 t d = iblk1 V c 2 t :=
  ((dat1 V P c).before_in_eq_fetched 2 rfl (fun _ => rfl) (fun _ _ _ => rfl)
    (fun t => by rw [after1_2]; unfold Dat.blockOf iblk1; rw [A_eq1]; try rfl) t d).trans (fetched1_2 V P c t d)
/-- Its block index is the same at every point, -/
theorem hidx1_2 : ∀ t : Fin cfg1.N, (cfg1.win 2).index t = (cfg1.win 2).index t1₀ :=
  (by decide +kernel : ∀ t : Fin grid1.N, win1_2.index t = win1_2.index t1₀)
/-- so its block is the first point's. -/
theorem iblk1_2_const (c : Dev nD) (t : Fin cfg1.N) : iblk1 V c 2 t = iblk1 V c 2 t1₀ :=
  (fetched1_2 V (fun _ _ _ => True) c t (iblk1 V c 2 t)).symm.trans
    (((dat1 V (fun _ _ _ => True) c).fetched_congr 2 (hidx1_2 t) rfl (iblk1 V c 2 t)).trans
      (fetched1_2 V (fun _ _ _ => True) c t1₀ (iblk1 V c 2 t)))

/-- Window 3 stages a whole array, fetched once: its buffer holds that array at every point. -/
theorem fetched1_3 (P : Dev nD → ℕ → Vec F S10080x128 .bf16 → Prop) (c : Dev nD) (t : Fin cfg1.N) (d) : (dat1 V P c).fetched 3 t d = iblk1 V c 3 t := by
  unfold Dat.fetched Dat.blockOf iblk1; rw [A_eq1]; try rfl
theorem before1_3 (P : Dev nD → ℕ → Vec F S10080x128 .bf16 → Prop) (c : Dev nD) (t : Fin cfg1.N) (d) : (dat1 V P c).before 3 t d = iblk1 V c 3 t :=
  ((dat1 V P c).before_in_eq_fetched 3 rfl (fun _ => rfl) (fun _ _ _ => rfl)
    (fun t => by rw [after1_3]; unfold Dat.blockOf iblk1; rw [A_eq1]; try rfl) t d).trans (fetched1_3 V P c t d)
/-- Its block index is the same at every point, -/
theorem hidx1_3 : ∀ t : Fin cfg1.N, (cfg1.win 3).index t = (cfg1.win 3).index t1₀ :=
  (by decide +kernel : ∀ t : Fin grid1.N, win1_3.index t = win1_3.index t1₀)
/-- so its block is the first point's. -/
theorem iblk1_3_const (c : Dev nD) (t : Fin cfg1.N) : iblk1 V c 3 t = iblk1 V c 3 t1₀ :=
  (fetched1_3 V (fun _ _ _ => True) c t (iblk1 V c 3 t)).symm.trans
    (((dat1 V (fun _ _ _ => True) c).fetched_congr 3 (hidx1_3 t) rfl (iblk1 V c 3 t)).trans
      (fetched1_3 V (fun _ _ _ => True) c t1₀ (iblk1 V c 3 t)))

/-- Window 4 stages a whole array, fetched once: its buffer holds that array at every point. -/
theorem fetched1_4 (P : Dev nD → ℕ → Vec F S10080x128 .bf16 → Prop) (c : Dev nD) (t : Fin cfg1.N) (d) : (dat1 V P c).fetched 4 t d = iblk1 V c 4 t := by
  unfold Dat.fetched Dat.blockOf iblk1; rw [A_eq1]; try rfl
theorem before1_4 (P : Dev nD → ℕ → Vec F S10080x128 .bf16 → Prop) (c : Dev nD) (t : Fin cfg1.N) (d) : (dat1 V P c).before 4 t d = iblk1 V c 4 t :=
  ((dat1 V P c).before_in_eq_fetched 4 rfl (fun _ => rfl) (fun _ _ _ => rfl)
    (fun t => by rw [after1_4]; unfold Dat.blockOf iblk1; rw [A_eq1]; try rfl) t d).trans (fetched1_4 V P c t d)
/-- Its block index is the same at every point, -/
theorem hidx1_4 : ∀ t : Fin cfg1.N, (cfg1.win 4).index t = (cfg1.win 4).index t1₀ :=
  (by decide +kernel : ∀ t : Fin grid1.N, win1_4.index t = win1_4.index t1₀)
/-- so its block is the first point's. -/
theorem iblk1_4_const (c : Dev nD) (t : Fin cfg1.N) : iblk1 V c 4 t = iblk1 V c 4 t1₀ :=
  (fetched1_4 V (fun _ _ _ => True) c t (iblk1 V c 4 t)).symm.trans
    (((dat1 V (fun _ _ _ => True) c).fetched_congr 4 (hidx1_4 t) rfl (iblk1 V c 4 t)).trans
      (fetched1_4 V (fun _ _ _ => True) c t1₀ (iblk1 V c 4 t)))

/-- Window 5 stages a whole array, fetched once: its buffer holds that array at every point. -/
theorem fetched1_5 (P : Dev nD → ℕ → Vec F S10080x128 .bf16 → Prop) (c : Dev nD) (t : Fin cfg1.N) (d) : (dat1 V P c).fetched 5 t d = iblk1 V c 5 t := by
  unfold Dat.fetched Dat.blockOf iblk1; rw [A_eq1]; try rfl
theorem before1_5 (P : Dev nD → ℕ → Vec F S10080x128 .bf16 → Prop) (c : Dev nD) (t : Fin cfg1.N) (d) : (dat1 V P c).before 5 t d = iblk1 V c 5 t :=
  ((dat1 V P c).before_in_eq_fetched 5 rfl (fun _ => rfl) (fun _ _ _ => rfl)
    (fun t => by rw [after1_5]; unfold Dat.blockOf iblk1; rw [A_eq1]; try rfl) t d).trans (fetched1_5 V P c t d)
/-- Its block index is the same at every point, -/
theorem hidx1_5 : ∀ t : Fin cfg1.N, (cfg1.win 5).index t = (cfg1.win 5).index t1₀ :=
  (by decide +kernel : ∀ t : Fin grid1.N, win1_5.index t = win1_5.index t1₀)
/-- so its block is the first point's. -/
theorem iblk1_5_const (c : Dev nD) (t : Fin cfg1.N) : iblk1 V c 5 t = iblk1 V c 5 t1₀ :=
  (fetched1_5 V (fun _ _ _ => True) c t (iblk1 V c 5 t)).symm.trans
    (((dat1 V (fun _ _ _ => True) c).fetched_congr 5 (hidx1_5 t) rfl (iblk1 V c 5 t)).trans
      (fetched1_5 V (fun _ _ _ => True) c t1₀ (iblk1 V c 5 t)))

/-- Window 6 stages a whole array, fetched once: its buffer holds that array at every point. -/
theorem fetched1_6 (P : Dev nD → ℕ → Vec F S10080x128 .bf16 → Prop) (c : Dev nD) (t : Fin cfg1.N) (d) : (dat1 V P c).fetched 6 t d = iblk1 V c 6 t := by
  unfold Dat.fetched Dat.blockOf iblk1; rw [A_eq1]; try rfl
theorem before1_6 (P : Dev nD → ℕ → Vec F S10080x128 .bf16 → Prop) (c : Dev nD) (t : Fin cfg1.N) (d) : (dat1 V P c).before 6 t d = iblk1 V c 6 t :=
  ((dat1 V P c).before_in_eq_fetched 6 rfl (fun _ => rfl) (fun _ _ _ => rfl)
    (fun t => by rw [after1_6]; unfold Dat.blockOf iblk1; rw [A_eq1]; try rfl) t d).trans (fetched1_6 V P c t d)
/-- Its block index is the same at every point, -/
theorem hidx1_6 : ∀ t : Fin cfg1.N, (cfg1.win 6).index t = (cfg1.win 6).index t1₀ :=
  (by decide +kernel : ∀ t : Fin grid1.N, win1_6.index t = win1_6.index t1₀)
/-- so its block is the first point's. -/
theorem iblk1_6_const (c : Dev nD) (t : Fin cfg1.N) : iblk1 V c 6 t = iblk1 V c 6 t1₀ :=
  (fetched1_6 V (fun _ _ _ => True) c t (iblk1 V c 6 t)).symm.trans
    (((dat1 V (fun _ _ _ => True) c).fetched_congr 6 (hidx1_6 t) rfl (iblk1 V c 6 t)).trans
      (fetched1_6 V (fun _ _ _ => True) c t1₀ (iblk1 V c 6 t)))

/-- Window 7 stages a whole array, fetched once: its buffer holds that array at every point. -/
theorem fetched1_7 (P : Dev nD → ℕ → Vec F S10080x128 .bf16 → Prop) (c : Dev nD) (t : Fin cfg1.N) (d) : (dat1 V P c).fetched 7 t d = iblk1 V c 7 t := by
  unfold Dat.fetched Dat.blockOf iblk1; rw [A_eq1]; try rfl
theorem before1_7 (P : Dev nD → ℕ → Vec F S10080x128 .bf16 → Prop) (c : Dev nD) (t : Fin cfg1.N) (d) : (dat1 V P c).before 7 t d = iblk1 V c 7 t :=
  ((dat1 V P c).before_in_eq_fetched 7 rfl (fun _ => rfl) (fun _ _ _ => rfl)
    (fun t => by rw [after1_7]; unfold Dat.blockOf iblk1; rw [A_eq1]; try rfl) t d).trans (fetched1_7 V P c t d)
/-- Its block index is the same at every point, -/
theorem hidx1_7 : ∀ t : Fin cfg1.N, (cfg1.win 7).index t = (cfg1.win 7).index t1₀ :=
  (by decide +kernel : ∀ t : Fin grid1.N, win1_7.index t = win1_7.index t1₀)
/-- so its block is the first point's. -/
theorem iblk1_7_const (c : Dev nD) (t : Fin cfg1.N) : iblk1 V c 7 t = iblk1 V c 7 t1₀ :=
  (fetched1_7 V (fun _ _ _ => True) c t (iblk1 V c 7 t)).symm.trans
    (((dat1 V (fun _ _ _ => True) c).fetched_congr 7 (hidx1_7 t) rfl (iblk1 V c 7 t)).trans
      (fetched1_7 V (fun _ _ _ => True) c t1₀ (iblk1 V c 7 t)))

/-! ## The schedule of the two result windows -/

/-- On the first sweep (points 0 … 8) the body stores nothing into the result windows: they are idle and not
    written back; on the second (points 9 … 17) they are live and written back. Decided over the 18 points. -/
theorem sched1_8 : ∀ t : Fin cfg1.N,
    (k1_cond2 (grid1.coords t) = 1#1 → cfg1.idle 8 (grid1.coords t) = false ∧ (cfg1.win 8).flush t = true)
    ∧ (¬k1_cond2 (grid1.coords t) = 1#1 → cfg1.idle 8 (grid1.coords t) = true ∧ (cfg1.win 8).flush t = false) :=
  (by decide +kernel : ∀ t : Fin grid1.N,
    (k1_cond2 (grid1.coords t) = 1#1 → idle1 8 (grid1.coords t) = false ∧ win1_8.flush t = true)
    ∧ (¬k1_cond2 (grid1.coords t) = 1#1 → idle1 8 (grid1.coords t) = true ∧ win1_8.flush t = false))
theorem sched1_9 : ∀ t : Fin cfg1.N,
    (k1_cond2 (grid1.coords t) = 1#1 → cfg1.idle 9 (grid1.coords t) = false ∧ (cfg1.win 9).flush t = true)
    ∧ (¬k1_cond2 (grid1.coords t) = 1#1 → cfg1.idle 9 (grid1.coords t) = true ∧ (cfg1.win 9).flush t = false) :=
  (by decide +kernel : ∀ t : Fin grid1.N,
    (k1_cond2 (grid1.coords t) = 1#1 → idle1 9 (grid1.coords t) = false ∧ win1_9.flush t = true)
    ∧ (¬k1_cond2 (grid1.coords t) = 1#1 → idle1 9 (grid1.coords t) = true ∧ win1_9.flush t = false))

/-- Exactly one of the two branches is taken at every point. -/
theorem cond1_xor : ∀ t : Fin cfg1.N,
    (k1_cond1 (grid1.coords t) = 1#1 ∧ ¬k1_cond2 (grid1.coords t) = 1#1) ∨ (¬k1_cond1 (grid1.coords t) = 1#1 ∧ k1_cond2 (grid1.coords t) = 1#1) :=
  (by decide +kernel : ∀ t : Fin grid1.N,
    (k1_cond1 (grid1.coords t) = 1#1 ∧ ¬k1_cond2 (grid1.coords t) = 1#1) ∨ (¬k1_cond1 (grid1.coords t) = 1#1 ∧ k1_cond2 (grid1.coords t) = 1#1))

/-! ## The invariant, opened at the scratch -/

/-- The invariant without the scratch: the scoped buffers no window of this region stages (other than the scratch),
    each at anything, and the generator register. -/
def PhiRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ ∃ r, prngReg c r)

/-- The invariant is the rest beside the scratch held at contents of which `Q` is known. -/
theorem PhiQ_open (c : Dev nD) (Q : Vec F S10080x128 .bf16 → Prop) :
    PhiQ c Q ⊢ iprop(PhiRest1 c ∗ ∃ s, owns (c : Thread nD τ) scM1 fullShare s ∗ ⌜Q s⌝) := by
  unfold PhiQ PhiRest1
  iintro ⟨⟨H1, H2, H3, H4, H5, H6, H7, H8, H9, H10, H11, H12, HS⟩, Hg⟩
  isplitr [HS]
  swap; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

theorem PhiQ_close (c : Dev nD) (Q : Vec F S10080x128 .bf16 → Prop) :
    iprop(PhiRest1 c ∗ ∃ s, owns (c : Thread nD τ) scM1 fullShare s ∗ ⌜Q s⌝) ⊢ PhiQ c Q := by
  unfold PhiQ PhiRest1
  iintro ⟨⟨H1, H2, H3, H4, H5, H6, H7, H8, H9, H10, H11, H12, Hg⟩, HS⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

/-- With nothing claimed of the scratch, the invariant before any position gives the opened form. -/
theorem Phi1_triv (c : Dev nD) : ∀ n : ℕ, Phi1 (F := F) (fun _ _ _ => True) c n ⊢ PhiQ c (fun _ => True)
  | 0 => PhiA1_in c
  | _ + 1 => .rfl

/-! ## The body obligation with the two result windows forgotten -/

/-- The result windows (8: the embedding, 9: the head's output) are forgotten: handed to the body at anything and
    taken back at anything. -/
def forgets1 : Fin cfg1.W → Bool := fun w => w.val == 8 || w.val == 9

/-- Nothing is claimed of the scratch. -/
abbrev Ptriv : Dev nD → ℕ → Vec F S10080x128 .bf16 → Prop := fun _ _ _ => True

/-- What the body is called with at point `t`, the windows one by one, -/
def bodyPre1f (c : Dev nD) (t : Fin cfg1.N) : sProp 𝕄 :=
  iprop((dat1 V Ptriv c).Φ t.castSucc ∗ (dat1 V Ptriv c).owesAt () t.castSucc
    ∗ (∃ d, owns (c : Thread nD τ) (st1_0 t) fullShare ((dat1 V Ptriv c).before 0 t d))
    ∗ (∃ d, owns (c : Thread nD τ) (st1_1 t) fullShare ((dat1 V Ptriv c).before 1 t d))
    ∗ (∃ d, owns (c : Thread nD τ) (st1_2 t) fullShare ((dat1 V Ptriv c).before 2 t d))
    ∗ (∃ d, owns (c : Thread nD τ) (st1_3 t) fullShare ((dat1 V Ptriv c).before 3 t d))
    ∗ (∃ d, owns (c : Thread nD τ) (st1_4 t) fullShare ((dat1 V Ptriv c).before 4 t d))
    ∗ (∃ d, owns (c : Thread nD τ) (st1_5 t) fullShare ((dat1 V Ptriv c).before 5 t d))
    ∗ (∃ d, owns (c : Thread nD τ) (st1_6 t) fullShare ((dat1 V Ptriv c).before 6 t d))
    ∗ (∃ d, owns (c : Thread nD τ) (st1_7 t) fullShare ((dat1 V Ptriv c).before 7 t d))
    ∗ (∃ X, owns (c : Thread nD τ) (st1_8 t) fullShare X)
    ∗ (∃ X, owns (c : Thread nD τ) (st1_9 t) fullShare X))

/-- and what it returns: the adjacency block's buffer stated on the rows inside the array only. -/
def bodyPost1f (c : Dev nD) (t : Fin cfg1.N) : sProp 𝕄 :=
  iprop((dat1 V Ptriv c).Φ t.succ ∗ (dat1 V Ptriv c).owesAt () t.succ
    ∗ (∃ d, owns (c : Thread nD τ) (st1_0 t) fullShare ((cfg1.win 0).fill (cfg1.grid.coords t) d ((cfg1.win 0).cut (cfg1.grid.coords t) ((dat1 V Ptriv c).after 0 t))))
    ∗ owns (c : Thread nD τ) (st1_1 t) fullShare ((dat1 V Ptriv c).after 1 t)
    ∗ owns (c : Thread nD τ) (st1_2 t) fullShare ((dat1 V Ptriv c).after 2 t)
    ∗ owns (c : Thread nD τ) (st1_3 t) fullShare ((dat1 V Ptriv c).after 3 t)
    ∗ owns (c : Thread nD τ) (st1_4 t) fullShare ((dat1 V Ptriv c).after 4 t)
    ∗ owns (c : Thread nD τ) (st1_5 t) fullShare ((dat1 V Ptriv c).after 5 t)
    ∗ owns (c : Thread nD τ) (st1_6 t) fullShare ((dat1 V Ptriv c).after 6 t)
    ∗ owns (c : Thread nD τ) (st1_7 t) fullShare ((dat1 V Ptriv c).after 7 t)
    ∗ (∃ X, owns (c : Thread nD τ) (st1_8 t) fullShare X)
    ∗ (∃ X, owns (c : Thread nD τ) (st1_9 t) fullShare X))

set_option maxHeartbeats 1000000 in
/-- The body at any point. On the first sweep the scratch, at whatever it holds, takes the block's new rows; on
    the second the two result buffers take their stores; the inputs come back as they were — the adjacency
    block's buffer with the same rows past the array's end it came with. -/
theorem sound_body1f (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  simp only [before1_0, before1_1, before1_2, before1_3, before1_4, before1_5, before1_6, before1_7]
  rw [show (dat1 V Ptriv c).Φ t.castSucc = Phi1 (F := F) (fun _ _ _ => True) c t.val from rfl,
    show (dat1 V Ptriv c).Φ t.succ = PhiQ c (fun _ => True) from rfl,
    show (dat1 V Ptriv c).owesAt () t.succ = (dat1 V Ptriv c).owesAt () t.castSucc from rfl,
    after1_0, after1_1, after1_2, after1_3, after1_4, after1_5, after1_6, after1_7]
  have hx : (cfg1.win 0).cut (cfg1.grid.coords t) (xA V c t) = iblk1 V c 0 t := win1_0.cut_fill _ _ _
  rw [hx]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩, ⟨%X9, H9⟩⟩
  ihave HQ := (Phi1_triv (F := F) c t.val) $$ HΦ
  ihave HQ' := (PhiQ_open c _) $$ HQ
  icases HQ' with ⟨HR, ⟨%s, HS, -⟩⟩
  rcases cond1_xor t with ⟨h1, h2⟩ | ⟨h1, h2⟩
  · iapply (sound_kernel1_l0 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) X8 X9 s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HR HS]
    · iapply (PhiQ_close c _)
      isplitl [HR]; · iexact HR
      iexists _; isplitl [HS]; · iexact HS
      ipureintro; trivial
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · iapply (sound_kernel1_l1 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HR HS]
    · iapply (PhiQ_close c _)
      isplitl [HR]; · iexact HR
      iexists _; isplitl [HS]; · iexact HS
      ipureintro; trivial
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The library's body obligation at every point, the two result windows forgotten and nothing claimed of the
    scratch: what the frame of the program needs. -/
theorem body_obligation1_forget (c : Dev nD) :
    BodyObligationLoose (dat1 (F := F) V (fun _ _ _ => True) c) (defs₀ (F := F)) Variants.none () Set.univ forgets1 := fun t => by
  rw [bigSep_W1, bigSep_W1]
  exact sound_body1f V c t

end Cert.KernelIdeal.Hand

end
-- ==== Proof.Spec.lean ====
/-
  The graph encoder as a function of its twelve arrays, entry by entry, on the extended reals.

  With the feature array x : [10000, 128], the adjacency A : [10000, 10000], five weight arrays [128, 128] and five
  bias vectors [128]:

    G1 = x · W1 + b1        H1 = max (A · G1) 0
    G2 = H1 · W2 + b2       H2 = max (A · G2) 0
    G3 = H2 · W3 + b3       emb = A · G3
    z  = max (emb · Wp1 + bp1) 0 · Wp2 + bp2.

  Each product is the finite sum of the products over the contracted coordinate, in the order left factor times right
  factor; a bias is added to every row; the rectifier is the larger of its argument and zero.  Nothing here depends on
  a program: the stages are plain functions on index sets of literal extents, and each is read at the entry (r, j) by
  unfolding its definition.
-/
import Idealize.ShloMosaic.PureOps.Ideal
import Idealize.ShloMosaic.Lib.ValueIdx

noncomputable section

namespace Cert.Spec

open Idealize.ShloMosaic Idealize.ShloMosaic.ValueIdx

/-- An array of extended reals with n rows and d columns. -/
abbrev Mat (n d : ℕ) : Type := (⟨2, ![n, d]⟩ : Shape).Idx → EReal
/-- A vector of extended reals with d entries. -/
abbrev Row (d : ℕ) : Type := (⟨1, ![d]⟩ : Shape).Idx → EReal

/-- The array whose entry (r, j) is `f r j`. -/
def ofEntries {n d : ℕ} (f : Fin n → Fin d → EReal) : Mat n d := fun i => f (i 0) (i 1)

/-- Its entry (r, j). -/
theorem ofEntries_apply {n d : ℕ} (f : Fin n → Fin d → EReal) (r : Fin n) (j : Fin d) : ofEntries f (ix2 r j) = f r j := rfl

/-- A dense map: the rows of a against the columns of w, plus the bias of the column. -/
def dense (a : Mat 10000 128) (w : Mat 128 128) (b : Row 128) : Mat 10000 128 :=
  ofEntries fun r j => (∑ k : Fin 128, a (ix2 r k) * w (ix2 k j)) + b (ix1 j)

/-- Aggregation over the graph: the rows of the adjacency against the columns of g. -/
def agg (adj : Mat 10000 10000) (g : Mat 10000 128) : Mat 10000 128 :=
  ofEntries fun r j => ∑ k : Fin 10000, adj (ix2 r k) * g (ix2 k j)

/-- The rectifier, entry by entry. -/
def relu (a : Mat 10000 128) : Mat 10000 128 := ofEntries fun r j => max (a (ix2 r j)) 0

theorem dense_apply (a : Mat 10000 128) (w : Mat 128 128) (b : Row 128) (r : Fin 10000) (j : Fin 128) :
    dense a w b (ix2 r j) = (∑ k : Fin 128, a (ix2 r k) * w (ix2 k j)) + b (ix1 j) := rfl

theorem agg_apply (adj : Mat 10000 10000) (g : Mat 10000 128) (r : Fin 10000) (j : Fin 128) :
    agg adj g (ix2 r j) = ∑ k : Fin 10000, adj (ix2 r k) * g (ix2 k j) := rfl

theorem relu_apply (a : Mat 10000 128) (r : Fin 10000) (j : Fin 128) : relu a (ix2 r j) = max (a (ix2 r j)) 0 := rfl

section Stages
variable (x : Mat 10000 128) (Adj : Mat 10000 10000) (W1 : Mat 128 128) (b1 : Row 128) (W2 : Mat 128 128) (b2 : Row 128)
  (W3 : Mat 128 128) (b3 : Row 128) (Wp1 : Mat 128 128) (bp1 : Row 128) (Wp2 : Mat 128 128) (bp2 : Row 128)

/-- The first dense map, of the features. -/
def G1 : Mat 10000 128 := dense x W1 b1
/-- The first layer: the rectified aggregation of G1. -/
def H1 : Mat 10000 128 := relu (agg Adj (G1 x W1 b1))
/-- The second dense map. -/
def G2 : Mat 10000 128 := dense (H1 x Adj W1 b1) W2 b2
/-- The second layer. -/
def H2 : Mat 10000 128 := relu (agg Adj (G2 x Adj W1 b1 W2 b2))
/-- The third dense map. -/
def G3 : Mat 10000 128 := dense (H2 x Adj W1 b1 W2 b2) W3 b3
/-- The embedding: the aggregation of G3, not rectified. -/
def emb : Mat 10000 128 := agg Adj (G3 x Adj W1 b1 W2 b2 W3 b3)
/-- The projection head: a rectified dense map of the embedding, then a dense map. -/
def z : Mat 10000 128 := dense (relu (dense (emb x Adj W1 b1 W2 b2 W3 b3) Wp1 bp1)) Wp2 bp2

/-- G1 at (r, j). -/
theorem G1_apply (r : Fin 10000) (j : Fin 128) :
    G1 x W1 b1 (ix2 r j) = (∑ k : Fin 128, x (ix2 r k) * W1 (ix2 k j)) + b1 (ix1 j) := rfl

/-- H1 at (r, j). -/
theorem H1_apply (r : Fin 10000) (j : Fin 128) :
    H1 x Adj W1 b1 (ix2 r j) = max (∑ k : Fin 10000, Adj (ix2 r k) * G1 x W1 b1 (ix2 k j)) 0 := rfl

/-- G2 at (r, j), down to G1: the spelling of a body that aggregates, rectifies and maps in one step. -/
theorem G2_apply (r : Fin 10000) (j : Fin 128) :
    G2 x Adj W1 b1 W2 b2 (ix2 r j)
      = (∑ h : Fin 128, max (∑ k : Fin 10000, Adj (ix2 r k) * G1 x W1 b1 (ix2 k h)) 0 * W2 (ix2 h j)) + b2 (ix1 j) := rfl

/-- H2 at (r, j). -/
theorem H2_apply (r : Fin 10000) (j : Fin 128) :
    H2 x Adj W1 b1 W2 b2 (ix2 r j) = max (∑ k : Fin 10000, Adj (ix2 r k) * G2 x Adj W1 b1 W2 b2 (ix2 k j)) 0 := rfl

/-- G3 at (r, j), down to G2. -/
theorem G3_apply (r : Fin 10000) (j : Fin 128) :
    G3 x Adj W1 b1 W2 b2 W3 b3 (ix2 r j)
      = (∑ h : Fin 128, max (∑ k : Fin 10000, Adj (ix2 r k) * G2 x Adj W1 b1 W2 b2 (ix2 k h)) 0 * W3 (ix2 h j)) + b3 (ix1 j) := rfl

/-- The embedding at (r, j). -/
theorem emb_apply (r : Fin 10000) (j : Fin 128) :
    emb x Adj W1 b1 W2 b2 W3 b3 (ix2 r j) = ∑ k : Fin 10000, Adj (ix2 r k) * G3 x Adj W1 b1 W2 b2 W3 b3 (ix2 k j) := rfl

/-- The projection at (r, j), down to G3. -/
theorem z_apply (r : Fin 10000) (j : Fin 128) :
    z x Adj W1 b1 W2 b2 W3 b3 Wp1 bp1 Wp2 bp2 (ix2 r j)
      = (∑ h : Fin 128, max ((∑ g : Fin 128, (∑ k : Fin 10000, Adj (ix2 r k) * G3 x Adj W1 b1 W2 b2 W3 b3 (ix2 k g)) * Wp1 (ix2 g h))
            + bp1 (ix1 h)) 0 * Wp2 (ix2 h j)) + bp2 (ix1 j) := rfl

end Stages

end Cert.Spec

end
-- ==== Proof.RefValue.lean ====
/-
  The reference program's two results are the specification's projection and embedding of its twelve arguments.

  The reference is a straight line of host operations of three kinds.  A dense map is a product contracted on the left
  operand's columns and the right operand's rows, plus a bias vector laid out as a row and repeated down the rows: at
  (r, j) it is ∑ k, a (r, k) · w (k, j) + b (j).  An aggregation is the product of the adjacency with a stage: at (r, j) it
  is ∑ k, A (r, k) · g (k, j).  The rectifier is the larger of its argument and the zero word, which is the extended real
  zero.  Read in program order these are the stages G1, H1, G2, H2, G3, the embedding and the projection of the
  specification, so the run of the reference ends with its two result arrays at those functions of the argument arrays,
  and with the argument arrays as they were.
-/
import proofs.«176009_g27539330302398_cont_9to1_2132_15_alg».proof.Defs
import proofs.«176009_g27539330302398_cont_9to1_2132_15_alg».proof.Proof.Gen.ReferenceIdeal.Run
import proofs.«176009_g27539330302398_cont_9to1_2132_15_alg».proof.Proof.Gen.ReferenceIdeal.Read
import proofs.«176009_g27539330302398_cont_9to1_2132_15_alg».proof.Proof.Gen.Pre_finite_inputs
import proofs.«176009_g27539330302398_cont_9to1_2132_15_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- Two indices of a two-axis array with the same coordinates are equal. -/
theorem idx2_ext {n0 n1 : ℕ} (f g : (⟨2, ![n0, n1]⟩ : Shape).Idx) (h0 : (f 0).val = (g 0).val) (h1 : (f 1).val = (g 1).val) :
    f = g :=
  funext fun a => Fin.ext (by
    match a with
    | ⟨0, _⟩ => exact h0
    | ⟨1, _⟩ => exact h1)

/-- Two indices of a one-axis array with the same coordinate are equal. -/
theorem idx1_ext {n : ℕ} (f g : (⟨1, ![n]⟩ : Shape).Idx) (h0 : (f 0).val = (g 0).val) : f = g :=
  funext fun a => Fin.ext (by
    match a with
    | ⟨0, _⟩ => exact h0)

/-! ## The three kinds of operation -/

/-- A dense map as the host spells it: the product, plus the bias vector laid out as a row and repeated down the rows. -/
theorem dense_eq (a : (⟨S10000x128, .f32⟩ : BufTy).Contents (Elt Ideal)) (w : (⟨S128x128, .f32⟩ : BufTy).Contents (Elt Ideal))
    (b : (⟨S128, .f32⟩ : BufTy).Contents (Elt Ideal)) :
    val_main_v3 (F := Ideal) a w b = Cert.Spec.dense a w b := by
  funext i
  obtain ⟨r, j, rfl⟩ : ∃ (r : Fin 10000) (j : Fin 128), i = ix2 r j := ⟨i 0, i 1, eq_ix2 i⟩
  rw [val_main_v3_apply, val_main_v0_apply, val_main_v2_apply, val_main_v1_apply, Cert.Spec.dense_apply]
  show (∑ k : Fin 128, a (lidx_main_v0 (ix2 r j) k) * w (ridx_main_v0 (ix2 r j) k)) + b (idx_main_v1 (idx_main_v2 (ix2 r j)))
    = (∑ k : Fin 128, a (ix2 r k) * w (ix2 k j)) + b (ix1 j)
  rw [idx1_ext (idx_main_v1 (idx_main_v2 (ix2 r j))) (ix1 j) rfl]
  refine congrArg (· + b (ix1 j)) (Finset.sum_congr rfl fun k _ => ?_)
  rw [idx2_ext (lidx_main_v0 (ix2 r j) k) (ix2 r k) rfl rfl, idx2_ext (ridx_main_v0 (ix2 r j) k) (ix2 k j) rfl rfl]

/-- An aggregation as the host spells it: the adjacency's rows against the stage's columns. -/
theorem agg_eq (adj : (⟨S10000x10000, .f32⟩ : BufTy).Contents (Elt Ideal)) (g : (⟨S10000x128, .f32⟩ : BufTy).Contents (Elt Ideal)) :
    Host.dotGeneral (F := Ideal) (φ₁ := .f32) (φ₂ := .f32) dot_S10000x10000_S10000x128_S10000x128_1_0_0_1_n_n none adj g = Cert.Spec.agg adj g := by
  funext i
  obtain ⟨r, j, rfl⟩ : ∃ (r : Fin 10000) (j : Fin 128), i = ix2 r j := ⟨i 0, i 1, eq_ix2 i⟩
  rw [Cert.Spec.agg_apply]
  simp only [Host.dotGeneral]
  rw [Ideal.dotGeneral_apply,
    ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  rw [idx2_ext (dot_S10000x10000_S10000x128_S10000x128_1_0_0_1_n_n.lhsIdx (ix2 r j)
        ((contrEquiv1 dot_S10000x10000_S10000x128_S10000x128_1_0_0_1_n_n 10000 rfl rfl).symm k)) (ix2 r k)
      (lhs_main_v4_0 _ _) ((lhs_main_v4_1 _ _).trans hk),
    idx2_ext (dot_S10000x10000_S10000x128_S10000x128_1_0_0_1_n_n.rhsIdx (ix2 r j)
        ((contrEquiv1 dot_S10000x10000_S10000x128_S10000x128_1_0_0_1_n_n 10000 rfl rfl).symm k)) (ix2 k j)
      ((rhs_main_v4_0 _ _).trans hk) (rhs_main_v4_1 _ _)]

/-- The rectifier as the host spells it: the maximum against the zero word repeated over the array. -/
theorem relu_eq (a : (⟨S10000x128, .f32⟩ : BufTy).Contents (Elt Ideal)) :
    maximumf (F := Ideal) (φ := .f32) a (val_main_call0_v0 (F := Ideal)) = Cert.Spec.relu a := by
  funext i
  obtain ⟨r, j, rfl⟩ : ∃ (r : Fin 10000) (j : Fin 128), i = ix2 r j := ⟨i 0, i 1, eq_ix2 i⟩
  rw [Cert.Spec.relu_apply]
  show max (a (ix2 r j)) (val_main_call0_v0 (F := Ideal) (ix2 r j)) = max (a (ix2 r j)) 0
  rw [val_main_call0_v0_apply, val_main_call0_cst_apply]
  show max (a (ix2 r j)) (Ideal.ofBits .f32 0x00000000#32) = max (a (ix2 r j)) 0
  rw [Ideal.ofBits_zero_f32]

/-! ## The stages in program order -/

section Stages
variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))

/-- The first dense map. -/
theorem G1_eq : val_main_v3 (F := Ideal) x0 x2 x3 = Cert.Spec.G1 x0 x2 x3 := dense_eq x0 x2 x3

/-- The first layer: aggregate, then rectify. -/
theorem H1_eq : val_main_v5 (F := Ideal) x0 x1 x2 x3 = Cert.Spec.H1 x0 x1 x2 x3 :=
  (relu_eq (val_main_v4 (F := Ideal) x0 x1 x2 x3)).trans
    (congrArg Cert.Spec.relu ((agg_eq x1 (val_main_v3 (F := Ideal) x0 x2 x3)).trans (congrArg (Cert.Spec.agg x1) (G1_eq x0 x2 x3))))

/-- The second dense map. -/
theorem G2_eq : val_main_v9 (F := Ideal) x0 x1 x2 x3 x4 x5 = Cert.Spec.G2 x0 x1 x2 x3 x4 x5 :=
  (dense_eq (val_main_v5 (F := Ideal) x0 x1 x2 x3) x4 x5).trans
    (congrArg (fun a => Cert.Spec.dense a x4 x5) (H1_eq x0 x1 x2 x3))

/-- The second layer. -/
theorem H2_eq : val_main_v11 (F := Ideal) x0 x1 x2 x3 x4 x5 = Cert.Spec.H2 x0 x1 x2 x3 x4 x5 :=
  (relu_eq (val_main_v10 (F := Ideal) x0 x1 x2 x3 x4 x5)).trans
    (congrArg Cert.Spec.relu ((agg_eq x1 (val_main_v9 (F := Ideal) x0 x1 x2 x3 x4 x5)).trans
      (congrArg (Cert.Spec.agg x1) (G2_eq x0 x1 x2 x3 x4 x5))))

/-- The third dense map. -/
theorem G3_eq : val_main_v15 (F := Ideal) x0 x1 x2 x3 x4 x5 x6 x7 = Cert.Spec.G3 x0 x1 x2 x3 x4 x5 x6 x7 :=
  (dense_eq (val_main_v11 (F := Ideal) x0 x1 x2 x3 x4 x5) x6 x7).trans
    (congrArg (fun a => Cert.Spec.dense a x6 x7) (H2_eq x0 x1 x2 x3 x4 x5))

/-- The embedding: the aggregation of the third dense map. -/
theorem emb_eq : val_main_v16 (F := Ideal) x0 x1 x2 x3 x4 x5 x6 x7 = Cert.Spec.emb x0 x1 x2 x3 x4 x5 x6 x7 :=
  (agg_eq x1 (val_main_v15 (F := Ideal) x0 x1 x2 x3 x4 x5 x6 x7)).trans
    (congrArg (Cert.Spec.agg x1) (G3_eq x0 x1 x2 x3 x4 x5 x6 x7))

/-- The projection head: a rectified dense map of the embedding, then a dense map. -/
theorem z_eq : val_main_v25 (F := Ideal) x0 x1 x2 x3 x4 x5 x6 x7 x8 x9 x10 x11
    = Cert.Spec.z x0 x1 x2 x3 x4 x5 x6 x7 x8 x9 x10 x11 :=
  (dense_eq (val_main_v21 (F := Ideal) x0 x1 x2 x3 x4 x5 x6 x7 x8 x9) x10 x11).trans
    (congrArg (fun a => Cert.Spec.dense a x10 x11)
      ((relu_eq (val_main_v20 (F := Ideal) x0 x1 x2 x3 x4 x5 x6 x7 x8 x9)).trans
        (congrArg Cert.Spec.relu
          ((dense_eq (val_main_v16 (F := Ideal) x0 x1 x2 x3 x4 x5 x6 x7) x8 x9).trans
            (congrArg (fun a => Cert.Spec.dense a x8 x9) (emb_eq x0 x1 x2 x3 x4 x5 x6 x7))))))

end Stages

/-! ## The run -/

/-- Every weakly fair execution of the reference terminates with its first result at the specification's projection
    and its second at the specification's embedding of the argument arrays, and with the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = Cert.Spec.z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v16) = Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c).1.trans ((val_main_v25_eq _ _ _ _ _ _ _ _ _ _ _ _).trans (z_eq _ _ _ _ _ _ _ _ _ _ _ _)),
        (h c).2.1.trans ((val_main_v16_eq _ _ _ _ _ _ _ _).trans (emb_eq _ _ _ _ _ _ _ _)), (h c).2.2⟩)
    (Cert.ReferenceIdeal.Value.run (F := Ideal) m ρ)

/-- The reference's frame: its run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«176009_g27539330302398_cont_9to1_2132_15_alg».proof.Proof.LibMatmulPlain
import proofs.«176009_g27539330302398_cont_9to1_2132_15_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.PayIdeal.lean ====
/-
  The values the two kernel bodies store, read at an entry, on the extended reals.

  On the extended reals a change of float format and a cast of a vector to its own shape are the identity, a product
  into the zero accumulator is the finite sum of the products over the contracted coordinate, a bias row added to every
  row adds the row's entry of that column, and the rectifier is the larger of its argument and zero.  So each stored
  value is, at the entry (a, j), an explicit sum over the literal coordinate ranges:

    first body, once:           G (r, j) = ∑ k, x (r, k) · W (k, j) + b (0, j)
    first body, every point:    the adjacency block itself, and
                                 ∑ h, max (∑ k, A (a, k) · G (k, h)) 0 · W' (h, j) + b' (0, j)
    second body, first pass:    the same shape with 1120 rows
    second body, second pass:   E (a, j) = ∑ k, A (a, k) · G (k, j), and
                                 ∑ h, max (∑ g, E (a, g) · P (g, h) + c (0, h)) 0 · Q (h, j) + d (0, j).

  Every entry of a row reads the left operand only in that row: the last section records it.
-/
import Idealize.ShloMosaic.PureOps.Ideal
import Idealize.ShloMosaic.PureOps.Ideal.Laws
import Idealize.ShloMosaic.Lib.ValueIdx
import Idealize.ShloMosaic.Lib.Pipeline.Value
import proofs.«176009_g27539330302398_cont_9to1_2132_15_alg».proof.Proof.Gen.KernelIdeal.Skeleton
import proofs.«176009_g27539330302398_cont_9to1_2132_15_alg».proof.Proof.LibMatmulPlain
import proofs.«176009_g27539330302398_cont_9to1_2132_15_alg».proof.Proof.LibBiasRows
import proofs.«176009_g27539330302398_cont_9to1_2132_15_alg».proof.Proof.LibDenseRelu

noncomputable section

namespace Cert.KernelIdeal.PayIdeal

open Idealize.ShloMosaic Idealize.ShloMosaic.ValueIdx Cert.KernelIdeal Cert.KernelIdeal.Gen

/-! ## The first body -/

/-- The dense map computed once: entry (r, j) is the row of the features against the column of the weights, plus the bias. -/
theorem k0_pay1_apply (v20 : Vec Ideal S10000x128 .f32) (v22 : Vec Ideal S128x128 .f32) (v25 : Vec Ideal S1x128 .f32)
    (r : Fin 10000) (j : Fin 128) :
    k0_pay1 (F := Ideal) v20 v22 v25 (ix2 r j)
      = (∑ k : Fin 128, v20 (ix2 r k) * v22 (ix2 k j)) + v25 (ix2 (0 : Fin 1) j) := by
  unfold k0_pay1
  rw [shapeCast_self]
  exact Cert.LibDenseRelu.vec_dense (n := 10000) (K := 128) (d := 128) (φ₁ := .bf16) (φ₂ := .bf16) none
    (truncf .bf16 v20 Facts₀.bitsLt_bf16_f32) (truncf .bf16 v22 Facts₀.bitsLt_bf16_f32) v25 _ _ r j

/-- The adjacency block is stored as it is (a change of format is the identity). -/
theorem k0_pay2_apply (v3 : Vec Ideal S400x10000 .f32) (a : Fin 400) (k : Fin 10000) :
    k0_pay2 (F := Ideal) v3 (ix2 a k) = v3 (ix2 a k) := rfl

/-- The rectified aggregation of the block's rows, mapped through the next layer's weights and bias. -/
theorem k0_pay3_apply (v3 : Vec Ideal S400x10000 .f32) (v6 : Vec Ideal S10000x128 .bf16) (v11 : Vec Ideal S128x128 .f32)
    (v14 : Vec Ideal S1x128 .f32) (a : Fin 400) (j : Fin 128) :
    k0_pay3 (F := Ideal) v3 v6 v11 v14 (ix2 a j)
      = (∑ h : Fin 128, max (∑ k : Fin 10000, v3 (ix2 a k) * v6 (ix2 k h)) 0 * v11 (ix2 h j)) + v14 (ix2 (0 : Fin 1) j) := by
  unfold k0_pay3
  refine (Cert.LibDenseRelu.vec_dense (n := 400) (K := 128) (d := 128) (φ₁ := .bf16) (φ₂ := .bf16) none _
    (truncf .bf16 v11 Facts₀.bitsLt_bf16_f32) v14 _ _ a j).trans ?_
  refine congrArg (· + v14 (ix2 (0 : Fin 1) j)) (Finset.sum_congr rfl fun h _ => ?_)
  refine congrArg (· * v11 (ix2 h j)) ?_
  refine (congrArg (max · (Ideal.ofBits .f32 0x00000000#32))
    (Cert.LibMatmulPlain.matmul_zero_apply (M := 400) (K := 10000) (N := 128) (φ₁ := .bf16) (φ₂ := .bf16) none (k0_pay2 (F := Ideal) v3) v6 a h)).trans ?_
  rw [Ideal.ofBits_zero_f32]
  rfl

/-! ## The second body -/

/-- First pass: the same rectified aggregation and dense map, on a block of 1120 rows. -/
theorem k1_pay1_apply (v6 : Vec Ideal S1120x10000 .bf16) (v8 : Vec Ideal S10000x128 .bf16) (v14 : Vec Ideal S128x128 .f32)
    (v17 : Vec Ideal S1x128 .f32) (a : Fin 1120) (j : Fin 128) :
    k1_pay1 (F := Ideal) v6 v8 v14 v17 (ix2 a j)
      = (∑ h : Fin 128, max (∑ k : Fin 10000, v6 (ix2 a k) * v8 (ix2 k h)) 0 * v14 (ix2 h j)) + v17 (ix2 (0 : Fin 1) j) := by
  unfold k1_pay1
  rw [shapeCast_self, shapeCast_self, shapeCast_self]
  refine (Cert.LibDenseRelu.vec_dense (n := 1120) (K := 128) (d := 128) (φ₁ := .bf16) (φ₂ := .bf16) none _
    (truncf .bf16 v14 Facts₀.bitsLt_bf16_f32) v17 _ _ a j).trans ?_
  refine congrArg (· + v17 (ix2 (0 : Fin 1) j)) (Finset.sum_congr rfl fun h _ => ?_)
  refine congrArg (· * v14 (ix2 h j)) ?_
  refine (congrArg (max · (Ideal.ofBits .f32 0x00000000#32))
    (Cert.LibMatmulPlain.matmul_zero_apply (M := 1120) (K := 10000) (N := 128) (φ₁ := .bf16) (φ₂ := .bf16) none v6 v8 a h)).trans ?_
  rw [Ideal.ofBits_zero_f32]

/-- Second pass, the embedding: the block's rows against the columns of the last dense map. -/
theorem k1_pay2_apply (v6 : Vec Ideal S1120x10000 .bf16) (v8 : Vec Ideal S10000x128 .bf16) (a : Fin 1120) (j : Fin 128) :
    k1_pay2 (F := Ideal) v6 v8 (ix2 a j) = ∑ k : Fin 10000, v6 (ix2 a k) * v8 (ix2 k j) := by
  unfold k1_pay2
  rw [shapeCast_self]
  exact Cert.LibMatmulPlain.matmul_zero_apply (M := 1120) (K := 10000) (N := 128) (φ₁ := .bf16) (φ₂ := .bf16) none v6 v8 a j

/-- Second pass, the projection head: a rectified dense map of the embedding's row, then a second dense map. -/
theorem k1_pay3_apply (v6 : Vec Ideal S1120x10000 .bf16) (v8 : Vec Ideal S10000x128 .bf16) (v12 : Vec Ideal S128x128 .f32)
    (v15 : Vec Ideal S1x128 .f32) (v22 : Vec Ideal S128x128 .f32) (v25 : Vec Ideal S1x128 .f32) (a : Fin 1120) (j : Fin 128) :
    k1_pay3 (F := Ideal) v6 v8 v12 v15 v22 v25 (ix2 a j)
      = (∑ h : Fin 128, max ((∑ g : Fin 128, (∑ k : Fin 10000, v6 (ix2 a k) * v8 (ix2 k g)) * v12 (ix2 g h))
            + v15 (ix2 (0 : Fin 1) h)) 0 * v22 (ix2 h j)) + v25 (ix2 (0 : Fin 1) j) := by
  unfold k1_pay3
  refine (Cert.LibDenseRelu.vec_dense (n := 1120) (K := 128) (d := 128) (φ₁ := .bf16) (φ₂ := .bf16) none _
    (truncf .bf16 v22 Facts₀.bitsLt_bf16_f32) v25 _ _ a j).trans ?_
  refine congrArg (· + v25 (ix2 (0 : Fin 1) j)) (Finset.sum_congr rfl fun h _ => ?_)
  refine congrArg (· * v22 (ix2 h j)) ?_
  refine (congrArg (max · (Ideal.ofBits .f32 0x00000000#32))
    (Cert.LibDenseRelu.vec_dense (n := 1120) (K := 128) (d := 128) (φ₁ := .bf16) (φ₂ := .bf16) none
      (truncf .bf16 (k1_pay2 (F := Ideal) v6 v8) Facts₀.bitsLt_bf16_f32)
      (truncf .bf16 v12 Facts₀.bitsLt_bf16_f32) v15 _ _ a h)).trans ?_
  rw [Ideal.ofBits_zero_f32]
  refine congrArg (max · (0 : EReal)) (congrArg (· + v15 (ix2 (0 : Fin 1) h)) (Finset.sum_congr rfl fun g _ => ?_))
  exact congrArg (· * v12 (ix2 g h)) (k1_pay2_apply v6 v8 a g)

/-! ## Row locality

Row a of each stored value of the second body reads the left operand in row a only: two left operands that agree on
that row give the same row, whatever their other rows hold. -/

/-- The embedding's row a reads the left operand's row a only. -/
theorem k1_pay2_row (v6 v6' : Vec Ideal S1120x10000 .bf16) (v8 : Vec Ideal S10000x128 .bf16) (a : Fin 1120)
    (hrow : ∀ k : Fin 10000, v6 (ix2 a k) = v6' (ix2 a k)) (j : Fin 128) :
    k1_pay2 (F := Ideal) v6 v8 (ix2 a j) = k1_pay2 (F := Ideal) v6' v8 (ix2 a j) := by
  rw [k1_pay2_apply, k1_pay2_apply]
  exact Finset.sum_congr rfl fun k _ => congrArg (· * v8 (ix2 k j)) (hrow k)

/-- The projection head's row a reads the left operand's row a only. -/
theorem k1_pay3_row (v6 v6' : Vec Ideal S1120x10000 .bf16) (v8 : Vec Ideal S10000x128 .bf16) (v12 : Vec Ideal S128x128 .f32)
    (v15 : Vec Ideal S1x128 .f32) (v22 : Vec Ideal S128x128 .f32) (v25 : Vec Ideal S1x128 .f32) (a : Fin 1120)
    (hrow : ∀ k : Fin 10000, v6 (ix2 a k) = v6' (ix2 a k)) (j : Fin 128) :
    k1_pay3 (F := Ideal) v6 v8 v12 v15 v22 v25 (ix2 a j) = k1_pay3 (F := Ideal) v6' v8 v12 v15 v22 v25 (ix2 a j) := by
  rw [k1_pay3_apply, k1_pay3_apply]
  refine congrArg (· + v25 (ix2 (0 : Fin 1) j)) (Finset.sum_congr rfl fun h _ => ?_)
  refine congrArg (fun s => max (s + v15 (ix2 (0 : Fin 1) h)) 0 * v22 (ix2 h j)) (Finset.sum_congr rfl fun g _ => ?_)
  exact congrArg (· * v12 (ix2 g h)) (Finset.sum_congr rfl fun k _ => congrArg (· * v8 (ix2 k g)) (hrow k))

/-- The first pass's row a reads the left operand's row a only. -/
theorem k1_pay1_row (v6 v6' : Vec Ideal S1120x10000 .bf16) (v8 : Vec Ideal S10000x128 .bf16) (v14 : Vec Ideal S128x128 .f32)
    (v17 : Vec Ideal S1x128 .f32) (a : Fin 1120)
    (hrow : ∀ k : Fin 10000, v6 (ix2 a k) = v6' (ix2 a k)) (j : Fin 128) :
    k1_pay1 (F := Ideal) v6 v8 v14 v17 (ix2 a j) = k1_pay1 (F := Ideal) v6' v8 v14 v17 (ix2 a j) := by
  rw [k1_pay1_apply, k1_pay1_apply]
  refine congrArg (· + v17 (ix2 (0 : Fin 1) j)) (Finset.sum_congr rfl fun h _ => ?_)
  exact congrArg (fun s => max s 0 * v14 (ix2 h j)) (Finset.sum_congr rfl fun k _ => congrArg (· * v8 (ix2 k h)) (hrow k))

end Cert.KernelIdeal.PayIdeal

end
-- ==== Proof.Region1Ideal.lean ====
/- The second region's body obligation on the extended reals, nothing forgotten.

   The scratch is filled by the first sweep, 1120 rows per point, and read whole by the second. What is known of it
   before grid position n is that its first 1120·n rows (those inside the 10000 rows of the array) are the rows of
   G3, the third layer's dense input: a point of the first sweep adds its rows, because every row of the payload it
   stores reads the adjacency block in that row only, and on a row inside the array the staging buffer holds the
   array's row whatever it holds past the array's end. From position 9 on all 10000 rows are known, so the second
   sweep's load is G3 itself, and the two blocks it stores agree with the named ones — computed from the block
   filled out with a word of the proof's choosing — on the rows the write-backs move, which is all the obligation
   states of a window whose last block overhangs the array. -/
import proofs.«176009_g27539330302398_cont_9to1_2132_15_alg».proof.Proof.Region1Ob
import proofs.«176009_g27539330302398_cont_9to1_2132_15_alg».proof.Proof.PayIdeal
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

local notation "𝕄" => MT nD τ sig Unit (Elt Ideal) ℕ (UR sig nD τ) ℕ

variable (V : (c : Dev nD) → (b : Ref sig .tc) → Buf (Elt Ideal) ((c : Thread nD τ).loc b))

/-! ## What is known of the scratch before a grid position -/

/-- Before position `n` the first `1120·n` rows of the scratch (those inside the 10000 rows of the array) are the
    rows of `G3`: the first sweep's points below `n` have stored them. From position 9 on that is all 10000 rows. -/
def Pideal (c : Dev nD) (n : ℕ) (s : Vec Ideal S10080x128 .bf16) : Prop :=
  ∀ (r : Fin 10080) (j : Fin 128) (hr : r.val < 10000), r.val < 1120 * n →
    s (ix2 r j) = G3 V c (ix2 (⟨r.val, hr⟩ : Fin 10000) j)

/-! ## The grid's coordinates and the cut of the overhanging blocks, decided over the 18 points -/

/-- The row-block coordinate is the point's number on the first sweep, -/
theorem coord1_l0 : ∀ t : Fin cfg1.N, t.val < 9 → ((grid1.coords t) 1).val = t.val :=
  (by decide +kernel : ∀ t : Fin grid1.N, t.val < 9 → ((grid1.coords t) 1).val = t.val)
/-- the first branch is taken exactly there, -/
theorem cond1_lt : ∀ t : Fin cfg1.N, k1_cond1 (grid1.coords t) = 1#1 → t.val < 9 := fun t h => ((hcond1_l0 t).1).mp h
/-- and the second exactly from point 9 on. -/
theorem cond2_ge : ∀ t : Fin cfg1.N, k1_cond2 (grid1.coords t) = 1#1 → 9 ≤ t.val := fun t h => ((hcond1_l0 t).2).mp h

/-- The adjacency window moves, of its block of 1120 rows at row block `i`, the rows inside the array — all 1120,
    or the 10000 − 1120·i that are left — and all 10000 columns. -/
theorem xs1_0 : ∀ t : Fin cfg1.N,
    ((win1_0.xsize (grid1.coords t) : Fin 2 → ℕ) 0 + 1120 * ((grid1.coords t) 1).val ≤ 10000)
    ∧ (1120 ≤ (win1_0.xsize (grid1.coords t) : Fin 2 → ℕ) 0 ∨ (win1_0.xsize (grid1.coords t) : Fin 2 → ℕ) 0 + 1120 * ((grid1.coords t) 1).val = 10000)
    ∧ (win1_0.xsize (grid1.coords t) : Fin 2 → ℕ) 1 = 10000 := by decide +kernel
/-- On the second sweep the two result windows move the same rows. -/
theorem xs1_8 : ∀ t : Fin cfg1.N, k1_cond2 (grid1.coords t) = 1#1 →
    (win1_8.xsize (grid1.coords t) : Fin 2 → ℕ) 0 + 1120 * ((grid1.coords t) 1).val ≤ 10000 := by
  decide +kernel
theorem xs1_9 : ∀ t : Fin cfg1.N, k1_cond2 (grid1.coords t) = 1#1 →
    (win1_9.xsize (grid1.coords t) : Fin 2 → ℕ) 0 + 1120 * ((grid1.coords t) 1).val ≤ 10000 := by
  decide +kernel

/-- On a row inside the array the adjacency block's buffer holds the array's row, whatever it holds past the
    array's end: two fillings of one block agree there. -/
theorem fill_row_agree {α : Type} (t : Fin cfg1.N) (d d' : win1_0.block.Idx → α) (g : (win1_0.xblock (grid1.coords t)).Idx → α)
    (a : Fin 1120) (ha : 1120 * ((grid1.coords t) 1).val + a.val < 10000) (k : Fin 10000) :
    win1_0.fill (grid1.coords t) d g (ix2 a k) = win1_0.fill (grid1.coords t) d' g (ix2 a k) := by
  have hm : win1_0.moved (grid1.coords t) (ix2 a k) = true := (win1_0.moved_iff _ _).mpr fun ax => by
    obtain ⟨h0, h1, h2⟩ := xs1_0 t
    match ax with
    | ⟨0, _⟩ =>
      show a.val < (win1_0.xsize (grid1.coords t) : Fin 2 → ℕ) 0
      have := a.isLt
      omega
    | ⟨1, _⟩ =>
      show k.val < (win1_0.xsize (grid1.coords t) : Fin 2 → ℕ) 1
      rw [h2]; exact k.isLt
  unfold Window.fill
  rw [dif_pos hm, dif_pos hm]

/-! ## `G3` at a row, and the step of the first sweep -/

/-- Row `1120·t + a` of `G3` is row `a` of what point `t` computes. -/
theorem G3_at (c : Dev nD) (t : Fin cfg1.N) (a : Fin 1120) (j : Fin 128) (hr : 1120 * t.val + a.val < 10000) :
    G3 V c (ix2 (⟨1120 * t.val + a.val, hr⟩ : Fin 10000) j) = rowsG3 V c t (ix2 a j) := by
  have e1 : (1120 * t.val + a.val) / 1120 = t.val := by have := a.isLt; omega
  have e2 : (1120 * t.val + a.val) % 1120 = a.val := by have := a.isLt; omega
  unfold G3
  show rowsG3 V c ⟨(1120 * t.val + a.val) / 1120, _⟩ (ix2 ⟨(1120 * t.val + a.val) % 1120, _⟩ ⟨j.val, _⟩) = _
  simp only [e1, e2]

/-- A point of the first sweep extends what is known of the scratch by its 1120 rows: below them the scratch is
    unchanged; on them it holds the payload, whose rows inside the array read the adjacency block only where the
    buffer holds the array's rows, so they are `G3`'s. -/
theorem Pideal_step (c : Dev nD) (t : Fin cfg1.N) (h1 : k1_cond1 (grid1.coords t) = 1#1)
    (d0 : Vec Ideal S1120x10000 .bf16) (s : Vec Ideal S10080x128 .bf16) (hs : Pideal V c t.val s) :
    Pideal V c (t.val + 1) (scratchAfter (grid1.coords t) h1 s
      (k1_pay1 (win1_0.fill (grid1.coords t) d0 (iblk1 V c 0 t)) (iblk1 V c 1 t) (iblk1 V c 2 t) (iblk1 V c 3 t))) := by
  have ht : t.val < 9 := cond1_lt t h1
  have hi : ((grid1.coords t) 1).val = t.val := coord1_l0 t ht
  intro r j hr hlt
  by_cases hlo : r.val < 1120 * t.val
  · rw [scratchAfter_outside _ _ _ _ r j (Or.inl (by rw [hi]; exact hlo))]
    exact hs r j hr hlo
  · have hge : 1120 * t.val ≤ r.val := Nat.le_of_not_lt hlo
    have hup : r.val < 1120 * t.val + 1120 := by omega
    rw [scratchAfter_inside _ _ _ _ r j (by rw [hi]; exact hge) (by rw [hi]; exact hup)]
    have hra : r.val - 1120 * ((grid1.coords t) 1).val < 1120 := by rw [hi]; omega
    have hrow : 1120 * t.val + (r.val - 1120 * ((grid1.coords t) 1).val) < 10000 := by rw [hi]; omega
    have hr' : (⟨r.val, hr⟩ : Fin 10000) = ⟨1120 * t.val + (⟨r.val - 1120 * ((grid1.coords t) 1).val, hra⟩ : Fin 1120).val, hrow⟩ :=
      Fin.ext (by show r.val = 1120 * t.val + (r.val - 1120 * ((grid1.coords t) 1).val); rw [hi]; omega)
    rw [hr', G3_at V c t ⟨r.val - 1120 * ((grid1.coords t) 1).val, hra⟩ j hrow]
    unfold rowsG3 xA
    rw [iblk1_1_const V c t, iblk1_2_const V c t, iblk1_3_const V c t]
    exact k1_pay1_row _ _ _ _ _ ⟨r.val - 1120 * ((grid1.coords t) 1).val, hra⟩
      (fun k => fill_row_agree t _ _ _ _ (by show 1120 * ((grid1.coords t) 1).val + (r.val - 1120 * ((grid1.coords t) 1).val) < 10000; rw [hi]; omega) k) j

/-- From position 9 on the scratch's first 10000 rows are `G3`: what the second sweep loads. -/
theorem ld_eq_G3 (c : Dev nD) (n : ℕ) (hn : 9 ≤ n) (s : Vec Ideal S10080x128 .bf16) (hs : Pideal V c n s) :
    View.ld s R10000 = G3 V c := by
  have key : ∀ y : S10000x128.Idx, View.ld s R10000 y = G3 V c y := by
    intro y
    obtain ⟨k, j, rfl⟩ : ∃ (k : Fin 10000) (j : Fin 128), y = ix2 k j := ⟨y 0, y 1, eq_ix2 y⟩
    rw [ld_R10000_apply]
    exact hs ⟨k.val, by have := k.isLt; omega⟩ j k.isLt (by have := k.isLt; show k.val < 1120 * n; omega)
  exact funext key

/-- From position 9 on, what is known stays known. -/
theorem Pideal_keep (c : Dev nD) (n : ℕ) (hn : 9 ≤ n) (s : Vec Ideal S10080x128 .bf16) (hs : Pideal V c n s) :
    Pideal V c (n + 1) s := fun r j hr _ => hs r j hr (by omega)

/-! ## The invariant with what is known of the scratch -/

/-- The invariant with less known of the scratch. -/
theorem PhiQ_mono (c : Dev nD) (Q Q' : Vec Ideal S10080x128 .bf16 → Prop) (h : ∀ s, Q s → Q' s) : PhiQ c Q ⊢ PhiQ c Q' := by
  iintro H
  ihave H' := (PhiQ_open c Q) $$ H
  icases H' with ⟨HR, ⟨%s, HS, %hs⟩⟩
  iapply (PhiQ_close c Q')
  isplitl [HR]; · iexact HR
  iexists s; isplitl [HS]; · iexact HS
  ipureintro; exact h s hs

/-- The invariant before any position gives the opened form: before the first point nothing is claimed. -/
theorem Phi1_ideal (c : Dev nD) : ∀ n : ℕ, Phi1 (Pideal V) c n ⊢ PhiQ c (Pideal V c n)
  | 0 => (PhiA1_in c).trans (PhiQ_mono c _ _ fun s _ r j hr hlt => absurd hlt (by omega))
  | _ + 1 => .rfl

/-! ## What the second sweep leaves in the result windows, on the rows their write-backs move -/

/-- The embedding block computed from the buffer as the body finds it and the one computed from the block filled
    with a word of the proof's choosing agree on the rows the write-back moves: those rows are inside the array. -/
theorem cut8_agree (c : Dev nD) (t : Fin cfg1.N) (h2 : k1_cond2 (grid1.coords t) = 1#1) (d0 : Vec Ideal S1120x10000 .bf16) :
    (cfg1.win 8).cut (cfg1.grid.coords t) (k1_pay2 (win1_0.fill (grid1.coords t) d0 (iblk1 V c 0 t)) (G3 V c))
      = (cfg1.win 8).cut (cfg1.grid.coords t) (k1_pay2 (xA V c t) (G3 V c)) := by
  funext j'
  have hlt : (j' (0 : Fin 2)).val < (win1_8.xsize (grid1.coords t) : Fin 2 → ℕ) 0 := (j' (0 : Fin 2)).isLt
  have hx := xs1_8 t h2
  let y : S1120x128.Idx := win1_8.xinj (grid1.coords t) j'
  have hv : (y 0).val = (j' (0 : Fin 2)).val := rfl
  unfold xA
  show k1_pay2 _ _ y = k1_pay2 _ _ y
  rw [eq_ix2 y]
  exact k1_pay2_row _ _ _ (y 0) (fun k => fill_row_agree t _ _ _ (y 0) (by omega) k) (y 1)

/-- The same for the head's output block. -/
theorem cut9_agree (c : Dev nD) (t : Fin cfg1.N) (h2 : k1_cond2 (grid1.coords t) = 1#1) (d0 : Vec Ideal S1120x10000 .bf16) :
    (cfg1.win 9).cut (cfg1.grid.coords t) (k1_pay3 (win1_0.fill (grid1.coords t) d0 (iblk1 V c 0 t)) (G3 V c) (iblk1 V c 4 t) (iblk1 V c 5 t) (iblk1 V c 6 t) (iblk1 V c 7 t))
      = (cfg1.win 9).cut (cfg1.grid.coords t) (k1_pay3 (xA V c t) (G3 V c) (iblk1 V c 4 t1₀) (iblk1 V c 5 t1₀) (iblk1 V c 6 t1₀) (iblk1 V c 7 t1₀)) := by
  funext j'
  have hlt : (j' (0 : Fin 2)).val < (win1_9.xsize (grid1.coords t) : Fin 2 → ℕ) 0 := (j' (0 : Fin 2)).isLt
  have hx := xs1_9 t h2
  let y : S1120x128.Idx := win1_9.xinj (grid1.coords t) j'
  have hv : (y 0).val = (j' (0 : Fin 2)).val := rfl
  unfold xA
  rw [iblk1_4_const V c t, iblk1_5_const V c t, iblk1_6_const V c t, iblk1_7_const V c t]
  show k1_pay3 _ _ _ _ _ _ y = k1_pay3 _ _ _ _ _ _ y
  rw [eq_ix2 y]
  exact k1_pay3_row _ _ _ _ _ _ _ (y 0) (fun k => fill_row_agree t _ _ _ (y 0) (by omega) k) (y 1)

/-- A live point's post for a result window (it overhangs the array: stated on the moved rows). -/
theorem leaves1_8_live (c : Dev nD) (t : Fin cfg1.N) (hi : cfg1.idle 8 (grid1.coords t) = false) :
    (dat1 V (Pideal V) c).leaves 8 t = iprop(∃ d, owns (c : Thread nD τ) (st1_8 t) fullShare ((cfg1.win 8).fill (cfg1.grid.coords t) d ((cfg1.win 8).cut (cfg1.grid.coords t) ((dat1 V (Pideal V) c).after 8 t)))) := by
  unfold Dat.leaves; rw [hi]
theorem leaves1_9_live (c : Dev nD) (t : Fin cfg1.N) (hi : cfg1.idle 9 (grid1.coords t) = false) :
    (dat1 V (Pideal V) c).leaves 9 t = iprop(∃ d, owns (c : Thread nD τ) (st1_9 t) fullShare ((cfg1.win 9).fill (cfg1.grid.coords t) d ((cfg1.win 9).cut (cfg1.grid.coords t) ((dat1 V (Pideal V) c).after 9 t)))) := by
  unfold Dat.leaves; rw [hi]

/-! ## The exact body obligation -/

/-- What the body is called with at point `t`, the windows one by one, -/
def bodyPre1e (c : Dev nD) (t : Fin cfg1.N) : sProp 𝕄 :=
  iprop((dat1 V (Pideal V) c).Φ t.castSucc ∗ (dat1 V (Pideal V) c).owesAt () t.castSucc
    ∗ (∃ d, owns (c : Thread nD τ) (st1_0 t) fullShare ((dat1 V (Pideal V) c).before 0 t d))
    ∗ (∃ d, owns (c : Thread nD τ) (st1_1 t) fullShare ((dat1 V (Pideal V) c).before 1 t d))
    ∗ (∃ d, owns (c : Thread nD τ) (st1_2 t) fullShare ((dat1 V (Pideal V) c).before 2 t d))
    ∗ (∃ d, owns (c : Thread nD τ) (st1_3 t) fullShare ((dat1 V (Pideal V) c).before 3 t d))
    ∗ (∃ d, owns (c : Thread nD τ) (st1_4 t) fullShare ((dat1 V (Pideal V) c).before 4 t d))
    ∗ (∃ d, owns (c : Thread nD τ) (st1_5 t) fullShare ((dat1 V (Pideal V) c).before 5 t d))
    ∗ (∃ d, owns (c : Thread nD τ) (st1_6 t) fullShare ((dat1 V (Pideal V) c).before 6 t d))
    ∗ (∃ d, owns (c : Thread nD τ) (st1_7 t) fullShare ((dat1 V (Pideal V) c).before 7 t d))
    ∗ (∃ d, owns (c : Thread nD τ) (st1_8 t) fullShare ((dat1 V (Pideal V) c).before 8 t d))
    ∗ (∃ d, owns (c : Thread nD τ) (st1_9 t) fullShare ((dat1 V (Pideal V) c).before 9 t d)))

/-- and what it returns: the three windows whose last block overhangs the array stated on the rows inside it. -/
def bodyPost1e (c : Dev nD) (t : Fin cfg1.N) : sProp 𝕄 :=
  iprop((dat1 V (Pideal V) c).Φ t.succ ∗ (dat1 V (Pideal V) c).owesAt () t.succ
    ∗ (∃ d, owns (c : Thread nD τ) (st1_0 t) fullShare ((cfg1.win 0).fill (cfg1.grid.coords t) d ((cfg1.win 0).cut (cfg1.grid.coords t) ((dat1 V (Pideal V) c).after 0 t))))
    ∗ owns (c : Thread nD τ) (st1_1 t) fullShare ((dat1 V (Pideal V) c).after 1 t)
    ∗ owns (c : Thread nD τ) (st1_2 t) fullShare ((dat1 V (Pideal V) c).after 2 t)
    ∗ owns (c : Thread nD τ) (st1_3 t) fullShare ((dat1 V (Pideal V) c).after 3 t)
    ∗ owns (c : Thread nD τ) (st1_4 t) fullShare ((dat1 V (Pideal V) c).after 4 t)
    ∗ owns (c : Thread nD τ) (st1_5 t) fullShare ((dat1 V (Pideal V) c).after 5 t)
    ∗ owns (c : Thread nD τ) (st1_6 t) fullShare ((dat1 V (Pideal V) c).after 6 t)
    ∗ owns (c : Thread nD τ) (st1_7 t) fullShare ((dat1 V (Pideal V) c).after 7 t)
    ∗ (dat1 V (Pideal V) c).leaves 8 t
    ∗ (dat1 V (Pideal V) c).leaves 9 t)

set_option maxHeartbeats 1000000 in
/-- The body at any point. First sweep: the scratch, whose rows below the block's are `G3`'s, takes the block's rows
    of `G3` (`Pideal_step`); the result windows are idle and come back as they were. Second sweep: the scratch's first
    10000 rows are `G3` (`ld_eq_G3`), so the two stores leave the blocks of the embedding and of the head's output,
    which agree with the named ones on the rows the write-backs move. -/
theorem sound_body1e (c : Dev nD) (t : Fin cfg1.N) :
    bodyPre1e V c t ⊢ wp frame (wpE (defs₀ (F := Ideal)) Variants.none c none) Set.univ (bodyAt1 t) (fun _ => bodyPost1e V c t) := by
  unfold bodyPre1e bodyPost1e bodyAt1
  simp only [before1_0, before1_1, before1_2, before1_3, before1_4, before1_5, before1_6, before1_7]
  rw [show (dat1 V (Pideal V) c).Φ t.castSucc = Phi1 (Pideal V) c t.val from rfl,
    show (dat1 V (Pideal V) c).Φ t.succ = PhiQ c (Pideal V c (t.val + 1)) from rfl,
    show (dat1 V (Pideal V) c).owesAt () t.succ = (dat1 V (Pideal V) c).owesAt () t.castSucc from rfl,
    after1_0, after1_1, after1_2, after1_3, after1_4, after1_5, after1_6, after1_7]
  have hx : (cfg1.win 0).cut (cfg1.grid.coords t) (xA V c t) = iblk1 V c 0 t := win1_0.cut_fill _ _ _
  rw [hx]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HQ := (Phi1_ideal V c t.val) $$ HΦ
  ihave HQ' := (PhiQ_open c _) $$ HQ
  icases HQ' with ⟨HR, ⟨%s, HS, %hs⟩⟩
  rcases cond1_xor t with ⟨h1, h2⟩ | ⟨h1, h2⟩
  · obtain ⟨hi8, hf8⟩ := (sched1_8 t).2 h2
    obtain ⟨hi9, hf9⟩ := (sched1_9 t).2 h2
    rw [Dat.leaves_idle _ 8 t hi8 hf8, Dat.leaves_idle _ 9 t hi9 hf9]
    iapply (sound_kernel1_l0 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) ((dat1 V (Pideal V) c).before 8 t d8) ((dat1 V (Pideal V) c).before 9 t d9) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HR HS]
    · iapply (PhiQ_close c _)
      isplitl [HR]; · iexact HR
      iexists _; isplitl [HS]; · iexact HS
      ipureintro; exact Pideal_step V c t h1 d0 s hs
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    iexists d9; iexact H9
  · obtain ⟨hi8, hf8⟩ := (sched1_8 t).1 h2
    obtain ⟨hi9, hf9⟩ := (sched1_9 t).1 h2
    rw [leaves1_8_live V c t hi8, leaves1_9_live V c t hi9, after1_8, after1_9]
    have ht9 : 9 ≤ t.val := cond2_ge t h2
    have hld : View.ld s R10000 = G3 V c := ld_eq_G3 V c t.val ht9 s hs
    iapply (sound_kernel1_l1 c Set.univ (grid1.coords t) h1 h2 _ _ _ _ _ _ _ _ _ _ _ _ _ _ _ _ _ _ _ _ _ _
      (win1_0.fill (grid1.coords t) d0 (iblk1 V c 0 t)) (iblk1 V c 1 t) (iblk1 V c 2 t) (iblk1 V c 3 t) (iblk1 V c 4 t)
      (iblk1 V c 5 t) (iblk1 V c 6 t) (iblk1 V c 7 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    rw [hld]
    iintro ⟨H0, H1, H2, H3, H4, H5, H6, H7, H8, H9, HS⟩
    isplitl [HR HS]
    · iapply (PhiQ_close c _)
      isplitl [HR]; · iexact HR
      iexists _; isplitl [HS]; · iexact HS
      ipureintro; exact Pideal_keep V c t.val ht9 s hs
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists (k1_pay2 (win1_0.fill (grid1.coords t) d0 (iblk1 V c 0 t)) (G3 V c))
      rw [(cfg1.win 8).fill_congr_cut (cfg1.grid.coords t) (cut8_agree V c t h2 d0)]
      iexact H8
    iexists (k1_pay3 (win1_0.fill (grid1.coords t) d0 (iblk1 V c 0 t)) (G3 V c) (iblk1 V c 4 t) (iblk1 V c 5 t) (iblk1 V c 6 t) (iblk1 V c 7 t))
    rw [(cfg1.win 9).fill_congr_cut (cfg1.grid.coords t) (cut9_agree V c t h2 d0)]
    iexact H9

/-- The library's body obligation at every point, nothing forgotten, with the scratch known row by row: what the
    value of the program's results is read from. -/
theorem body_obligation1_exact (c : Dev nD) :
    BodyObligationLoose (dat1 (F := Ideal) V (Pideal V) c) (defs₀ (F := Ideal)) Variants.none () Set.univ := fun t => by
  rw [bigSep_W1, bigSep_W1]
  exact sound_body1e V c t

end Cert.KernelIdeal.Hand

end
-- ==== Proof.FinalIdx.lean ====
/- Rows and grid points of the two regions.

   The first region handles the 10000 rows in 25 blocks of 400: row `r` is row `r % 400` of the block of point `r / 400`.
   The second region sweeps them twice in 9 blocks of 1120 (the last block reaches past row 10000): in either sweep row `r`
   is row `r % 1120` of block `r / 1120`, which the first sweep handles at point `r / 1120` and the second at point
   `9 + r / 1120`. -/
import proofs.«176009_g27539330302398_cont_9to1_2132_15_alg».proof.Proof.Gen.KernelIdeal.Launch

noncomputable section

namespace Cert.KernelIdeal.Hand

open Cert.KernelIdeal Cert.KernelIdeal.Gen
open Idealize.ShloMosaic

/-- The point of the first region that holds row r. -/
abbrev pt0 (r : Fin 10000) : Fin cfg0.N :=
  ⟨r.val / 400, by have h : grid0.N = 25 := N_0; show _ < grid0.N; have := r.isLt; omega⟩
/-- Row r's place in that point's block. -/
abbrev rw0 (r : Fin 10000) : Fin 400 := ⟨r.val % 400, Nat.mod_lt _ (by decide)⟩
/-- The point of the second region's second pass that holds row r. -/
abbrev pt1 (r : Fin 10000) : Fin cfg1.N :=
  ⟨9 + r.val / 1120, by have := r.isLt; show _ < 18; omega⟩
/-- The point of the second region's first pass that holds row r. -/
abbrev pt1a (r : Fin 10000) : Fin cfg1.N :=
  ⟨r.val / 1120, by have := r.isLt; show _ < 18; omega⟩
/-- Row r's place in that point's block. -/
abbrev rw1 (r : Fin 10000) : Fin 1120 := ⟨r.val % 1120, Nat.mod_lt _ (by decide)⟩

end Cert.KernelIdeal.Hand

end
-- ==== Proof.Final0.lean ====
/- Region 0's arrays when the region is left, read at an index.

   Window 0 stages the adjacency matrix in 25 blocks of 400 rows: row `a` of block `t` is row `400·t + a` of the array.
   Windows 1–5 have a single block, the whole array. The two output windows write block `t` back at point `t`, and the
   25 blocks tile the 10000 rows, so after the last point entry `(r, k)` of an output array is entry `(r % 400, k)`
   of what point `r / 400` left in the window's buffer. Stated at the entry contents `V`, for any float instance. -/
import proofs.«176009_g27539330302398_cont_9to1_2132_15_alg».proof.Proof.Region0
import proofs.«176009_g27539330302398_cont_9to1_2132_15_alg».proof.Proof.FinalIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The printed index maps, decided over the 25 points -/

/-- The adjacency window and the two output windows move down one block of rows per point and never sideways. -/
theorem idx_rows0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_rows0_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The five single-block windows stay at block (0, 0). -/
theorem idx_whole0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_whole0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_whole0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

section Region0
variable (V : (c : Dev nD) → (b : Ref sig .tc) → Buf (Elt F) ((c : Thread nD τ).loc b))

/-! ## The input blocks as parts of their arrays -/

/-- Row `a` of the adjacency block of point `t` is row `400·t + a` of the adjacency matrix. -/
theorem iblk0_0_apply (c : Dev nD) (t : Fin cfg0.N) (a : Fin 400) (k : Fin 10000) (h : 400 * t.val + a.val < 10000) :
    iblk0 V c 0 t (ix2 a k) = V c main_arg1 (ix2 (⟨400 * t.val + a.val, h⟩ : Fin 10000) k) := by
  obtain ⟨e0, e1⟩ := idx_rows0_0 t
  unfold iblk0
  rw [View.read_apply]
  show (V c main_arg1 : S10000x10000.Idx → Elt F .f32) _ = _
  congr 1
  funext d; apply Fin.ext
  match d with
  | ⟨0, _⟩ => show win0_0.index t (0 : Fin 2) * 400 + 1 * a.val = 400 * t.val + a.val; rw [e0]; omega
  | ⟨1, _⟩ => show win0_0.index t (1 : Fin 2) * 10000 + 1 * k.val = k.val; rw [e1]; omega

/-- Window 1's one block is the whole of its array: at every point it reads `main_arg0` entire. -/
theorem iblk0_whole_1 (c : Dev nD) (t : Fin cfg0.N) :
    (iblk0 V c 1 t : S10000x128.Idx → Elt F .f32) = (V c main_arg0 : S10000x128.Idx → Elt F .f32) := by
  obtain ⟨e0, e1⟩ := idx_whole0_1 t
  funext j
  unfold iblk0
  rw [View.read_apply]
  show (V c main_arg0 : S10000x128.Idx → Elt F .f32) _ = _
  congr 1
  funext d; apply Fin.ext
  match d with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

/-- Window 2's one block is the whole of its array: at every point it reads `main_arg2` entire. -/
theorem iblk0_whole_2 (c : Dev nD) (t : Fin cfg0.N) :
    (iblk0 V c 2 t : S128x128.Idx → Elt F .f32) = (V c main_arg2 : S128x128.Idx → Elt F .f32) := by
  obtain ⟨e0, e1⟩ := idx_whole0_2 t
  funext j
  unfold iblk0
  rw [View.read_apply]
  show (V c main_arg2 : S128x128.Idx → Elt F .f32) _ = _
  congr 1
  funext d; apply Fin.ext
  match d with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- Window 3's one block is the whole of its array: at every point it reads `main_v0` entire. -/
theorem iblk0_whole_3 (c : Dev nD) (t : Fin cfg0.N) :
    (iblk0 V c 3 t : S1x128.Idx → Elt F .f32) = (V c main_v0 : S1x128.Idx → Elt F .f32) := by
  obtain ⟨e0, e1⟩ := idx_whole0_3 t
  funext j
  unfold iblk0
  rw [View.read_apply]
  show (V c main_v0 : S1x128.Idx → Elt F .f32) _ = _
  congr 1
  funext d; apply Fin.ext
  match d with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Window 4's one block is the whole of its array: at every point it reads `main_arg4` entire. -/
theorem iblk0_whole_4 (c : Dev nD) (t : Fin cfg0.N) :
    (iblk0 V c 4 t : S128x128.Idx → Elt F .f32) = (V c main_arg4 : S128x128.Idx → Elt F .f32) := by
  obtain ⟨e0, e1⟩ := idx_whole0_4 t
  funext j
  unfold iblk0
  rw [View.read_apply]
  show (V c main_arg4 : S128x128.Idx → Elt F .f32) _ = _
  congr 1
  funext d; apply Fin.ext
  match d with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- Window 5's one block is the whole of its array: at every point it reads `main_v1` entire. -/
theorem iblk0_whole_5 (c : Dev nD) (t : Fin cfg0.N) :
    (iblk0 V c 5 t : S1x128.Idx → Elt F .f32) = (V c main_v1 : S1x128.Idx → Elt F .f32) := by
  obtain ⟨e0, e1⟩ := idx_whole0_5 t
  funext j
  unfold iblk0
  rw [View.read_apply]
  show (V c main_v1 : S1x128.Idx → Elt F .f32) _ = _
  congr 1
  funext d; apply Fin.ext
  match d with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- The same, entry by entry. -/
theorem iblk0_1_apply (c : Dev nD) (t : Fin cfg0.N) (r : Fin 10000) (k : Fin 128) :
    iblk0 V c 1 t (ix2 r k) = V c main_arg0 (ix2 r k) :=
  congrFun (iblk0_whole_1 V c t) (ix2 r k)

/-- The same, entry by entry. -/
theorem iblk0_2_apply (c : Dev nD) (t : Fin cfg0.N) (k j : Fin 128) :
    iblk0 V c 2 t (ix2 k j) = V c main_arg2 (ix2 k j) :=
  congrFun (iblk0_whole_2 V c t) (ix2 k j)

/-- The same, entry by entry. -/
theorem iblk0_3_apply (c : Dev nD) (t : Fin cfg0.N) (j : Fin 128) :
    iblk0 V c 3 t (ix2 (0 : Fin 1) j) = V c main_v0 (ix2 (0 : Fin 1) j) :=
  congrFun (iblk0_whole_3 V c t) (ix2 (0 : Fin 1) j)

/-- The same, entry by entry. -/
theorem iblk0_4_apply (c : Dev nD) (t : Fin cfg0.N) (k j : Fin 128) :
    iblk0 V c 4 t (ix2 k j) = V c main_arg4 (ix2 k j) :=
  congrFun (iblk0_whole_4 V c t) (ix2 k j)

/-- The same, entry by entry. -/
theorem iblk0_5_apply (c : Dev nD) (t : Fin cfg0.N) (j : Fin 128) :
    iblk0 V c 5 t (ix2 (0 : Fin 1) j) = V c main_v1 (ix2 (0 : Fin 1) j) :=
  congrFun (iblk0_whole_5 V c t) (ix2 (0 : Fin 1) j)

/-! ## Output window 6: `main_v5_0` after the 25 write-backs -/

/-- Entry `(r, k)` of the rounded copy of the adjacency matrix as the write-backs assemble it: entry `(r % 400, k)` of what point `r / 400` leaves in window 6. -/
def G6e (c : Dev nD) (r : Fin 10000) (k : Fin 10000) : Elt F .bf16 :=
  k0_pay2 (iblk0 V c 0 (pt0 r)) (ix2 (rw0 r) k)

/-- The same as one array. -/
def G6 (c : Dev nD) : Vec F S10000x10000 .bf16 := fun i => G6e V c (i 0) (i 1)

/-- Entry `(r, k)` with `r = 400·t + y₀` is entry `y` of what point `t` leaves: `r / 400 = t` and `r % 400 = y₀`. -/
theorem G6e_at (c : Dev nD) (t : Fin cfg0.N) (y : S400x10000.Idx) (r : Fin 10000) (k : Fin 10000)
    (h0 : r.val = 400 * t.val + (y 0).val) (h1 : k.val = (y 1).val) :
    G6e V c r k = k0_pay2 (iblk0 V c 0 t) y := by
  have hy : (y 0).val < 400 := idx2_lt0 y
  have ht : pt0 r = t := Fin.ext (by show r.val / 400 = t.val; omega)
  have hx : (ix2 (rw0 r) k : S400x10000.Idx) = y := by
    funext d
    match d with
    | ⟨0, _⟩ => exact Fin.ext (by show r.val % 400 = (y 0).val; omega)
    | ⟨1, _⟩ => exact Fin.ext h1
  unfold G6e
  rw [ht, hx]

/-- What point `t` writes back is block `t` of `G6`: the block's element `y` sits in the array at row `400·t + y₀`,
    column `y₁`. -/
theorem flushed0_6_eq (c : Dev nD) (t : Fin cfg0.N) :
    (dat0 V c).flushed 6 t = ((cfg0.win 6).blk t).view.read (Elt F) (G6 V c) := by
  show (cfg0.win 6).cut (grid0.coords t) ((dat0 V c).after 6 t) = _
  rw [after0_6]
  obtain ⟨e0, e1⟩ := idx_rows0_6 t
  funext y
  rw [View.read_apply]
  show k0_pay2 (iblk0 V c 0 t) y
    = G6e V c (((cfg0.win 6).blk t).view.emb y 0) (((cfg0.win 6).blk t).view.emb y 1)
  refine (G6e_at V c t y _ _ ?_ ?_).symm
  · show win0_6.index t (0 : Fin 2) * 400 + 1 * (y 0).val = 400 * t.val + (y 0).val; rw [e0]; omega
  · show win0_6.index t (1 : Fin 2) * 10000 + 1 * (y 1).val = (y 1).val; rw [e1]; omega

/-- An index of the array is in point `t`'s block iff each coordinate is in the block's range on its axis. -/
theorem mem_blk0_6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v5_0).slice (win0_6.rect t)).set ↔ _
  rw [View.set_slice_whole, Rect.mem_set_unit]
  exact Iff.rfl

/-- The 25 blocks of 400 rows tile the 10000 rows: row `r` is in the block of point `r / 400`. -/
theorem cover0_6 (i : S10000x10000.Idx) :
    ∃ t : Fin cfg0.N, (cfg0.win 6).flush t = true ∧ i ∈ ((cfg0.win 6).blk t).view.set := by
  have hi0 : (i 0).val < 10000 := idx2_lt0 i
  have hi1 : (i 1).val < 10000 := idx2_lt1 i
  refine ⟨pt0 (i 0), flush0_6 _, ?_⟩
  rw [mem_blk0_6]
  obtain ⟨e0, e1⟩ := idx_rows0_6 (pt0 (i 0))
  have hq : (pt0 (i 0)).val = (i 0).val / 400 := rfl
  intro a
  match a with
  | ⟨0, _⟩ =>
    show win0_6.index (pt0 (i 0)) (0 : Fin 2) * 400 ≤ (i 0).val ∧ (i 0).val < win0_6.index (pt0 (i 0)) (0 : Fin 2) * 400 + 400
    rw [e0, hq]; omega
  | ⟨1, _⟩ =>
    show win0_6.index (pt0 (i 0)) (1 : Fin 2) * 10000 ≤ (i 1).val ∧ (i 1).val < win0_6.index (pt0 (i 0)) (1 : Fin 2) * 10000 + 10000
    rw [e1]; omega

/-- So `main_v5_0` ends holding `G6`. -/
theorem final0_6_arr (c : Dev nD) : (dat0 V c).arrAt 6 cfg0.N = G6 V c :=
  (dat0 V c).arrAt_eq_of_cover 6 (G6 V c) (fun t _ => flushed0_6_eq V c t) cover0_6

/-- `main_v5_0` after the region, at an index: the rounded adjacency block of point `r / 400`, at row `r % 400`. -/
theorem final0_6 (c : Dev nD) (r k : Fin 10000) :
    (dat0 V c).arrAt 6 cfg0.N (ix2 r k)
      = k0_pay2 (iblk0 V c 0 (pt0 r)) (ix2 (rw0 r) k) := by
  rw [final0_6_arr]
  rfl

/-! ## Output window 7: `main_v5_1` after the 25 write-backs -/

/-- Entry `(r, j)` of the layer's output as the write-backs assemble it: entry `(r % 400, j)` of what point `r / 400` leaves in window 7, relu(A·G1)·W2 + b2 on that block of rows. -/
def G7e (c : Dev nD) (r : Fin 10000) (k : Fin 128) : Elt F .bf16 :=
  k0_pay3 (iblk0 V c 0 (pt0 r)) (G1 V c) (iblk0 V c 4 (pt0 r)) (iblk0 V c 5 (pt0 r)) (ix2 (rw0 r) k)

/-- The same as one array. -/
def G7 (c : Dev nD) : Vec F S10000x128 .bf16 := fun i => G7e V c (i 0) (i 1)

/-- Entry `(r, k)` with `r = 400·t + y₀` is entry `y` of what point `t` leaves: `r / 400 = t` and `r % 400 = y₀`. -/
theorem G7e_at (c : Dev nD) (t : Fin cfg0.N) (y : S400x128.Idx) (r : Fin 10000) (k : Fin 128)
    (h0 : r.val = 400 * t.val + (y 0).val) (h1 : k.val = (y 1).val) :
    G7e V c r k = k0_pay3 (iblk0 V c 0 t) (G1 V c) (iblk0 V c 4 t) (iblk0 V c 5 t) y := by
  have hy : (y 0).val < 400 := idx2_lt0 y
  have ht : pt0 r = t := Fin.ext (by show r.val / 400 = t.val; omega)
  have hx : (ix2 (rw0 r) k : S400x128.Idx) = y := by
    funext d
    match d with
    | ⟨0, _⟩ => exact Fin.ext (by show r.val % 400 = (y 0).val; omega)
    | ⟨1, _⟩ => exact Fin.ext h1
  unfold G7e
  rw [ht, hx]

/-- What point `t` writes back is block `t` of `G7`: the block's element `y` sits in the array at row `400·t + y₀`,
    column `y₁`. -/
theorem flushed0_7_eq (c : Dev nD) (t : Fin cfg0.N) :
    (dat0 V c).flushed 7 t = ((cfg0.win 7).blk t).view.read (Elt F) (G7 V c) := by
  show (cfg0.win 7).cut (grid0.coords t) ((dat0 V c).after 7 t) = _
  rw [after0_7]
  obtain ⟨e0, e1⟩ := idx_rows0_7 t
  funext y
  rw [View.read_apply]
  show k0_pay3 (iblk0 V c 0 t) (G1 V c) (iblk0 V c 4 t) (iblk0 V c 5 t) y
    = G7e V c (((cfg0.win 7).blk t).view.emb y 0) (((cfg0.win 7).blk t).view.emb y 1)
  refine (G7e_at V c t y _ _ ?_ ?_).symm
  · show win0_7.index t (0 : Fin 2) * 400 + 1 * (y 0).val = 400 * t.val + (y 0).val; rw [e0]; omega
  · show win0_7.index t (1 : Fin 2) * 128 + 1 * (y 1).val = (y 1).val; rw [e1]; omega

/-- An index of the array is in point `t`'s block iff each coordinate is in the block's range on its axis. -/
theorem mem_blk0_7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v5_1).slice (win0_7.rect t)).set ↔ _
  rw [View.set_slice_whole, Rect.mem_set_unit]
  exact Iff.rfl

/-- The 25 blocks of 400 rows tile the 10000 rows: row `r` is in the block of point `r / 400`. -/
theorem cover0_7 (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  refine ⟨pt0 (i 0), flush0_7 _, ?_⟩
  rw [mem_blk0_7]
  obtain ⟨e0, e1⟩ := idx_rows0_7 (pt0 (i 0))
  have hq : (pt0 (i 0)).val = (i 0).val / 400 := rfl
  intro a
  match a with
  | ⟨0, _⟩ =>
    show win0_7.index (pt0 (i 0)) (0 : Fin 2) * 400 ≤ (i 0).val ∧ (i 0).val < win0_7.index (pt0 (i 0)) (0 : Fin 2) * 400 + 400
    rw [e0, hq]; omega
  | ⟨1, _⟩ =>
    show win0_7.index (pt0 (i 0)) (1 : Fin 2) * 128 ≤ (i 1).val ∧ (i 1).val < win0_7.index (pt0 (i 0)) (1 : Fin 2) * 128 + 128
    rw [e1]; omega

/-- So `main_v5_1` ends holding `G7`. -/
theorem final0_7_arr (c : Dev nD) : (dat0 V c).arrAt 7 cfg0.N = G7 V c :=
  (dat0 V c).arrAt_eq_of_cover 7 (G7 V c) (fun t _ => flushed0_7_eq V c t) cover0_7

/-- `main_v5_1` after the region, at an index: the layer's output block of point `r / 400`, at row `r % 400`. -/
theorem final0_7 (c : Dev nD) (r : Fin 10000) (j : Fin 128) :
    (dat0 V c).arrAt 7 cfg0.N (ix2 r j)
      = k0_pay3 (iblk0 V c 0 (pt0 r)) (G1 V c) (iblk0 V c 4 (pt0 r)) (iblk0 V c 5 (pt0 r)) (ix2 (rw0 r) j) := by
  rw [final0_7_arr]
  rfl

end Region0

end Cert.KernelIdeal.Hand

end
-- ==== Proof.Final1a.lean ====
/-
  The second region's input windows, read at an entry.

  Window 0 walks the rounded copy of the adjacency in blocks of 1120 rows, the same nine blocks in each of the two
  passes: at point t the block index is t % 9, and row a of the block is row 1120·(t % 9) + a of the array as long as
  that row exists — the ninth block reaches 80 rows past the array's end, and the staged buffer holds there a word nobody
  chose.  Windows 1 to 7 have one block each, the whole array.
-/
import proofs.«176009_g27539330302398_cont_9to1_2132_15_alg».proof.Proof.Region1
import proofs.«176009_g27539330302398_cont_9to1_2132_15_alg».proof.Proof.FinalIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Window)
open Idealize.ShloMosaic.ValueIdx

variable {F : FTy → Type} [FloatOps F]

/-- The adjacency window over the 18 points: its block index is (t % 9, 0), and what it moves at point t is the
    block's rows inside the array — all 1120, or the 1040 left for the ninth block — and all 10000 columns. -/
theorem idx_rows1_0 : ∀ t : Fin cfg1.N, win1_0.index t (0 : Fin 2) = t.val % 9 ∧ win1_0.index t (1 : Fin 2) = 0
    ∧ win1_0.xsize (grid1.coords t) (0 : Fin 2) = min 1120 (10000 - 1120 * (t.val % 9))
    ∧ win1_0.xsize (grid1.coords t) (1 : Fin 2) = 10000 :=
  (by decide +kernel : ∀ t : Fin grid1.N, win1_0.index t (0 : Fin 2) = t.val % 9 ∧ win1_0.index t (1 : Fin 2) = 0
    ∧ win1_0.xsize (grid1.coords t) (0 : Fin 2) = min 1120 (10000 - 1120 * (t.val % 9))
    ∧ win1_0.xsize (grid1.coords t) (1 : Fin 2) = 10000)

section Region1
variable (V : (c : Dev nD) → (b : Ref sig .tc) → Buf (Elt F) ((c : Thread nD τ).loc b))

/-- Row a of the staged adjacency block of point t is row 1120·(t % 9) + a of the rounded copy, when that row lies
    inside the array. -/
theorem xA_apply (c : Dev nD) (t : Fin cfg1.N) (a : Fin 1120) (k : Fin 10000) (h : 1120 * (t.val % 9) + a.val < 10000) :
    xA V c t (ix2 a k) = V c main_v5_0 (ix2 (⟨1120 * (t.val % 9) + a.val, h⟩ : Fin 10000) k) := by
  obtain ⟨e0, e1, x0, x1⟩ := idx_rows1_0 t
  have hmoved : win1_0.moved (grid1.coords t) (ix2 a k) = true :=
    (win1_0.moved_iff (grid1.coords t) (ix2 a k)).mpr fun d => by
      match d with
      | ⟨0, _⟩ =>
        show a.val < win1_0.xsize (grid1.coords t) (0 : Fin 2)
        rw [x0]; have := a.isLt; omega
      | ⟨1, _⟩ =>
        show k.val < win1_0.xsize (grid1.coords t) (1 : Fin 2)
        rw [x1]; exact k.isLt
  unfold xA Pipeline.Window.fill
  rw [dif_pos hmoved]
  unfold iblk1
  rw [View.read_apply]
  show (V c main_v5_0 : S10000x10000.Idx → Elt F .bf16) _ = _
  congr 1
  funext d; apply Fin.ext
  match d with
  | ⟨0, _⟩ => show win1_0.index t (0 : Fin 2) * 1120 + 1 * a.val = 1120 * (t.val % 9) + a.val; rw [e0]; omega
  | ⟨1, _⟩ => show win1_0.index t (1 : Fin 2) * 10000 + 1 * k.val = k.val; rw [e1]; omega

/-- The second dense map's window has one block, the whole array: at the first point entry (k, h) of the block is that entry of the array. -/
theorem iblk1_1_apply (c : Dev nD) (k : Fin 10000) (h : Fin 128) :
    iblk1 V c 1 t1₀ (ix2 k h) = V c main_v5_1 (ix2 k h) := by
  show V c main_v5_1 (((cfg1.win 1).blk t1₀).view.emb (ix2 k h)) = V c main_v5_1 (ix2 k h)
  refine congrArg _ (funext fun a => Fin.ext ?_)
  match a with
  | ⟨0, _⟩ =>
    show win1_1.index t1₀ 0 * 10000 + 1 * k.val = k.val
    rw [show win1_1.index t1₀ 0 = 0 from by decide +kernel]; omega
  | ⟨1, _⟩ =>
    show win1_1.index t1₀ 1 * 128 + 1 * h.val = h.val
    rw [show win1_1.index t1₀ 1 = 0 from by decide +kernel]; omega

/-- The third weight array's window has one block, the whole array: at the first point entry (h, j) of the block is that entry of the array. -/
theorem iblk1_2_apply (c : Dev nD) (h j : Fin 128) :
    iblk1 V c 2 t1₀ (ix2 h j) = V c main_arg6 (ix2 h j) := by
  show V c main_arg6 (((cfg1.win 2).blk t1₀).view.emb (ix2 h j)) = V c main_arg6 (ix2 h j)
  refine congrArg _ (funext fun a => Fin.ext ?_)
  match a with
  | ⟨0, _⟩ =>
    show win1_2.index t1₀ 0 * 128 + 1 * h.val = h.val
    rw [show win1_2.index t1₀ 0 = 0 from by decide +kernel]; omega
  | ⟨1, _⟩ =>
    show win1_2.index t1₀ 1 * 128 + 1 * j.val = j.val
    rw [show win1_2.index t1₀ 1 = 0 from by decide +kernel]; omega

/-- The third bias row's window has one block, the whole array: at the first point entry (0, j) of the block is that entry of the array. -/
theorem iblk1_3_apply (c : Dev nD) (j : Fin 128) :
    iblk1 V c 3 t1₀ (ix2 (0 : Fin 1) j) = V c main_v2 (ix2 (0 : Fin 1) j) := by
  show V c main_v2 (((cfg1.win 3).blk t1₀).view.emb (ix2 (0 : Fin 1) j)) = V c main_v2 (ix2 (0 : Fin 1) j)
  refine congrArg _ (funext fun a => Fin.ext ?_)
  match a with
  | ⟨0, _⟩ =>
    show win1_3.index t1₀ 0 * 1 + 1 * (0 : Fin 1).val = (0 : Fin 1).val
    rw [show win1_3.index t1₀ 0 = 0 from by decide +kernel]; omega
  | ⟨1, _⟩ =>
    show win1_3.index t1₀ 1 * 128 + 1 * j.val = j.val
    rw [show win1_3.index t1₀ 1 = 0 from by decide +kernel]; omega

/-- The projection head's first weight array's window has one block, the whole array: at the first point entry (h, j) of the block is that entry of the array. -/
theorem iblk1_4_apply (c : Dev nD) (h j : Fin 128) :
    iblk1 V c 4 t1₀ (ix2 h j) = V c main_arg8 (ix2 h j) := by
  show V c main_arg8 (((cfg1.win 4).blk t1₀).view.emb (ix2 h j)) = V c main_arg8 (ix2 h j)
  refine congrArg _ (funext fun a => Fin.ext ?_)
  match a with
  | ⟨0, _⟩ =>
    show win1_4.index t1₀ 0 * 128 + 1 * h.val = h.val
    rw [show win1_4.index t1₀ 0 = 0 from by decide +kernel]; omega
  | ⟨1, _⟩ =>
    show win1_4.index t1₀ 1 * 128 + 1 * j.val = j.val
    rw [show win1_4.index t1₀ 1 = 0 from by decide +kernel]; omega

/-- The projection head's first bias row's window has one block, the whole array: at the first point entry (0, j) of the block is that entry of the array. -/
theorem iblk1_5_apply (c : Dev nD) (j : Fin 128) :
    iblk1 V c 5 t1₀ (ix2 (0 : Fin 1) j) = V c main_v3 (ix2 (0 : Fin 1) j) := by
  show V c main_v3 (((cfg1.win 5).blk t1₀).view.emb (ix2 (0 : Fin 1) j)) = V c main_v3 (ix2 (0 : Fin 1) j)
  refine congrArg _ (funext fun a => Fin.ext ?_)
  match a with
  | ⟨0, _⟩ =>
    show win1_5.index t1₀ 0 * 1 + 1 * (0 : Fin 1).val = (0 : Fin 1).val
    rw [show win1_5.index t1₀ 0 = 0 from by decide +kernel]; omega
  | ⟨1, _⟩ =>
    show win1_5.index t1₀ 1 * 128 + 1 * j.val = j.val
    rw [show win1_5.index t1₀ 1 = 0 from by decide +kernel]; omega

/-- The projection head's second weight array's window has one block, the whole array: at the first point entry (h, j) of the block is that entry of the array. -/
theorem iblk1_6_apply (c : Dev nD) (h j : Fin 128) :
    iblk1 V c 6 t1₀ (ix2 h j) = V c main_arg10 (ix2 h j) := by
  show V c main_arg10 (((cfg1.win 6).blk t1₀).view.emb (ix2 h j)) = V c main_arg10 (ix2 h j)
  refine congrArg _ (funext fun a => Fin.ext ?_)
  match a with
  | ⟨0, _⟩ =>
    show win1_6.index t1₀ 0 * 128 + 1 * h.val = h.val
    rw [show win1_6.index t1₀ 0 = 0 from by decide +kernel]; omega
  | ⟨1, _⟩ =>
    show win1_6.index t1₀ 1 * 128 + 1 * j.val = j.val
    rw [show win1_6.index t1₀ 1 = 0 from by decide +kernel]; omega

/-- The projection head's second bias row's window has one block, the whole array: at the first point entry (0, j) of the block is that entry of the array. -/
theorem iblk1_7_apply (c : Dev nD) (j : Fin 128) :
    iblk1 V c 7 t1₀ (ix2 (0 : Fin 1) j) = V c main_v4 (ix2 (0 : Fin 1) j) := by
  show V c main_v4 (((cfg1.win 7).blk t1₀).view.emb (ix2 (0 : Fin 1) j)) = V c main_v4 (ix2 (0 : Fin 1) j)
  refine congrArg _ (funext fun a => Fin.ext ?_)
  match a with
  | ⟨0, _⟩ =>
    show win1_7.index t1₀ 0 * 1 + 1 * (0 : Fin 1).val = (0 : Fin 1).val
    rw [show win1_7.index t1₀ 0 = 0 from by decide +kernel]; omega
  | ⟨1, _⟩ =>
    show win1_7.index t1₀ 1 * 128 + 1 * j.val = j.val
    rw [show win1_7.index t1₀ 1 = 0 from by decide +kernel]; omega

end Region1

end Cert.KernelIdeal.Hand

end
-- ==== Proof.Final1b.lean ====
/- Region 1's second result array when the region is left, read at an index.

   The region sweeps the 10000 rows twice in 9 blocks of 1120 rows (points `t = 9·l + i`, `l` the sweep, `i` the block).
   The result windows are written back on the second sweep only: point `t ≥ 9` writes block `t - 9`, and at the
   last point, whose block reaches 80 rows past the array's end, only the 1040 rows inside the array. These cut blocks
   tile the 10000 rows, so after the last point entry `(r, j)` of the result array is entry `(r % 1120, j)` of what point
   `9 + r / 1120` left in the window's buffer. Stated at the entry contents `V`, for any float instance and whatever
   is known of the scratch. -/
import proofs.«176009_g27539330302398_cont_9to1_2132_15_alg».proof.Proof.Region1
import proofs.«176009_g27539330302398_cont_9to1_2132_15_alg».proof.Proof.FinalIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Region1
variable (V : (c : Dev nD) → (b : Ref sig .tc) → Buf (Elt F) ((c : Thread nD τ).loc b))

/-! ## Result window 9: `main_v6_1` after the write-backs of the second sweep -/

/-- What the body leaves in window 9's buffer (the proof data's `match` reduced). -/
theorem aft1_9 (P : Dev nD → ℕ → Vec F S10080x128 .bf16 → Prop) (c : Dev nD) (t : Fin cfg1.N) :
    (dat1 V P c).after 9 t = k1_pay3 (xA V c t) (G3 V c) (iblk1 V c 4 t1₀) (iblk1 V c 5 t1₀) (iblk1 V c 6 t1₀) (iblk1 V c 7 t1₀) := by
  dsimp only [dat1]

/-- The window is written back only on the second sweep (decided over the 18 points). -/
theorem late1_9 : ∀ t : Fin cfg1.N, (cfg1.win 9).flush t = true → 9 ≤ t.val :=
  (by decide +kernel : ∀ t : Fin grid1.N, win1_9.flush t = true → 9 ≤ t.val)

/-- On the second sweep point `t` writes back block `t - 9` of 1120 rows, cut to 1040 rows at the last point, where the
    block reaches past row 10000; all 128 columns (decided over the 18 points). -/
theorem facts1_9 : ∀ t : Fin cfg1.N, 9 ≤ t.val →
    (cfg1.win 9).flush t = true ∧ win1_9.index t (0 : Fin 2) = t.val - 9 ∧ win1_9.index t (1 : Fin 2) = 0
    ∧ (t.val ≠ 17 → win1_9.xsize (grid1.coords t) (0 : Fin 2) = 1120) ∧ (t.val = 17 → win1_9.xsize (grid1.coords t) (0 : Fin 2) = 1040)
    ∧ win1_9.xsize (grid1.coords t) (1 : Fin 2) = 128 :=
  (by decide +kernel : ∀ t : Fin grid1.N, 9 ≤ t.val →
    win1_9.flush t = true ∧ win1_9.index t (0 : Fin 2) = t.val - 9 ∧ win1_9.index t (1 : Fin 2) = 0
    ∧ (t.val ≠ 17 → win1_9.xsize (grid1.coords t) (0 : Fin 2) = 1120) ∧ (t.val = 17 → win1_9.xsize (grid1.coords t) (0 : Fin 2) = 1040)
    ∧ win1_9.xsize (grid1.coords t) (1 : Fin 2) = 128)

/-- Entry `(r, j)` of the second result (the projection head's output) as the write-backs assemble it: entry `(r % 1120, j)` of what point `9 + r / 1120` leaves in window 9. -/
def He1_9 (c : Dev nD) (r : Fin 10000) (j : Fin 128) : Elt F .f32 :=
  k1_pay3 (xA V c (pt1 r)) (G3 V c) (iblk1 V c 4 t1₀) (iblk1 V c 5 t1₀) (iblk1 V c 6 t1₀) (iblk1 V c 7 t1₀) (ix2 (rw1 r) j)

/-- The same as one array. -/
def Hv1_9 (c : Dev nD) : Vec F S10000x128 .f32 := fun i => He1_9 V c (i 0) (i 1)

/-- Entry `(r, j)` with `r = 1120·(t - 9) + y₀`, `y₀ < 1120`, is entry `y` of what point `t` of the second sweep leaves:
    `9 + r / 1120 = t` and `r % 1120 = y₀`. -/
theorem He_at1_9 (c : Dev nD) (t : Fin cfg1.N) (h9 : 9 ≤ t.val) (y : S1120x128.Idx) (r : Fin 10000) (j : Fin 128)
    (h0 : r.val = 1120 * (t.val - 9) + (y 0).val) (h1 : j.val = (y 1).val) :
    He1_9 V c r j = k1_pay3 (xA V c t) (G3 V c) (iblk1 V c 4 t1₀) (iblk1 V c 5 t1₀) (iblk1 V c 6 t1₀) (iblk1 V c 7 t1₀) y := by
  have hy : (y 0).val < 1120 := idx2_lt0 y
  have ht : pt1 r = t := Fin.ext (by show 9 + r.val / 1120 = t.val; omega)
  have hx : (ix2 (rw1 r) j : S1120x128.Idx) = y := by
    funext d
    match d with
    | ⟨0, _⟩ => exact Fin.ext (by show r.val % 1120 = (y 0).val; omega)
    | ⟨1, _⟩ => exact Fin.ext h1
  unfold He1_9
  rw [ht, hx]

/-- What a point of the second sweep writes back — the rows of its buffer that lie inside the array — is its block of
    `Hv1_9`: the buffer's row `y₀` goes to the array's row `1120·(t - 9) + y₀`. -/
theorem flushed1_9_eq (P : Dev nD → ℕ → Vec F S10080x128 .bf16 → Prop) (c : Dev nD) (t : Fin cfg1.N)
    (hf : (cfg1.win 9).flush t = true) :
    (dat1 V P c).flushed 9 t = ((cfg1.win 9).blk t).view.read (Elt F) (Hv1_9 V c) := by
  have h9 : 9 ≤ t.val := late1_9 t hf
  obtain ⟨-, e0, e1, -, -, -⟩ := facts1_9 t h9
  show (cfg1.win 9).cut (grid1.coords t) ((dat1 V P c).after 9 t) = _
  rw [aft1_9]
  funext y
  rw [View.read_apply]
  show k1_pay3 (xA V c t) (G3 V c) (iblk1 V c 4 t1₀) (iblk1 V c 5 t1₀) (iblk1 V c 6 t1₀) (iblk1 V c 7 t1₀) (win1_9.xinj (grid1.coords t) y)
    = He1_9 V c (((cfg1.win 9).blk t).view.emb y 0) (((cfg1.win 9).blk t).view.emb y 1)
  refine (He_at1_9 V c t h9 (win1_9.xinj (grid1.coords t) y) _ _ ?_ ?_).symm
  · show win1_9.index t (0 : Fin 2) * 1120 + 1 * (y 0).val = 1120 * (t.val - 9) + (y 0).val; rw [e0]; omega
  · show win1_9.index t (1 : Fin 2) * 128 + 1 * (y 1).val = (y 1).val; rw [e1]; omega

/-- An index of the array is in point `t`'s (cut) block iff each coordinate is in the block's range on its axis. -/
theorem mem_blk1_9 (t : Fin cfg1.N) (i : S10000x128.Idx) :
    i ∈ ((cfg1.win 9).blk t).view.set ↔ ∀ a : Fin 2, win1_9.index t a * S1120x128.size a ≤ (i a).val ∧ (i a).val < win1_9.index t a * S1120x128.size a + win1_9.xsize (grid1.coords t) a := by
  show i ∈ ((View.whole main_v6_1).slice (win1_9.rect t)).set ↔ _
  rw [View.set_slice_whole, Rect.mem_set_unit]
  exact Iff.rfl

/-- Row `r` lies in the block of point `9 + r / 1120`: inside its first 1120 rows, and at the last point inside the
    1040 that remain below row 10000. -/
theorem mem_blk1_9_of (t : Fin cfg1.N) (h9 : 9 ≤ t.val) (i : S10000x128.Idx) (h : 9 + (i 0).val / 1120 = t.val) :
    i ∈ ((cfg1.win 9).blk t).view.set := by
  have hi0 : (i 0).val < 10000 := idx2_lt0 i
  have hi1 : (i 1).val < 128 := idx2_lt1 i
  obtain ⟨-, e0, e1, xa, xb, x1⟩ := facts1_9 t h9
  rw [mem_blk1_9]
  intro a
  match a with
  | ⟨0, _⟩ =>
    show win1_9.index t (0 : Fin 2) * 1120 ≤ (i 0).val ∧ (i 0).val < win1_9.index t (0 : Fin 2) * 1120 + win1_9.xsize (grid1.coords t) (0 : Fin 2)
    rw [e0]
    by_cases h17 : t.val = 17
    · rw [xb h17]; omega
    · rw [xa h17]; omega
  | ⟨1, _⟩ =>
    show win1_9.index t (1 : Fin 2) * 128 ≤ (i 1).val ∧ (i 1).val < win1_9.index t (1 : Fin 2) * 128 + win1_9.xsize (grid1.coords t) (1 : Fin 2)
    rw [e1, x1]; omega

/-- The nine blocks of the second sweep cover the 10000 rows. -/
theorem cover1_9 (i : S10000x128.Idx) :
    ∃ t : Fin cfg1.N, (cfg1.win 9).flush t = true ∧ i ∈ ((cfg1.win 9).blk t).view.set := by
  have h9 : 9 ≤ (pt1 (i 0)).val := by show 9 ≤ 9 + (i 0).val / 1120; omega
  exact ⟨pt1 (i 0), (facts1_9 _ h9).1, mem_blk1_9_of _ h9 i rfl⟩

/-- So `main_v6_1` ends holding `Hv1_9`. -/
theorem final1_9_arr (P : Dev nD → ℕ → Vec F S10080x128 .bf16 → Prop) (c : Dev nD) :
    (dat1 V P c).arrAt 9 cfg1.N = Hv1_9 V c :=
  (dat1 V P c).arrAt_eq_of_cover 9 (Hv1_9 V c) (fun t hf => flushed1_9_eq V P c t hf) cover1_9

/-- `main_v6_1` after the region, at an index. -/
theorem final1_9 (P : Dev nD → ℕ → Vec F S10080x128 .bf16 → Prop) (c : Dev nD) (r : Fin 10000) (j : Fin 128) :
    (dat1 V P c).arrAt 9 cfg1.N (ix2 r j)
      = k1_pay3 (xA V c (pt1 r)) (G3 V c) (iblk1 V c 4 t1₀) (iblk1 V c 5 t1₀) (iblk1 V c 6 t1₀) (iblk1 V c 7 t1₀)
          (ix2 (rw1 r) j) := by
  rw [final1_9_arr]
  rfl

end Region1

end Cert.KernelIdeal.Hand

end
-- ==== Proof.Final1.lean ====
/- Region 1's first result array when the region is left, read at an index.

   The region sweeps the 10000 rows twice in 9 blocks of 1120 rows (points `t = 9·l + i`, `l` the sweep, `i` the block).
   The result windows are written back on the second sweep only: point `t ≥ 9` writes block `t - 9`, and at the
   last point, whose block reaches 80 rows past the array's end, only the 1040 rows inside the array. These cut blocks
   tile the 10000 rows, so after the last point entry `(r, j)` of the result array is entry `(r % 1120, j)` of what point
   `9 + r / 1120` left in the window's buffer. Stated at the entry contents `V`, for any float instance and whatever
   is known of the scratch. -/
import proofs.«176009_g27539330302398_cont_9to1_2132_15_alg».proof.Proof.Region1
import proofs.«176009_g27539330302398_cont_9to1_2132_15_alg».proof.Proof.FinalIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Region1
variable (V : (c : Dev nD) → (b : Ref sig .tc) → Buf (Elt F) ((c : Thread nD τ).loc b))

/-! ## Result window 8: `main_v6_0` after the write-backs of the second sweep -/

/-- What the body leaves in window 8's buffer (the proof data's `match` reduced). -/
theorem aft1_8 (P : Dev nD → ℕ → Vec F S10080x128 .bf16 → Prop) (c : Dev nD) (t : Fin cfg1.N) :
    (dat1 V P c).after 8 t = k1_pay2 (xA V c t) (G3 V c) := by
  dsimp only [dat1]

/-- The window is written back only on the second sweep (decided over the 18 points). -/
theorem late1_8 : ∀ t : Fin cfg1.N, (cfg1.win 8).flush t = true → 9 ≤ t.val :=
  (by decide +kernel : ∀ t : Fin grid1.N, win1_8.flush t = true → 9 ≤ t.val)

/-- On the second sweep point `t` writes back block `t - 9` of 1120 rows, cut to 1040 rows at the last point, where the
    block reaches past row 10000; all 128 columns (decided over the 18 points). -/
theorem facts1_8 : ∀ t : Fin cfg1.N, 9 ≤ t.val →
    (cfg1.win 8).flush t = true ∧ win1_8.index t (0 : Fin 2) = t.val - 9 ∧ win1_8.index t (1 : Fin 2) = 0
    ∧ (t.val ≠ 17 → win1_8.xsize (grid1.coords t) (0 : Fin 2) = 1120) ∧ (t.val = 17 → win1_8.xsize (grid1.coords t) (0 : Fin 2) = 1040)
    ∧ win1_8.xsize (grid1.coords t) (1 : Fin 2) = 128 :=
  (by decide +kernel : ∀ t : Fin grid1.N, 9 ≤ t.val →
    win1_8.flush t = true ∧ win1_8.index t (0 : Fin 2) = t.val - 9 ∧ win1_8.index t (1 : Fin 2) = 0
    ∧ (t.val ≠ 17 → win1_8.xsize (grid1.coords t) (0 : Fin 2) = 1120) ∧ (t.val = 17 → win1_8.xsize (grid1.coords t) (0 : Fin 2) = 1040)
    ∧ win1_8.xsize (grid1.coords t) (1 : Fin 2) = 128)

/-- Entry `(r, j)` of the first result (the embedding `A·G3`) as the write-backs assemble it: entry `(r % 1120, j)` of what point `9 + r / 1120` leaves in window 8. -/
def He1_8 (c : Dev nD) (r : Fin 10000) (j : Fin 128) : Elt F .f32 :=
  k1_pay2 (xA V c (pt1 r)) (G3 V c) (ix2 (rw1 r) j)

/-- The same as one array. -/
def Hv1_8 (c : Dev nD) : Vec F S10000x128 .f32 := fun i => He1_8 V c (i 0) (i 1)

/-- Entry `(r, j)` with `r = 1120·(t - 9) + y₀`, `y₀ < 1120`, is entry `y` of what point `t` of the second sweep leaves:
    `9 + r / 1120 = t` and `r % 1120 = y₀`. -/
theorem He_at1_8 (c : Dev nD) (t : Fin cfg1.N) (h9 : 9 ≤ t.val) (y : S1120x128.Idx) (r : Fin 10000) (j : Fin 128)
    (h0 : r.val = 1120 * (t.val - 9) + (y 0).val) (h1 : j.val = (y 1).val) :
    He1_8 V c r j = k1_pay2 (xA V c t) (G3 V c) y := by
  have hy : (y 0).val < 1120 := idx2_lt0 y
  have ht : pt1 r = t := Fin.ext (by show 9 + r.val / 1120 = t.val; omega)
  have hx : (ix2 (rw1 r) j : S1120x128.Idx) = y := by
    funext d
    match d with
    | ⟨0, _⟩ => exact Fin.ext (by show r.val % 1120 = (y 0).val; omega)
    | ⟨1, _⟩ => exact Fin.ext h1
  unfold He1_8
  rw [ht, hx]

/-- What a point of the second sweep writes back — the rows of its buffer that lie inside the array — is its block of
    `Hv1_8`: the buffer's row `y₀` goes to the array's row `1120·(t - 9) + y₀`. -/
theorem flushed1_8_eq (P : Dev nD → ℕ → Vec F S10080x128 .bf16 → Prop) (c : Dev nD) (t : Fin cfg1.N)
    (hf : (cfg1.win 8).flush t = true) :
    (dat1 V P c).flushed 8 t = ((cfg1.win 8).blk t).view.read (Elt F) (Hv1_8 V c) := by
  have h9 : 9 ≤ t.val := late1_8 t hf
  obtain ⟨-, e0, e1, -, -, -⟩ := facts1_8 t h9
  show (cfg1.win 8).cut (grid1.coords t) ((dat1 V P c).after 8 t) = _
  rw [aft1_8]
  funext y
  rw [View.read_apply]
  show k1_pay2 (xA V c t) (G3 V c) (win1_8.xinj (grid1.coords t) y)
    = He1_8 V c (((cfg1.win 8).blk t).view.emb y 0) (((cfg1.win 8).blk t).view.emb y 1)
  refine (He_at1_8 V c t h9 (win1_8.xinj (grid1.coords t) y) _ _ ?_ ?_).symm
  · show win1_8.index t (0 : Fin 2) * 1120 + 1 * (y 0).val = 1120 * (t.val - 9) + (y 0).val; rw [e0]; omega
  · show win1_8.index t (1 : Fin 2) * 128 + 1 * (y 1).val = (y 1).val; rw [e1]; omega

/-- An index of the array is in point `t`'s (cut) block iff each coordinate is in the block's range on its axis. -/
theorem mem_blk1_8 (t : Fin cfg1.N) (i : S10000x128.Idx) :
    i ∈ ((cfg1.win 8).blk t).view.set ↔ ∀ a : Fin 2, win1_8.index t a * S1120x128.size a ≤ (i a).val ∧ (i a).val < win1_8.index t a * S1120x128.size a + win1_8.xsize (grid1.coords t) a := by
  show i ∈ ((View.whole main_v6_0).slice (win1_8.rect t)).set ↔ _
  rw [View.set_slice_whole, Rect.mem_set_unit]
  exact Iff.rfl

/-- Row `r` lies in the block of point `9 + r / 1120`: inside its first 1120 rows, and at the last point inside the
    1040 that remain below row 10000. -/
theorem mem_blk1_8_of (t : Fin cfg1.N) (h9 : 9 ≤ t.val) (i : S10000x128.Idx) (h : 9 + (i 0).val / 1120 = t.val) :
    i ∈ ((cfg1.win 8).blk t).view.set := by
  have hi0 : (i 0).val < 10000 := idx2_lt0 i
  have hi1 : (i 1).val < 128 := idx2_lt1 i
  obtain ⟨-, e0, e1, xa, xb, x1⟩ := facts1_8 t h9
  rw [mem_blk1_8]
  intro a
  match a with
  | ⟨0, _⟩ =>
    show win1_8.index t (0 : Fin 2) * 1120 ≤ (i 0).val ∧ (i 0).val < win1_8.index t (0 : Fin 2) * 1120 + win1_8.xsize (grid1.coords t) (0 : Fin 2)
    rw [e0]
    by_cases h17 : t.val = 17
    · rw [xb h17]; omega
    · rw [xa h17]; omega
  | ⟨1, _⟩ =>
    show win1_8.index t (1 : Fin 2) * 128 ≤ (i 1).val ∧ (i 1).val < win1_8.index t (1 : Fin 2) * 128 + win1_8.xsize (grid1.coords t) (1 : Fin 2)
    rw [e1, x1]; omega

/-- The nine blocks of the second sweep cover the 10000 rows. -/
theorem cover1_8 (i : S10000x128.Idx) :
    ∃ t : Fin cfg1.N, (cfg1.win 8).flush t = true ∧ i ∈ ((cfg1.win 8).blk t).view.set := by
  have h9 : 9 ≤ (pt1 (i 0)).val := by show 9 ≤ 9 + (i 0).val / 1120; omega
  exact ⟨pt1 (i 0), (facts1_8 _ h9).1, mem_blk1_8_of _ h9 i rfl⟩

/-- So `main_v6_0` ends holding `Hv1_8`. -/
theorem final1_8_arr (P : Dev nD → ℕ → Vec F S10080x128 .bf16 → Prop) (c : Dev nD) :
    (dat1 V P c).arrAt 8 cfg1.N = Hv1_8 V c :=
  (dat1 V P c).arrAt_eq_of_cover 8 (Hv1_8 V c) (fun t hf => flushed1_8_eq V P c t hf) cover1_8

/-- `main_v6_0` after the region, at an index. -/
theorem final1_8 (P : Dev nD → ℕ → Vec F S10080x128 .bf16 → Prop) (c : Dev nD) (r : Fin 10000) (j : Fin 128) :
    (dat1 V P c).arrAt 8 cfg1.N (ix2 r j)
      = k1_pay2 (xA V c (pt1 r)) (G3 V c)
          (ix2 (rw1 r) j) := by
  rw [final1_8_arr]
  rfl

end Region1

end Cert.KernelIdeal.Hand

end
-- ==== Proof.Bridge.lean ====
/-
  The kernel bodies' stored values are rows of the specification's stages.

  Each body works on a block of rows of the adjacency.  If row a of the block is row r of the adjacency, the stage the
  body reads is the specification's stage, the weights are the specification's weights and the bias row holds the bias
  vector, then row a of what the body stores is row r of the next stage:

    first body, once:          the features against W1 and b1 give G1;
    first body, every point:   the adjacency rows against G1, rectified, against W2 and b2 give G2;
    second body, first pass:   the adjacency rows against G2, rectified, against W3 and b3 give G3;
    second body, second pass:  the adjacency rows against G3 give the embedding, and the embedding's row through the
                               projection head gives the projection.

  Only row a of the block is asked about, so a block that overhangs the array may hold anything in its other rows.
-/
import proofs.«176009_g27539330302398_cont_9to1_2132_15_alg».proof.Proof.PayIdeal
import proofs.«176009_g27539330302398_cont_9to1_2132_15_alg».proof.Proof.Spec

noncomputable section

namespace Cert.KernelIdeal.Bridge

open Idealize.ShloMosaic Idealize.ShloMosaic.ValueIdx Cert.KernelIdeal Cert.KernelIdeal.Gen Cert.KernelIdeal.PayIdeal Cert.Spec

variable (x : Mat 10000 128) (Adj : Mat 10000 10000) (W1 : Mat 128 128) (b1 : Row 128) (W2 : Mat 128 128) (b2 : Row 128)
  (W3 : Mat 128 128) (b3 : Row 128) (Wp1 : Mat 128 128) (bp1 : Row 128) (Wp2 : Mat 128 128) (bp2 : Row 128)

/-- The dense map the first body computes once is G1. -/
theorem pay_G1 (v20 : Vec Ideal S10000x128 .f32) (v22 : Vec Ideal S128x128 .f32) (v25 : Vec Ideal S1x128 .f32)
    (hx : ∀ (r : Fin 10000) (k : Fin 128), v20 (ix2 r k) = x (ix2 r k))
    (hW : ∀ (k j : Fin 128), v22 (ix2 k j) = W1 (ix2 k j))
    (hb : ∀ j : Fin 128, v25 (ix2 (0 : Fin 1) j) = b1 (ix1 j)) (r : Fin 10000) (j : Fin 128) :
    k0_pay1 (F := Ideal) v20 v22 v25 (ix2 r j) = G1 x W1 b1 (ix2 r j) := by
  rw [k0_pay1_apply, G1_apply]
  simp only [hx, hW, hb]

/-- Row a of what the first body stores at a point is row r of G2, when row a of its adjacency block is row r. -/
theorem pay_G2 (v3 : Vec Ideal S400x10000 .f32) (v6 : Vec Ideal S10000x128 .bf16) (v11 : Vec Ideal S128x128 .f32)
    (v14 : Vec Ideal S1x128 .f32) (a : Fin 400) (r : Fin 10000)
    (hA : ∀ k : Fin 10000, v3 (ix2 a k) = Adj (ix2 r k))
    (hG : ∀ (k : Fin 10000) (h : Fin 128), v6 (ix2 k h) = G1 x W1 b1 (ix2 k h))
    (hW : ∀ (h j : Fin 128), v11 (ix2 h j) = W2 (ix2 h j))
    (hb : ∀ j : Fin 128, v14 (ix2 (0 : Fin 1) j) = b2 (ix1 j)) (j : Fin 128) :
    k0_pay3 (F := Ideal) v3 v6 v11 v14 (ix2 a j) = G2 x Adj W1 b1 W2 b2 (ix2 r j) := by
  rw [k0_pay3_apply, G2_apply]
  simp only [hA, hG, hW, hb]

/-- Row a of what the second body stores in its first pass is row r of G3. -/
theorem pay_G3 (v6 : Vec Ideal S1120x10000 .bf16) (v8 : Vec Ideal S10000x128 .bf16) (v14 : Vec Ideal S128x128 .f32)
    (v17 : Vec Ideal S1x128 .f32) (a : Fin 1120) (r : Fin 10000)
    (hA : ∀ k : Fin 10000, v6 (ix2 a k) = Adj (ix2 r k))
    (hG : ∀ (k : Fin 10000) (h : Fin 128), v8 (ix2 k h) = G2 x Adj W1 b1 W2 b2 (ix2 k h))
    (hW : ∀ (h j : Fin 128), v14 (ix2 h j) = W3 (ix2 h j))
    (hb : ∀ j : Fin 128, v17 (ix2 (0 : Fin 1) j) = b3 (ix1 j)) (j : Fin 128) :
    k1_pay1 (F := Ideal) v6 v8 v14 v17 (ix2 a j) = G3 x Adj W1 b1 W2 b2 W3 b3 (ix2 r j) := by
  rw [k1_pay1_apply, G3_apply]
  simp only [hA, hG, hW, hb]

/-- Row a of the embedding block the second body stores in its second pass is row r of the embedding. -/
theorem pay_emb (v6 : Vec Ideal S1120x10000 .bf16) (v8 : Vec Ideal S10000x128 .bf16) (a : Fin 1120) (r : Fin 10000)
    (hA : ∀ k : Fin 10000, v6 (ix2 a k) = Adj (ix2 r k))
    (hG : ∀ (k : Fin 10000) (h : Fin 128), v8 (ix2 k h) = G3 x Adj W1 b1 W2 b2 W3 b3 (ix2 k h)) (j : Fin 128) :
    k1_pay2 (F := Ideal) v6 v8 (ix2 a j) = emb x Adj W1 b1 W2 b2 W3 b3 (ix2 r j) := by
  rw [k1_pay2_apply, emb_apply]
  simp only [hA, hG]

/-- Row a of the projection block the second body stores in its second pass is row r of the projection. -/
theorem pay_z (v6 : Vec Ideal S1120x10000 .bf16) (v8 : Vec Ideal S10000x128 .bf16) (v12 : Vec Ideal S128x128 .f32)
    (v15 : Vec Ideal S1x128 .f32) (v22 : Vec Ideal S128x128 .f32) (v25 : Vec Ideal S1x128 .f32) (a : Fin 1120) (r : Fin 10000)
    (hA : ∀ k : Fin 10000, v6 (ix2 a k) = Adj (ix2 r k))
    (hG : ∀ (k : Fin 10000) (h : Fin 128), v8 (ix2 k h) = G3 x Adj W1 b1 W2 b2 W3 b3 (ix2 k h))
    (hW1 : ∀ (g h : Fin 128), v12 (ix2 g h) = Wp1 (ix2 g h))
    (hb1 : ∀ h : Fin 128, v15 (ix2 (0 : Fin 1) h) = bp1 (ix1 h))
    (hW2 : ∀ (h j : Fin 128), v22 (ix2 h j) = Wp2 (ix2 h j))
    (hb2 : ∀ j : Fin 128, v25 (ix2 (0 : Fin 1) j) = bp2 (ix1 j)) (j : Fin 128) :
    k1_pay3 (F := Ideal) v6 v8 v12 v15 v22 v25 (ix2 a j) = z x Adj W1 b1 W2 b2 W3 b3 Wp1 bp1 Wp2 bp2 (ix2 r j) := by
  rw [k1_pay3_apply, z_apply]
  simp only [hA, hG, hW1, hb1, hW2, hb2]

end Cert.KernelIdeal.Bridge

end
-- ==== Proof.KernelValue.lean ====
/-
  The kernel's two result arrays are the specification's embedding and projection of the launch arguments.

  The bias vectors reach the regions as rows [1, 128]: a host reshape, whose entry (0, j) is the vector's entry j.  The
  first region finds its other arrays as launched, and leaves the rounded copy of the adjacency — the adjacency itself
  on the extended reals — and the second dense map G2, because its scratch holds the first dense map G1.  The second
  region finds those two arrays, the remaining weights as launched and the remaining bias rows; its first pass fills
  its scratch with the third dense map G3, row by row, from the blocks of the copy — every row inside the array is a
  row of the adjacency, whatever an overhanging block holds below — and its second pass stores the embedding and the
  projection of each row.
-/
import proofs.«176009_g27539330302398_cont_9to1_2132_15_alg».proof.Proof.Run
import proofs.«176009_g27539330302398_cont_9to1_2132_15_alg».proof.Proof.Final0
import proofs.«176009_g27539330302398_cont_9to1_2132_15_alg».proof.Proof.Final1a
import proofs.«176009_g27539330302398_cont_9to1_2132_15_alg».proof.Proof.Final1b
import proofs.«176009_g27539330302398_cont_9to1_2132_15_alg».proof.Proof.Final1
import proofs.«176009_g27539330302398_cont_9to1_2132_15_alg».proof.Proof.Bridge
import proofs.«176009_g27539330302398_cont_9to1_2132_15_alg».proof.Proof.LibBiasRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The host reshapes and the arguments at the first region's entry -/

/-- The first bias row at the first region's entry: entry (0, j) is the bias vector's entry j. -/
theorem V1_main_v0 (c : Dev nD) (j : Fin 128) :
    V1 m ρ c main_v0 (ix2 (0 : Fin 1) j) = m ((c : Thread nD τ).loc main_arg3) (ix1 j) := by
  show StableHlo.after hostOps0 (W0 m ρ c) (Proc.devRef .tc main_v0) (ix2 (0 : Fin 1) j) = _
  after_results
  exact Cert.LibBiasRows.row_of_vector (d := 128) _ _ j

/-- The second bias row. -/
theorem V1_main_v1 (c : Dev nD) (j : Fin 128) :
    V1 m ρ c main_v1 (ix2 (0 : Fin 1) j) = m ((c : Thread nD τ).loc main_arg5) (ix1 j) := by
  show StableHlo.after hostOps0 (W0 m ρ c) (Proc.devRef .tc main_v1) (ix2 (0 : Fin 1) j) = _
  after_results
  exact Cert.LibBiasRows.row_of_vector (d := 128) _ _ j

/-- The third bias row. -/
theorem V1_main_v2 (c : Dev nD) (j : Fin 128) :
    V1 m ρ c main_v2 (ix2 (0 : Fin 1) j) = m ((c : Thread nD τ).loc main_arg7) (ix1 j) := by
  show StableHlo.after hostOps0 (W0 m ρ c) (Proc.devRef .tc main_v2) (ix2 (0 : Fin 1) j) = _
  after_results
  exact Cert.LibBiasRows.row_of_vector (d := 128) _ _ j

/-- The projection head's first bias row. -/
theorem V1_main_v3 (c : Dev nD) (j : Fin 128) :
    V1 m ρ c main_v3 (ix2 (0 : Fin 1) j) = m ((c : Thread nD τ).loc main_arg9) (ix1 j) := by
  show StableHlo.after hostOps0 (W0 m ρ c) (Proc.devRef .tc main_v3) (ix2 (0 : Fin 1) j) = _
  after_results
  exact Cert.LibBiasRows.row_of_vector (d := 128) _ _ j

/-- The projection head's second bias row. -/
theorem V1_main_v4 (c : Dev nD) (j : Fin 128) :
    V1 m ρ c main_v4 (ix2 (0 : Fin 1) j) = m ((c : Thread nD τ).loc main_arg11) (ix1 j) := by
  show StableHlo.after hostOps0 (W0 m ρ c) (Proc.devRef .tc main_v4) (ix2 (0 : Fin 1) j) = _
  after_results
  exact Cert.LibBiasRows.row_of_vector (d := 128) _ _ j

/-! The arrays no host operation writes are at the first region's entry as launched. -/

theorem V1_main_arg0 (c : Dev nD) : V1 m ρ c main_arg0 = m ((c : Thread nD τ).loc main_arg0) := by
  show StableHlo.after hostOps0 (W0 m ρ c) (Proc.devRef .tc main_arg0) = _
  after_results <;> rfl

theorem V1_main_arg1 (c : Dev nD) : V1 m ρ c main_arg1 = m ((c : Thread nD τ).loc main_arg1) := by
  show StableHlo.after hostOps0 (W0 m ρ c) (Proc.devRef .tc main_arg1) = _
  after_results <;> rfl

theorem V1_main_arg2 (c : Dev nD) : V1 m ρ c main_arg2 = m ((c : Thread nD τ).loc main_arg2) := by
  show StableHlo.after hostOps0 (W0 m ρ c) (Proc.devRef .tc main_arg2) = _
  after_results <;> rfl

theorem V1_main_arg4 (c : Dev nD) : V1 m ρ c main_arg4 = m ((c : Thread nD τ).loc main_arg4) := by
  show StableHlo.after hostOps0 (W0 m ρ c) (Proc.devRef .tc main_arg4) = _
  after_results <;> rfl

/-! The bias rows the second region stages are no array of the first region: it finds them as the host left them. -/

/-- The third bias row at the second region's entry. -/
theorem V2_main_v2 (c : Dev nD) (j : Fin 128) :
    V2 m ρ c main_v2 (ix2 (0 : Fin 1) j) = m ((c : Thread nD τ).loc main_arg7) (ix1 j) := by
  rw [show V2 m ρ c main_v2 = V1 m ρ c main_v2 from W2_of_ne m ρ c main_v2 (by decide)]
  exact V1_main_v2 m ρ c j

/-- The projection head's first bias row at the second region's entry. -/
theorem V2_main_v3 (c : Dev nD) (j : Fin 128) :
    V2 m ρ c main_v3 (ix2 (0 : Fin 1) j) = m ((c : Thread nD τ).loc main_arg9) (ix1 j) := by
  rw [show V2 m ρ c main_v3 = V1 m ρ c main_v3 from W2_of_ne m ρ c main_v3 (by decide)]
  exact V1_main_v3 m ρ c j

/-- The projection head's second bias row at the second region's entry. -/
theorem V2_main_v4 (c : Dev nD) (j : Fin 128) :
    V2 m ρ c main_v4 (ix2 (0 : Fin 1) j) = m ((c : Thread nD τ).loc main_arg11) (ix1 j) := by
  rw [show V2 m ρ c main_v4 = V1 m ρ c main_v4 from W2_of_ne m ρ c main_v4 (by decide)]
  exact V1_main_v4 m ρ c j

/-! ## The first region -/

/-- The scratch of the first region holds the specification's first dense map. -/
theorem G1_value (c : Dev nD) (k : Fin 10000) (h : Fin 128) :
    G1 (V1 m ρ) c (ix2 k h) = Cert.Spec.G1 (m ((c : Thread nD τ).loc main_arg0)) (m ((c : Thread nD τ).loc main_arg2)) (m ((c : Thread nD τ).loc main_arg3)) (ix2 k h) :=
  Bridge.pay_G1 (m ((c : Thread nD τ).loc main_arg0)) (m ((c : Thread nD τ).loc main_arg2)) (m ((c : Thread nD τ).loc main_arg3))
    (iblk0 (V1 m ρ) c 1 t₀) (iblk0 (V1 m ρ) c 2 t₀) (iblk0 (V1 m ρ) c 3 t₀)
    (fun r k => (iblk0_1_apply (V1 m ρ) c t₀ r k).trans (by rw [V1_main_arg0 m ρ c]))
    (fun k j => (iblk0_2_apply (V1 m ρ) c t₀ k j).trans (by rw [V1_main_arg2 m ρ c]))
    (fun j => (iblk0_3_apply (V1 m ρ) c t₀ j).trans (V1_main_v0 m ρ c j)) k h

/-- Row r of the adjacency sits in the block of point r / 400, at row r % 400. -/
theorem blk0_row (c : Dev nD) (r k : Fin 10000) :
    iblk0 (V1 m ρ) c 0 (pt0 r) (ix2 (rw0 r) k) = (m ((c : Thread nD τ).loc main_arg1)) (ix2 r k) :=
  ((iblk0_0_apply (V1 m ρ) c (pt0 r) (rw0 r) k (by
      show 400 * (r.val / 400) + r.val % 400 < 10000
      rw [Nat.div_add_mod]; exact r.isLt)).trans
    (congrArg (fun i : Fin 10000 => V1 m ρ c main_arg1 (ix2 i k)) (Fin.ext (Nat.div_add_mod r.val 400)))).trans
    (by rw [V1_main_arg1 m ρ c])

/-- The rounded copy of the adjacency the first region leaves is the adjacency. -/
theorem adj16_value (c : Dev nD) (r k : Fin 10000) :
    V2 m ρ c main_v5_0 (ix2 r k) = (m ((c : Thread nD τ).loc main_arg1)) (ix2 r k) := by
  rw [show V2 m ρ c main_v5_0 = (dat0 (V1 m ρ) c).arrAt 6 cfg0.N from W2_arr m ρ c 6, final0_6]
  exact (Cert.KernelIdeal.PayIdeal.k0_pay2_apply (iblk0 (V1 m ρ) c 0 (pt0 r)) (rw0 r) k).trans (blk0_row m ρ c r k)

/-- The first region's second output is the specification's second dense map. -/
theorem G2_value (c : Dev nD) (r : Fin 10000) (j : Fin 128) :
    V2 m ρ c main_v5_1 (ix2 r j) = Cert.Spec.G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r j) := by
  rw [show V2 m ρ c main_v5_1 = (dat0 (V1 m ρ) c).arrAt 7 cfg0.N from W2_arr m ρ c 7, final0_7]
  exact Bridge.pay_G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk0 (V1 m ρ) c 0 (pt0 r)) (G1 (V1 m ρ) c) (iblk0 (V1 m ρ) c 4 (pt0 r)) (iblk0 (V1 m ρ) c 5 (pt0 r)) (rw0 r) r
    (blk0_row m ρ c r) (G1_value m ρ c)
    (fun h j => (iblk0_4_apply (V1 m ρ) c (pt0 r) h j).trans (by rw [V1_main_arg4 m ρ c]))
    (fun j => (iblk0_5_apply (V1 m ρ) c (pt0 r) j).trans (V1_main_v1 m ρ c j)) j

/-! ## The second region -/

/-- Row r of the adjacency sits in the block of any point whose block index is r / 1120, at row r % 1120 — whatever
    the block holds below the array's last row. -/
theorem blk1_row (c : Dev nD) (t : Fin cfg1.N) (r : Fin 10000) (ht : t.val % 9 = r.val / 1120) (k : Fin 10000) :
    xA (V2 m ρ) c t (ix2 (rw1 r) k) = (m ((c : Thread nD τ).loc main_arg1)) (ix2 r k) :=
  ((xA_apply (V2 m ρ) c t (rw1 r) k (by
      show 1120 * (t.val % 9) + r.val % 1120 < 10000
      rw [ht, Nat.div_add_mod]; exact r.isLt)).trans
    (congrArg (fun i : Fin 10000 => V2 m ρ c main_v5_0 (ix2 i k)) (Fin.ext (by
      show 1120 * (t.val % 9) + r.val % 1120 = r.val
      rw [ht]; exact Nat.div_add_mod r.val 1120)))).trans
    (adj16_value m ρ c r k)

/-- The first 10000 rows of the second region's scratch after its first pass are the specification's third dense map. -/
theorem G3_value (c : Dev nD) (k : Fin 10000) (j : Fin 128) :
    G3 (V2 m ρ) c (ix2 k j) = Cert.Spec.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 k j) :=
  Bridge.pay_G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (xA (V2 m ρ) c (pt1a k)) (iblk1 (V2 m ρ) c 1 t1₀) (iblk1 (V2 m ρ) c 2 t1₀) (iblk1 (V2 m ρ) c 3 t1₀) (rw1 k) k
    (blk1_row m ρ c (pt1a k) k (by show (k.val / 1120) % 9 = k.val / 1120; have := k.isLt; omega))
    (fun k' h => (iblk1_1_apply (V2 m ρ) c k' h).trans (G2_value m ρ c k' h))
    (fun h j => (iblk1_2_apply (V2 m ρ) c h j).trans (by rw [show V2 m ρ c main_arg6 = _ from W2_main_arg6 m ρ c]))
    (fun j => (iblk1_3_apply (V2 m ρ) c j).trans (V2_main_v2 m ρ c j)) j

/-- THE EMBEDDING: the second region's first output array is the specification's embedding of the launch arguments. -/
theorem emb_value (P : Dev nD → ℕ → Vec Ideal S10080x128 .bf16 → Prop) (c : Dev nD) :
    (dat1 (F := Ideal) (V2 m ρ) P c).arrAt 8 cfg1.N = Cert.Spec.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨r, j, rfl⟩ : ∃ (r : Fin 10000) (j : Fin 128), i = ix2 r j := ⟨i 0, i 1, eq_ix2 i⟩
  rw [final1_8]
  exact Bridge.pay_emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (xA (V2 m ρ) c (pt1 r)) (G3 (V2 m ρ) c) (rw1 r) r
    (blk1_row m ρ c (pt1 r) r (by show (9 + r.val / 1120) % 9 = r.val / 1120; have := r.isLt; omega))
    (G3_value m ρ c) j

/-- THE PROJECTION: the second region's second output array is the specification's projection of the launch arguments. -/
theorem z_value (P : Dev nD → ℕ → Vec Ideal S10080x128 .bf16 → Prop) (c : Dev nD) :
    (dat1 (F := Ideal) (V2 m ρ) P c).arrAt 9 cfg1.N = Cert.Spec.z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨r, j, rfl⟩ : ∃ (r : Fin 10000) (j : Fin 128), i = ix2 r j := ⟨i 0, i 1, eq_ix2 i⟩
  rw [final1_9]
  exact Bridge.pay_z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (xA (V2 m ρ) c (pt1 r)) (G3 (V2 m ρ) c) (iblk1 (V2 m ρ) c 4 t1₀) (iblk1 (V2 m ρ) c 5 t1₀) (iblk1 (V2 m ρ) c 6 t1₀) (iblk1 (V2 m ρ) c 7 t1₀)
    (rw1 r) r
    (blk1_row m ρ c (pt1 r) r (by show (9 + r.val / 1120) % 9 = r.val / 1120; have := r.isLt; omega))
    (G3_value m ρ c)
    (fun g h => (iblk1_4_apply (V2 m ρ) c g h).trans (by rw [show V2 m ρ c main_arg8 = _ from W2_main_arg8 m ρ c]))
    (fun h => (iblk1_5_apply (V2 m ρ) c h).trans (V2_main_v3 m ρ c h))
    (fun h j => (iblk1_6_apply (V2 m ρ) c h j).trans (by rw [show V2 m ρ c main_arg10 = _ from W2_main_arg10 m ρ c]))
    (fun j => (iblk1_7_apply (V2 m ρ) c j).trans (V2_main_v4 m ρ c j)) j

end Cert.KernelIdeal.Hand

end
-- ==== Proof.lean ====
/- The proof of `Cert.Claim`: the three frames, `preserves` (the idealization rewrote nothing) and the algebraic
   equivalence of the idealized kernel and the idealized reference.

   The kernel runs three dense graph-convolution layers and a projection head in two pipelined regions; at the
   extended reals its roundings are identities and each result entry is the same nest of finite sums as the reference's.
   Frames: each region is run point by point against proof data naming what every window's buffer and the carried
   scratch hold (modules Region0, Region1, Run, Frames; for the word-level program the second region's two result
   windows are left unnamed). Values: the result arrays after the last write-back, read at an entry, are the
   specification's stages (modules Final0, Final1, KernelValue), and so is the reference's run (RefValue). -/
import proofs.«176009_g27539330302398_cont_9to1_2132_15_alg».proof.Defs
import proofs.«176009_g27539330302398_cont_9to1_2132_15_alg».proof.Proof.Gen.Kernel
import proofs.«176009_g27539330302398_cont_9to1_2132_15_alg».proof.Proof.Gen.KernelIdeal
import proofs.«176009_g27539330302398_cont_9to1_2132_15_alg».proof.Proof.Gen.ReferenceIdeal
import proofs.«176009_g27539330302398_cont_9to1_2132_15_alg».proof.Proof.Gen.Pre_finite_inputs
import proofs.«176009_g27539330302398_cont_9to1_2132_15_alg».proof.Proof.FramesK
import proofs.«176009_g27539330302398_cont_9to1_2132_15_alg».proof.Proof.Region1ObK
import proofs.«176009_g27539330302398_cont_9to1_2132_15_alg».proof.Proof.Frames
import proofs.«176009_g27539330302398_cont_9to1_2132_15_alg».proof.Proof.Region1Ob
import proofs.«176009_g27539330302398_cont_9to1_2132_15_alg».proof.Proof.RefValue
import proofs.«176009_g27539330302398_cont_9to1_2132_15_alg».proof.Proof.Region1Ideal
import proofs.«176009_g27539330302398_cont_9to1_2132_15_alg».proof.Proof.KernelValue
import Idealize.ShloMosaic.Adequacy
import Idealize.ShloMosaic.Init

noncomputable section

namespace Cert.Proof

open Idealize.ShloMosaic Idealize.SL.Sem

/-- The word-level program's frame: the run with the second region's result windows unnamed. -/
theorem frame_k : Cert.frame_Kernel := fun m ρ _ =>
  Cert.Kernel.Hand.frame_of_run (F := Bits) m ρ (fun _ _ _ => True) Cert.Kernel.Hand.forgets1
    (fun c => Cert.Kernel.Hand.body_obligation1_forget (Cert.Kernel.Hand.V2 m ρ) c)

/-- The idealized program's frame, the same way. -/
theorem frame_ki : Cert.frame_KernelIdeal := fun m ρ _ =>
  Cert.KernelIdeal.Hand.frame_of_run (F := Ideal) m ρ (fun _ _ _ => True) Cert.KernelIdeal.Hand.forgets1
    (fun c => Cert.KernelIdeal.Hand.body_obligation1_forget (Cert.KernelIdeal.Hand.V2 m ρ) c)

/-- At the extended reals both programs end with the specification's `z` and `emb` of the (agreeing) arguments: the
    kernel by the run with every window named and its result arrays read entry by entry, the reference by its run. -/
theorem algebraic : Cert.algebraic_KernelIdeal_ReferenceIdeal := by
  intro m ρ m' ρ' _ hagree
  refine ⟨fun c => Cert.Spec.z (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.z_value m ρ _ c), (h c).2.1.trans (Cert.KernelIdeal.Hand.emb_value m ρ _ c), (h c).2.2⟩)
      (Cert.KernelIdeal.Hand.values_of_run (F := Ideal) m ρ (Cert.KernelIdeal.Hand.Pideal (Cert.KernelIdeal.Hand.V2 m ρ)) (fun _ => false)
        (fun c => Cert.KernelIdeal.Hand.body_obligation1_exact (Cert.KernelIdeal.Hand.V2 m ρ) c) rfl rfl)
  · refine (θ_run Cert.ReferenceIdeal.defs _ _).mono (fun r h c => ?_) (Cert.ReferenceIdeal.RefValue.run m' ρ')
    obtain ⟨hz, he, hargs⟩ := h c
    obtain ⟨a0, a1, a2, a3, a4, a5, a6, a7, a8, a9, a10, a11⟩ := hagree c
    rw [a0, a1, a2, a3, a4, a5, a6, a7, a8, a9, a10, a11] at hz
    rw [a0, a1, a2, a3, a4, a5, a6, a7] at he
    exact ⟨hz, he, hargs⟩

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
